-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x56x56x384 : Shape := ⟨4, ![16, 56, 56, 384]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S_ : Shape := ⟨0, ![]⟩

class Facts : Prop where
  bcast_S_S16x56x56x384 : S_.BroadcastsInDim S16x56x56x384 (![] : Fin 0 → Fin S16x56x56x384.rank)
  reducesTo_S16x56x56x384_S_d0_1_2_3 : S16x56x56x384.ReducesTo [0, 1, 2, 3] S_
  h_S_ : 0 < S_.numel
  bcast_S_S384x1152 : S_.BroadcastsInDim S384x1152 (![] : Fin 0 → Fin S384x1152.rank)
  reducesTo_S384x1152_S_d0_1 : S384x1152.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384x1152 .f32) (main_arg5 : FVec F S384x384 .f32) (main_arg6 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384x1152 .f32 := Host.absf main_arg4
  let main_cst_6 : FVec F S_ .f32 := constant S_ .f32 0x7F800000#32
  let main_v20 : FVec F S384x1152 .f32 := broadcastInDim S384x1152 ![] bcast_S_S384x1152 main_cst_6
  let main_v21 : IVec S384x1152 1 := cmpf .olt main_v19 main_v20
  let main_c_7 : IVec S_ 1 := constantI S_ 1 1#1
  let main_v22 : IVec S_ 1 := (fun x v => Host.reduce IntOp.andi x v reducesTo_S384x1152_S_d0_1 h_S_) main_v21 main_c_7
  let main_v23 : IVec S_ 1 := andi main_v18 main_v22
  let main_v24 : FVec F S384x384 .f32 := Host.absf main_arg5
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S16x56x56x384 .f32) (main_arg1 : FVec F S384x1152 .f32) (main_arg2 : FVec F S1152 .f32) (main_arg3 : FVec F S384x384 .f32) (main_arg4 : FVec F S384x1152 .f32) (main_arg5 : FVec F S384x384 .f32) (main_arg6 : FVec F S384 .f32) : IVec S_ 1 :=
  let main_v0 : FVec F S16x56x56x384 .f32 := Host.absf main_arg0
  let main_cst : FVec F S_ .f32 := constant S_ .f32 0x7F800000#32
  let main_v1 : FVec F S16x56x56x384 .f32 := broadcastInDim S16x56x56x384 ![] bcast_S_S16x56x56x384 main_cst
  let main_v2 : IVec S16x56x56x384 1 := cmpf .olt main_v0 main_v1
  let main_c : IVec S_ 1 := constantI S_ 1 1#1
  let main_v3 : IVec S_ 1 := (fun x v => Host.reduce IntOp.andi x v reducesTo_S16x56x56x384_S_d0_1_2_3 h_S_) main_v2 main_c
  let main_v4 : FVec F S384x1152 .f32 := Host.absf main_arg1
  let main_cst_0 : FVec F S_ .f32 := constant S_ .f32 0x7F800000#32
  let main_v5 : FVec F S384x1152 .f32 := broadcastInDim S384x1152 ![] bcast_S_S384x1152 main_cst_0
  let main_v6 : IVec S384x1152 1 := cmpf .olt main_v4 main_v5
  let main_c_1 : IVec S_ 1 := constantI S_ 1 1#1
  let main_v7 : IVec S_ 1 := (fun x v => Host.reduce IntOp.andi x v reducesTo_S384x1152_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_arg5 main_arg6 main_v13 main_v16
-- ==== Kernel.lean ====
abbrev S16x56x56x384 : Shape := ⟨4, ![16, 56, 56, 384]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S1x384 : Shape := ⟨2, ![1, 384]⟩
abbrev S16x1x384 : Shape := ⟨3, ![16, 1, 384]⟩
abbrev S1x56x56x384 : Shape := ⟨4, ![1, 56, 56, 384]⟩
abbrev S1x1x384 : Shape := ⟨3, ![1, 1, 384]⟩
abbrev S56x56x384 : Shape := ⟨3, ![56, 56, 384]⟩
abbrev S3136x384 : Shape := ⟨2, ![3136, 384]⟩
abbrev S56x56x96 : Shape := ⟨3, ![56, 56, 96]⟩
abbrev S56x1x96 : Shape := ⟨3, ![56, 1, 96]⟩
abbrev S56x55x96 : Shape := ⟨3, ![56, 55, 96]⟩
abbrev S1x56x96 : Shape := ⟨3, ![1, 56, 96]⟩
abbrev S55x56x96 : Shape := ⟨3, ![55, 56, 96]⟩
abbrev S56x384 : Shape := ⟨2, ![56, 384]⟩
abbrev S16x384 : Shape := ⟨2, ![16, 384]⟩
abbrev S_ : Shape := ⟨0, ![]⟩
abbrev S16x1152 : Shape := ⟨2, ![16, 1152]⟩
abbrev S16x3x384 : Shape := ⟨3, ![16, 3, 384]⟩
abbrev S1x3x384 : Shape := ⟨3, ![1, 3, 384]⟩
abbrev S3x384 : Shape := ⟨2, ![3, 384]⟩

abbrev nBuf : Space → Nat
  | .hbm => 63
  | .vmem => 36
  | .smem => 0
  | _ => 0

abbrev bufTy : (tb : Table) → Fin (tcTables nBuf tb) → BufTy
  | .hbm, ⟨0, _⟩ => ⟨S16x56x56x384, .f32⟩
  | .hbm, ⟨1, _⟩ => ⟨S384x1152, .f32⟩
  | .hbm, ⟨2, _⟩ => ⟨S1152, .f32⟩
  | .hbm, ⟨3, _⟩ => ⟨S384x384, .f32⟩
  | .hbm, ⟨4, _⟩ => ⟨S384x1152, .f32⟩
  | .hbm, ⟨5, _⟩ => ⟨S384x384, .f32⟩
  | .hbm, ⟨6, _⟩ => ⟨S384, .f32⟩
  | .hbm, ⟨7, _⟩ => ⟨S384x1152, .bf16⟩
  | .hbm, ⟨8, _⟩ => ⟨S384x384, .bf16⟩
  | .hbm, ⟨9, _⟩ => ⟨S1x384, .f32⟩
  | .hbm, ⟨10, _⟩ => ⟨S384x384, .bf16⟩
  | .hbm, ⟨11, _⟩ => ⟨S384, .f32⟩
  | .hbm, ⟨12, _⟩ => ⟨S1x384, .f32⟩
  | .hbm, ⟨13, _⟩ => ⟨S16x56x56x384, .bf16⟩
  | .hbm, ⟨14, _⟩ => ⟨S16x1x384, .f32⟩
  | .hbm, ⟨15, _⟩ => ⟨S384x384, .bf16⟩
  | .hbm, ⟨16, _⟩ => ⟨S384, .f32⟩
  | .hbm, ⟨17, _⟩ => ⟨S1x384, .f32⟩
  | .hbm, ⟨18, _⟩ => ⟨S16x56x56x384, .bf16⟩
  | .hbm, ⟨19, _⟩ => ⟨S16x1x384, .f32⟩
  | .hbm, ⟨20, _⟩ => ⟨S384x384, .bf16⟩
  | .hbm, ⟨21, _⟩ => ⟨S384, .f32⟩
  | .hbm, ⟨22, _⟩ => ⟨S1x384, .f32⟩
  | .hbm, ⟨23, _⟩ => ⟨S16x56x56x384, .bf16⟩
  | .hbm, ⟨24, _⟩ => ⟨S16x1x384, .f32⟩
  | .hbm, ⟨25, _⟩ => ⟨S16x1x384, .f32⟩
  | .hbm, ⟨26, _⟩ => ⟨S16x1x384, .f32⟩
  | .hbm, ⟨27, _⟩ => ⟨S16x384, .f32⟩
  | .hbm, ⟨28, _⟩ => ⟨S16x384, .f32⟩
  | .hbm, ⟨29, _⟩ => ⟨S16x384, .f32⟩
  | .hbm, ⟨30, _⟩ => ⟨S16x384, .f32⟩
  | .hbm, ⟨31, _⟩ => ⟨S_, .f32⟩
  | .hbm, ⟨32, _⟩ => ⟨S16x384, .f32⟩
  | .hbm, ⟨33, _⟩ => ⟨S16x384, .f32⟩
  | .hbm, ⟨34, _⟩ => ⟨S16x384, .f32⟩
  | .hbm, ⟨35, _⟩ => ⟨S_, .f32⟩
  | .hbm, ⟨36, _⟩ => ⟨S16x384, .f32⟩
  | .hbm, ⟨37, _⟩ => ⟨S16x384, .f32⟩
  | .hbm, ⟨38, _⟩ => ⟨S16x384, .f32⟩
  | .hbm, ⟨39, _⟩ => ⟨S_, .f32⟩
  | .hbm, ⟨40, _⟩ => ⟨S16x384, .f32⟩
  | .hbm, ⟨41, _⟩ => ⟨S16x384, .f32⟩
  | .hbm, ⟨42, _⟩ => ⟨S_, .f32⟩
  | .hbm, ⟨43, _⟩ => ⟨S16x384, .f32⟩
  | .hbm, ⟨44, _⟩ => ⟨S16x384, .f32⟩
  | .hbm, ⟨45, _⟩ => ⟨S16x384, .f32⟩
  | .hbm, ⟨46, _⟩ => ⟨S16x1152, .f32⟩
  | .hbm, ⟨47, _⟩ => ⟨S16x3x384, .f32⟩
  | .hbm, ⟨48, _⟩ => ⟨S_, .f32⟩
  | .hbm, ⟨49, _⟩ => ⟨S16x384, .f32⟩
  | .hbm, ⟨50, _⟩ => ⟨S_, .f32⟩
  | .hbm, ⟨51, _⟩ => ⟨S16x384, .f32⟩
  | .hbm, ⟨52, _⟩ => ⟨S16x384, .f32⟩
  | .hbm, ⟨53, _⟩ => ⟨S16x1x384, .f32⟩
  | .hbm, ⟨54, _⟩ => ⟨S16x3x384, .f32⟩
  | .hbm, ⟨55, _⟩ => ⟨S16x3x384, .f32⟩
  | .hbm, ⟨56, _⟩ => ⟨S16x3x384, .f32⟩
  | .hbm, ⟨57, _⟩ => ⟨S_, .f32⟩
  | .hbm, ⟨58, _⟩ => ⟨S16x384, .f32⟩
  | .hbm, ⟨59, _⟩ => ⟨S16x1x384, .f32⟩
  | .hbm, ⟨60, _⟩ => ⟨S16x3x384, .f32⟩
  | .hbm, ⟨61, _⟩ => ⟨S16x3x384, .f32⟩
  | .hbm, ⟨62, _⟩ => ⟨S16x56x56x384, .f32⟩
  | .local _ .vmem, ⟨0, _⟩ => ⟨S1x56x56x384, .f32⟩
  | .local _ .vmem, ⟨1, _⟩ => ⟨S1x56x56x384, .f32⟩
  | .local _ .vmem, ⟨2, _⟩ => ⟨S384x384, .bf16⟩
  | .local _ .vmem, ⟨3, _⟩ => ⟨S1x384, .f32⟩
  | .local _ .vmem, ⟨4, _⟩ => ⟨S1x56x56x384, .bf16⟩
  | .local _ .vmem, ⟨5, _⟩ => ⟨S1x56x56x384, .bf16⟩
  | .local _ .vmem, ⟨6, _⟩ => ⟨S1x1x384, .f32⟩
  | .local _ .vmem, ⟨7, _⟩ => ⟨S1x1x384, .f32⟩
  | .local _ .vmem, ⟨8, _⟩ => ⟨S1x56x56x384, .f32⟩
  | .local _ .vmem, ⟨9, _⟩ => ⟨S1x56x56x384, .f32⟩
  | .local _ .vmem, ⟨10, _⟩ => ⟨S384x384, .bf16⟩
  | .local _ .vmem, ⟨11, _⟩ => ⟨S1x384, .f32⟩
  | .local _ .vmem, ⟨12, _⟩ => ⟨S1x56x56x384, .bf16⟩
  | .local _ .vmem, ⟨13, _⟩ => ⟨S1x56x56x384, .bf16⟩
  | .local _ .vmem, ⟨14, _⟩ => ⟨S1x1x384, .f32⟩
  | .local _ .vmem, ⟨15, _⟩ => ⟨S1x1x384, .f32⟩
  | .local _ .vmem, ⟨16, _⟩ => ⟨S1x56x56x384, .f32⟩
  | .local _ .vmem, ⟨17, _⟩ => ⟨S1x56x56x384, .f32⟩
  | .local _ .vmem, ⟨18, _⟩ => ⟨S384x384, .bf16⟩
  | .local _ .vmem, ⟨19, _⟩ => ⟨S1x384, .f32⟩
  | .local _ .vmem, ⟨20, _⟩ => ⟨S1x56x56x384, .bf16⟩
  | .local _ .vmem, ⟨21, _⟩ => ⟨S1x56x56x384, .bf16⟩
  | .local _ .vmem, ⟨22, _⟩ => ⟨S1x1x384, .f32⟩
  | .local _ .vmem, ⟨23, _⟩ => ⟨S1x1x384, .f32⟩
  | .local _ .vmem, ⟨24, _⟩ => ⟨S1x56x56x384, .bf16⟩
  | .local _ .vmem, ⟨25, _⟩ => ⟨S1x56x56x384, .bf16⟩
  | .local _ .vmem, ⟨26, _⟩ => ⟨S1x56x56x384, .bf16⟩
  | .local _ .vmem, ⟨27, _⟩ => ⟨S1x56x56x384, .bf16⟩
  | .local _ .vmem, ⟨28, _⟩ => ⟨S1x56x56x384, .bf16⟩
  | .local _ .vmem, ⟨29, _⟩ => ⟨S1x56x56x384, .bf16⟩
  | .local _ .vmem, ⟨30, _⟩ => ⟨S1x3x384, .f32⟩
  | .local _ .vmem, ⟨31, _⟩ => ⟨S1x3x384, .f32⟩
  | .local _ .vmem, ⟨32, _⟩ => ⟨S384x384, .bf16⟩
  | .local _ .vmem, ⟨33, _⟩ => ⟨S1x384, .f32⟩
  | .local _ .vmem, ⟨34, _⟩ => ⟨S1x56x56x384, .f32⟩
  | .local _ .vmem, ⟨35, _⟩ => ⟨S1x56x56x384, .f32⟩
  | _, _ => ⟨S16x56x56x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x56x56x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x56x56x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x56x56x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x56x56x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x56x56x384 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x56x56x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x56x56x384 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x56x56x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x3x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S384x384 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x56x56x384 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bitsLt_bf16_f32 : FTy.bits .bf16 < FTy.bits .f32
  shapeCasts_S384_S1x384 : S384.ShapeCasts S1x384
  slices_S384x1152_S384x384_0_0 : S384x1152.Slices ![0, 0] S384x384
  slices_S1152_S384_0 : S1152.Slices ![0] S384
  inb_S1x56x56x384_S1x56x56x384_0_0_0_0 : ∀ a, (![0, 0, 0, 0] : Fin 4 → Nat) a + S1x56x56x384.size a ≤ S1x56x56x384.size a
  h_S1x56x56x384 : 0 < S1x56x56x384.numel
  shapeCasts_S1x56x56x384_S56x56x384 : S1x56x56x384.ShapeCasts S56x56x384
  shapeCasts_S56x56x384_S3136x384 : S56x56x384.ShapeCasts S3136x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S3136x384 : S1x384.Broadcasts S3136x384
  shapeCasts_S3136x384_S56x56x384 : S3136x384.ShapeCasts S56x56x384
  slices_S56x56x384_o0_0_0_S56x56x96 : S56x56x384.Slices ![0, 0, 0] S56x56x96
  slices_S56x56x384_o0_0_96_S56x56x96 : S56x56x384.Slices ![0, 0, 96] S56x56x96
  slices_S56x56x384_o0_0_192_S56x56x96 : S56x56x384.Slices ![0, 0, 192] S56x56x96
  slices_S56x56x384_o0_0_288_S56x56x96 : S56x56x384.Slices ![0, 0, 288] S56x56x96
  slices_S56x56x96_o0_0_0_S56x1x96 : S56x56x96.Slices ![0, 0, 0] S56x1x96
  slices_S56x56x96_o0_0_0_S56x55x96 : S56x56x96.Slices ![0, 0, 0] S56x55x96
  concatenates_S56x1x96_S56x55x96_S56x56x96_d1 : Shape.Concatenates [S56x1x96, S56x55x96] S56x56x96 1
  slices_S56x56x96_o0_1_0_S56x55x96 : S56x56x96.Slices ![0, 1, 0] S56x55x96
  slices_S56x56x96_o0_55_0_S56x1x96 : S56x56x96.Slices ![0, 55, 0] S56x1x96
  concatenates_S56x55x96_S56x1x96_S56x56x96_d1 : Shape.Concatenates [S56x55x96, S56x1x96] S56x56x96 1
  slices_S56x56x96_o0_0_0_S1x56x96 : S56x56x96.Slices ![0, 0, 0] S1x56x96
  slices_S56x56x96_o0_0_0_S55x56x96 : S56x56x96.Slices ![0, 0, 0] S55x56x96
  concatenates_S1x56x96_S55x56x96_S56x56x96_d0 : Shape.Concatenates [S1x56x96, S55x56x96] S56x56x96 0
  slices_S56x56x96_o1_0_0_S55x56x96 : S56x56x96.Slices ![1, 0, 0] S55x56x96
  slices_S56x56x96_o55_0_0_S1x56x96 : S56x56x96.Slices ![55, 0, 0] S1x56x96
  concatenates_S55x56x96_S1x56x96_S56x56x96_d0 : Shape.Concatenates [S55x56x96, S1x56x96] S56x56x96 0
  concatenates_S56x56x96_S56x56x96_S56x56x96_S56x56x96_S56x56x384_d2 : Shape.Concatenates [S56x56x96, S56x56x96, S56x56x96, S56x56x96] S56x56x384 2
  shapeCasts_S56x56x384_S1x56x56x384 : S56x56x384.ShapeCasts S1x56x56x384
  packedbf16_S1x56x56x384_S1x56x56x384_0_0_0_0 : (Rect.unit (s := S1x56x56x384) ![0, 0, 0, 0] S1x56x56x384.size inb_S1x56x56x384_S1x56x56x384_0_0_0_0).PackedRows (EltTy.packing .bf16)
  reduces_S56x56x384_S56x384 : S56x56x384.Reduces [0] S56x384
  reduces_S56x384_S384 : S56x384.Reduces [0] S384
  inb_S1x1x384_S1x1x384_0_0_0 : ∀ a, (![0, 0, 0] : Fin 3 → Nat) a + S1x1x384.size a ≤ S1x1x384.size a
  h_S1x1x384 : 0 < S1x1x384.numel
  shapeCasts_S1x1x384_S1x384 : S1x1x384.ShapeCasts S1x384
  shapeCasts_S1x384_S1x1x384 : S1x384.ShapeCasts S1x1x384
  slices_S384x1152_S384x384_0_384 : S384x1152.Slices ![0, 384] S384x384
  slices_S1152_S384_384 : S1152.Slices ![384] S384
  slices_S384x1152_S384x384_0_768 : S384x1152.Slices ![0, 768] S384x384
  slices_S1152_S384_768 : S1152.Slices ![768] S384
  shapeCasts_S16x1x384_S16x384 : S16x1x384.ShapeCasts S16x384
  bcast_S_S16x384 : S_.BroadcastsInDim S16x384 (![] : Fin 0 → Fin S16x384.rank)
  shapeCasts_S16x1152_S16x3x384 : S16x1152.ShapeCasts S16x3x384
  reducesTo_S16x3x384_S16x384_d1 : S16x3x384.ReducesTo [1] S16x384
  h_S_ : 0 < S_.numel
  bcast_S16x384_S16x1x384_0_2 : S16x384.BroadcastsInDim S16x1x384 (![0, 2] : Fin 2 → Fin S16x1x384.rank)
  bcast_S16x1x384_S16x3x384_0_1_2 : S16x1x384.BroadcastsInDim S16x3x384 (![0, 1, 2] : Fin 3 → Fin S16x3x384.rank)
  inb_S1x3x384_S1x3x384_0_0_0 : ∀ a, (![0, 0, 0] : Fin 3 → Nat) a + S1x3x384.size a ≤ S1x3x384.size a
  h_S1x3x384 : 0 < S1x3x384.numel
  shapeCasts_S1x3x384_S3x384 : S1x3x384.ShapeCasts S3x384
  slices_S3x384_o0_0_S1x384 : S3x384.Slices ![0, 0] S1x384
  shapeCasts_S1x384_S384 : S1x384.ShapeCasts S384
  shapeCasts_S384_S1x1x384 : S384.ShapeCasts S1x1x384
  slices_S3x384_o1_0_S1x384 : S3x384.Slices ![1, 0] S1x384
  slices_S3x384_o2_0_S1x384 : S3x384.Slices ![2, 0] S1x384
  broadcasts_S1x1x384_S56x56x384 : S1x1x384.Broadcasts S56x56x384
  dot_S3136x384_S384x384_S3136x384_1_0_0_1_n_n_wf : DotDims.WF S3136x384 S384x384 S3136x384 [1] [0] [0] [1] [] []
  dot_S16x384_S384x384_S16x384_1_0_0_1_n_n_wf : DotDims.WF S16x384 S384x384 S16x384 [1] [0] [0] [1] [] []
  dot_S16x384_S384x1152_S16x1152_1_0_0_1_n_n_wf : DotDims.WF S16x384 S384x1152 S16x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x384.size a ≤ S16x56x56x384.size a
  hwx0_0 : ∀ i : grid0.Coords, EltTy.bits .f32 = 32 ∨ (Rect.block (s := S16x56x56x384) S1x56x56x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .bf16 = 32 ∨ (Rect.block (s := S384x384) S384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x56x56x384.size a ≤ S16x56x56x384.size a
  hwx0_3 : ∀ i : grid0.Coords, EltTy.bits .bf16 = 32 ∨ (Rect.block (s := S16x56x56x384) S1x56x56x384.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x384.size a ≤ S16x1x384.size a
  hwx0_4 : ∀ i : grid0.Coords, EltTy.bits .f32 = 32 ∨ (Rect.block (s := S16x1x384) S1x1x384.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x56x56x384.size a ≤ S16x56x56x384.size a
  hwx1_0 : ∀ i : grid1.Coords, EltTy.bits .f32 = 32 ∨ (Rect.block (s := S16x56x56x384) S1x56x56x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x384.size a ≤ S384x384.size a
  hwx1_1 : ∀ i : grid1.Coords, EltTy.bits .bf16 = 32 ∨ (Rect.block (s := S384x384) S384x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x56x56x384.size a ≤ S16x56x56x384.size a
  hwx1_3 : ∀ i : grid1.Coords, EltTy.bits .bf16 = 32 ∨ (Rect.block (s := S16x56x56x384) S1x56x56x384.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x384.size a ≤ S16x1x384.size a
  hwx1_4 : ∀ i : grid1.Coords, EltTy.bits .f32 = 32 ∨ (Rect.block (s := S16x1x384) S1x1x384.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x56x56x384.size a ≤ S16x56x56x384.size a
  hwx2_0 : ∀ i : grid2.Coords, EltTy.bits .f32 = 32 ∨ (Rect.block (s := S16x56x56x384) S1x56x56x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x384.size a ≤ S384x384.size a
  hwx2_1 : ∀ i : grid2.Coords, EltTy.bits .bf16 = 32 ∨ (Rect.block (s := S384x384) S384x384.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x56x56x384.size a ≤ S16x56x56x384.size a
  hwx2_3 : ∀ i : grid2.Coords, EltTy.bits .bf16 = 32 ∨ (Rect.block (s := S16x56x56x384) S1x56x56x384.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x384.size a ≤ S16x1x384.size a
  hwx2_4 : ∀ i : grid2.Coords, EltTy.bits .f32 = 32 ∨ (Rect.block (s := S16x1x384) S1x1x384.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x56x56x384.size a ≤ S16x56x56x384.size a
  hwx3_0 : ∀ i : grid3.Coords, EltTy.bits .bf16 = 32 ∨ (Rect.block (s := S16x56x56x384) S1x56x56x384.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x56x56x384.size a ≤ S16x56x56x384.size a
  hwx3_1 : ∀ i : grid3.Coords, EltTy.bits .bf16 = 32 ∨ (Rect.block (s := S16x56x56x384) S1x56x56x384.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x56x56x384.size a ≤ S16x56x56x384.size a
  hwx3_2 : ∀ i : grid3.Coords, EltTy.bits .bf16 = 32 ∨ (Rect.block (s := S16x56x56x384) S1x56x56x384.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x3x384.size a ≤ S16x3x384.size a
  hwx3_3 : ∀ i : grid3.Coords, EltTy.bits .f32 = 32 ∨ (Rect.block (s := S16x3x384) S1x3x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x384.size a ≤ S384x384.size a
  hwx3_4 : ∀ i : grid3.Coords, EltTy.bits .bf16 = 32 ∨ (Rect.block (s := S384x384) S384x384.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x56x56x384.size a ≤ S16x56x56x384.size a
  hwx3_6 : ∀ i : grid3.Coords, EltTy.bits .f32 = 32 ∨ (Rect.block (s := S16x56x56x384) S1x56x56x384.size (cc3_transform_6 i) (hinb3_6 i)).WholeWords (EltTy.packing .f32)

variable [Facts₀]

def dot_S3136x384_S384x384_S3136x384_1_0_0_1_n_n : DotDims S3136x384 S384x384 S3136x384 where
  lhsContracting := [1]
  rhsContracting := [0]
  lhsNonContracting := [0]
  rhsNonContracting := [1]
  lhsBatch := []
  rhsBatch := []
  wf := dot_S3136x384_S384x384_S3136x384_1_0_0_1_n_n_wf
def dot_S16x384_S384x384_S16x384_1_0_0_1_n_n : DotDims S16x384 S384x384 S16x384 where
  lhsContracting := [1]
  rhsContracting := [0]
  lhsNonContracting := [0]
  rhsNonContracting := [1]
  lhsBatch := []
  rhsBatch := []
  wf := dot_S16x384_S384x384_S16x384_1_0_0_1_n_n_wf
def dot_S16x384_S384x1152_S16x1152_1_0_0_1_n_n : DotDims S16x384 S384x1152 S16x1152 where
  lhsContracting := [1]
  rhsContracting := [0]
  lhsNonContracting := [0]
  rhsNonContracting := [1]
  lhsBatch := []
  rhsBatch := []
  wf := dot_S16x384_S384x1152_S16x1152_1_0_0_1_n_n_wf

abbrev win0_0 : Pipeline.Window sig grid0 :=
  Pipeline.Window.ofSpec (Memref.whole main_arg0) S1x56x56x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x56x56x384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x56x56x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S384x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S1x56x56x384.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S1x1x384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1x56x56x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S384x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14_0) S1x56x56x384.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14_1) S1x1x384.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v6_0) S1x56x56x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10_0) S1x56x56x384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14_0) S1x56x56x384.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x3x384.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S384x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v2) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x56x56x384.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16x56x56x384 : Shape := ⟨4, ![16, 56, 56, 384]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S16x56x56x1152 : Shape := ⟨4, ![16, 56, 56, 1152]⟩
abbrev S1x1x1x1152 : Shape := ⟨4, ![1, 1, 1, 1152]⟩
abbrev S16x56x56x96 : Shape := ⟨4, ![16, 56, 56, 96]⟩
abbrev S16x56x1x96 : Shape := ⟨4, ![16, 56, 1, 96]⟩
abbrev S16x56x55x96 : Shape := ⟨4, ![16, 56, 55, 96]⟩
abbrev S16x1x56x96 : Shape := ⟨4, ![16, 1, 56, 96]⟩
abbrev S16x55x56x96 : Shape := ⟨4, ![16, 55, 56, 96]⟩
abbrev S16x1x56x56x384 : Shape := ⟨5, ![16, 1, 56, 56, 384]⟩
abbrev S16x3x56x56x384 : Shape := ⟨5, ![16, 3, 56, 56, 384]⟩
abbrev S16x3x3136x384 : Shape := ⟨4, ![16, 3, 3136, 384]⟩
abbrev S_ : Shape := ⟨0, ![]⟩
abbrev S16x384 : Shape := ⟨2, ![16, 384]⟩
abbrev S16x1152 : Shape := ⟨2, ![16, 1152]⟩
abbrev S16x3x384 : Shape := ⟨3, ![16, 3, 384]⟩
abbrev S16x1x384 : Shape := ⟨3, ![16, 1, 384]⟩
abbrev S16x3x1x384 : Shape := ⟨4, ![16, 3, 1, 384]⟩
abbrev S16x3136x384 : Shape := ⟨3, ![16, 3136, 384]⟩
abbrev S1x1x1x384 : Shape := ⟨4, ![1, 1, 1, 384]⟩

abbrev nBuf : Space → Nat
  | .hbm => 99
  | .vmem => 0
  | .smem => 0
  | _ => 0

abbrev bufTy : (tb : Table) → Fin (tcTables nBuf tb) → BufTy
  | .hbm, ⟨0, _⟩ => ⟨S16x56x56x384, .f32⟩
  | .hbm, ⟨1, _⟩ => ⟨S384x1152, .f32⟩
  | .hbm, ⟨2, _⟩ => ⟨S1152, .f32⟩
  | .hbm, ⟨3, _⟩ => ⟨S384x384, .f32⟩
  | .hbm, ⟨4, _⟩ => ⟨S384x1152, .f32⟩
  | .hbm, ⟨5, _⟩ => ⟨S384x384, .f32⟩
  | .hbm, ⟨6, _⟩ => ⟨S384, .f32⟩
  | .hbm, ⟨7, _⟩ => ⟨S16x56x56x1152, .f32⟩
  | .hbm, ⟨8, _⟩ => ⟨S1x1x1x1152, .f32⟩
  | .hbm, ⟨9, _⟩ => ⟨S16x56x56x1152, .f32⟩
  | .hbm, ⟨10, _⟩ => ⟨S16x56x56x1152, .f32⟩
  | .hbm, ⟨11, _⟩ => ⟨S16x56x56x384, .f32⟩
  | .hbm, ⟨12, _⟩ => ⟨S16x56x56x96, .f32⟩
  | .hbm, ⟨13, _⟩ => ⟨S16x56x56x96, .f32⟩
  | .hbm, ⟨14, _⟩ => ⟨S16x56x56x96, .f32⟩
  | .hbm, ⟨15, _⟩ => ⟨S16x56x56x96, .f32⟩
  | .hbm, ⟨16, _⟩ => ⟨S16x56x1x96, .f32⟩
  | .hbm, ⟨17, _⟩ => ⟨S16x56x55x96, .f32⟩
  | .hbm, ⟨18, _⟩ => ⟨S16x56x56x96, .f32⟩
  | .hbm, ⟨19, _⟩ => ⟨S16x56x55x96, .f32⟩
  | .hbm, ⟨20, _⟩ => ⟨S16x56x1x96, .f32⟩
  | .hbm, ⟨21, _⟩ => ⟨S16x56x56x96, .f32⟩
  | .hbm, ⟨22, _⟩ => ⟨S16x1x56x96, .f32⟩
  | .hbm, ⟨23, _⟩ => ⟨S16x55x56x96, .f32⟩
  | .hbm, ⟨24, _⟩ => ⟨S16x56x56x96, .f32⟩
  | .hbm, ⟨25, _⟩ => ⟨S16x55x56x96, .f32⟩
  | .hbm, ⟨26, _⟩ => ⟨S16x1x56x96, .f32⟩
  | .hbm, ⟨27, _⟩ => ⟨S16x56x56x96, .f32⟩
  | .hbm, ⟨28, _⟩ => ⟨S16x56x56x384, .f32⟩
  | .hbm, ⟨29, _⟩ => ⟨S16x56x56x384, .f32⟩
  | .hbm, ⟨30, _⟩ => ⟨S16x56x56x96, .f32⟩
  | .hbm, ⟨31, _⟩ => ⟨S16x56x56x96, .f32⟩
  | .hbm, ⟨32, _⟩ => ⟨S16x56x56x96, .f32⟩
  | .hbm, ⟨33, _⟩ => ⟨S16x56x56x96, .f32⟩
  | .hbm, ⟨34, _⟩ => ⟨S16x1x56x96, .f32⟩
  | .hbm, ⟨35, _⟩ => ⟨S16x55x56x96, .f32⟩
  | .hbm, ⟨36, _⟩ => ⟨S16x56x56x96, .f32⟩
  | .hbm, ⟨37, _⟩ => ⟨S16x55x56x96, .f32⟩
  | .hbm, ⟨38, _⟩ => ⟨S16x1x56x96, .f32⟩
  | .hbm, ⟨39, _⟩ => ⟨S16x56x56x96, .f32⟩
  | .hbm, ⟨40, _⟩ => ⟨S16x56x1x96, .f32⟩
  | .hbm, ⟨41, _⟩ => ⟨S16x56x55x96, .f32⟩
  | .hbm, ⟨42, _⟩ => ⟨S16x56x56x96, .f32⟩
  | .hbm, ⟨43, _⟩ => ⟨S16x56x55x96, .f32⟩
  | .hbm, ⟨44, _⟩ => ⟨S16x56x1x96, .f32⟩
  | .hbm, ⟨45, _⟩ => ⟨S16x56x56x96, .f32⟩
  | .hbm, ⟨46, _⟩ => ⟨S16x56x56x384, .f32⟩
  | .hbm, ⟨47, _⟩ => ⟨S16x56x56x384, .f32⟩
  | .hbm, ⟨48, _⟩ => ⟨S16x1x56x56x384, .f32⟩
  | .hbm, ⟨49, _⟩ => ⟨S16x1x56x56x384, .f32⟩
  | .hbm, ⟨50, _⟩ => ⟨S16x1x56x56x384, .f32⟩
  | .hbm, ⟨51, _⟩ => ⟨S16x3x56x56x384, .f32⟩
  | .hbm, ⟨52, _⟩ => ⟨S16x3x3136x384, .f32⟩
  | .hbm, ⟨53, _⟩ => ⟨S_, .f32⟩
  | .hbm, ⟨54, _⟩ => ⟨S16x384, .f32⟩
  | .hbm, ⟨55, _⟩ => ⟨S16x384, .f32⟩
  | .hbm, ⟨56, _⟩ => ⟨S16x384, .f32⟩
  | .hbm, ⟨57, _⟩ => ⟨S16x384, .f32⟩
  | .hbm, ⟨58, _⟩ => ⟨S_, .f32⟩
  | .hbm, ⟨59, _⟩ => ⟨S16x384, .f32⟩
  | .hbm, ⟨60, _⟩ => ⟨S16x384, .f32⟩
  | .hbm, ⟨61, _⟩ => ⟨S16x384, .f32⟩
  | .hbm, ⟨62, _⟩ => ⟨S_, .f32⟩
  | .hbm, ⟨63, _⟩ => ⟨S16x384, .f32⟩
  | .hbm, ⟨64, _⟩ => ⟨S16x384, .f32⟩
  | .hbm, ⟨65, _⟩ => ⟨S16x384, .f32⟩
  | .hbm, ⟨66, _⟩ => ⟨S_, .f32⟩
  | .hbm, ⟨67, _⟩ => ⟨S16x384, .f32⟩
  | .hbm, ⟨68, _⟩ => ⟨S16x384, .f32⟩
  | .hbm, ⟨69, _⟩ => ⟨S_, .f32⟩
  | .hbm, ⟨70, _⟩ => ⟨S16x384, .f32⟩
  | .hbm, ⟨71, _⟩ => ⟨S16x384, .f32⟩
  | .hbm, ⟨72, _⟩ => ⟨S16x384, .f32⟩
  | .hbm, ⟨73, _⟩ => ⟨S16x1152, .f32⟩
  | .hbm, ⟨74, _⟩ => ⟨S16x3x384, .f32⟩
  | .hbm, ⟨75, _⟩ => ⟨S_, .f32⟩
  | .hbm, ⟨76, _⟩ => ⟨S16x384, .f32⟩
  | .hbm, ⟨77, _⟩ => ⟨S_, .f32⟩
  | .hbm, ⟨78, _⟩ => ⟨S16x384, .f32⟩
  | .hbm, ⟨79, _⟩ => ⟨S16x384, .f32⟩
  | .hbm, ⟨80, _⟩ => ⟨S16x1x384, .f32⟩
  | .hbm, ⟨81, _⟩ => ⟨S16x3x384, .f32⟩
  | .hbm, ⟨82, _⟩ => ⟨S16x3x384, .f32⟩
  | .hbm, ⟨83, _⟩ => ⟨S16x3x384, .f32⟩
  | .hbm, ⟨84, _⟩ => ⟨S_, .f32⟩
  | .hbm, ⟨85, _⟩ => ⟨S16x384, .f32⟩
  | .hbm, ⟨86, _⟩ => ⟨S16x1x384, .f32⟩
  | .hbm, ⟨87, _⟩ => ⟨S16x3x384, .f32⟩
  | .hbm, ⟨88, _⟩ => ⟨S16x3x384, .f32⟩
  | .hbm, ⟨89, _⟩ => ⟨S16x3x1x384, .f32⟩
  | .hbm, ⟨90, _⟩ => ⟨S16x3x3136x384, .f32⟩
  | .hbm, ⟨91, _⟩ => ⟨S16x3x3136x384, .f32⟩
  | .hbm, ⟨92, _⟩ => ⟨S_, .f32⟩
  | .hbm, ⟨93, _⟩ => ⟨S16x3136x384, .f32⟩
  | .hbm, ⟨94, _⟩ => ⟨S16x56x56x384, .f32⟩
  | .hbm, ⟨95, _⟩ => ⟨S16x56x56x384, .f32⟩
  | .hbm, ⟨96, _⟩ => ⟨S1x1x1x384, .f32⟩
  | .hbm, ⟨97, _⟩ => ⟨S16x56x56x384, .f32⟩
  | .hbm, ⟨98, _⟩ => ⟨S16x56x56x384, .f32⟩
  | _, _ => ⟨S16x56x56x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_0 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_1 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_2 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]

class Facts₀ : Prop where
  bcast_S1152_S1x1x1x1152_3 : S1152.BroadcastsInDim S1x1x1x1152 (![3] : Fin 1 → Fin S1x1x1x1152.rank)
  bcast_S1x1x1x1152_S16x56x56x1152_0_1_2_3 : S1x1x1x1152.BroadcastsInDim S16x56x56x1152 (![0, 1, 2, 3] : Fin 4 → Fin S16x56x56x1152.rank)
  slices_S16x56x56x1152_S16x56x56x384_0_0_0_0 : S16x56x56x1152.Slices ![0, 0, 0, 0] S16x56x56x384
  slices_S16x56x56x384_S16x56x56x96_0_0_0_0 : S16x56x56x384.Slices ![0, 0, 0, 0] S16x56x56x96
  slices_S16x56x56x384_S16x56x56x96_0_0_0_96 : S16x56x56x384.Slices ![0, 0, 0, 96] S16x56x56x96
  slices_S16x56x56x384_S16x56x56x96_0_0_0_192 : S16x56x56x384.Slices ![0, 0, 0, 192] S16x56x56x96
  slices_S16x56x56x384_S16x56x56x96_0_0_0_288 : S16x56x56x384.Slices ![0, 0, 0, 288] S16x56x56x96
  slices_S16x56x56x96_S16x56x1x96_0_0_0_0 : S16x56x56x96.Slices ![0, 0, 0, 0] S16x56x1x96
  slices_S16x56x56x96_S16x56x55x96_0_0_0_0 : S16x56x56x96.Slices ![0, 0, 0, 0] S16x56x55x96
  concatenates_S16x56x1x96_S16x56x55x96_S16x56x56x96_d2 : Shape.Concatenates [S16x56x1x96, S16x56x55x96] S16x56x56x96 2
  slices_S16x56x56x96_S16x56x55x96_0_0_1_0 : S16x56x56x96.Slices ![0, 0, 1, 0] S16x56x55x96
  slices_S16x56x56x96_S16x56x1x96_0_0_55_0 : S16x56x56x96.Slices ![0, 0, 55, 0] S16x56x1x96
  concatenates_S16x56x55x96_S16x56x1x96_S16x56x56x96_d2 : Shape.Concatenates [S16x56x55x96, S16x56x1x96] S16x56x56x96 2
  slices_S16x56x56x96_S16x1x56x96_0_0_0_0 : S16x56x56x96.Slices ![0, 0, 0, 0] S16x1x56x96
  slices_S16x56x56x96_S16x55x56x96_0_0_0_0 : S16x56x56x96.Slices ![0, 0, 0, 0] S16x55x56x96
  concatenates_S16x1x56x96_S16x55x56x96_S16x56x56x96_d1 : Shape.Concatenates [S16x1x56x96, S16x55x56x96] S16x56x56x96 1
  slices_S16x56x56x96_S16x55x56x96_0_1_0_0 : S16x56x56x96.Slices ![0, 1, 0, 0] S16x55x56x96
  slices_S16x56x56x96_S16x1x56x96_0_55_0_0 : S16x56x56x96.Slices ![0, 55, 0, 0] S16x1x56x96
  concatenates_S16x55x56x96_S16x1x56x96_S16x56x56x96_d1 : Shape.Concatenates [S16x55x56x96, S16x1x56x96] S16x56x56x96 1
  concatenates_S16x56x56x96_S16x56x56x96_S16x56x56x96_S16x56x56x96_S16x56x56x384_d3 : Shape.Concatenates [S16x56x56x96, S16x56x56x96, S16x56x56x96, S16x56x56x96] S16x56x56x384 3
  slices_S16x56x56x1152_S16x56x56x384_0_0_0_384 : S16x56x56x1152.Slices ![0, 0, 0, 384] S16x56x56x384
  slices_S16x56x56x1152_S16x56x56x384_0_0_0_768 : S16x56x56x1152.Slices ![0, 0, 0, 768] S16x56x56x384
  bcast_S16x56x56x384_S16x1x56x56x384_0_2_3_4 : S16x56x56x384.BroadcastsInDim S16x1x56x56x384 (![0, 2, 3, 4] : Fin 4 → Fin S16x1x56x56x384.rank)
  concatenates_S16x1x56x56x384_S16x1x56x56x384_S16x1x56x56x384_S16x3x56x56x384_d1 : Shape.Concatenates [S16x1x56x56x384, S16x1x56x56x384, S16x1x56x56x384] S16x3x56x56x384 1
  shapeCasts_S16x3x56x56x384_S16x3x3136x384 : S16x3x56x56x384.ShapeCasts S16x3x3136x384
  reducesTo_S16x3x3136x384_S16x384_d1_2 : S16x3x3136x384.ReducesTo [1, 2] S16x384
  h_S_ : 0 < S_.numel
  bcast_S_S16x384 : S_.BroadcastsInDim S16x384 (![] : Fin 0 → Fin S16x384.rank)
  shapeCasts_S16x1152_S16x3x384 : S16x1152.ShapeCasts S16x3x384
  reducesTo_S16x3x384_S16x384_d1 : S16x3x384.ReducesTo [1] S16x384
  bcast_S16x384_S16x1x384_0_2 : S16x384.BroadcastsInDim S16x1x384 (![0, 2] : Fin 2 → Fin S16x1x384.rank)
  bcast_S16x1x384_S16x3x384_0_1_2 : S16x1x384.BroadcastsInDim S16x3x384 (![0, 1, 2] : Fin 3 → Fin S16x3x384.rank)
  bcast_S16x3x384_S16x3x1x384_0_1_3 : S16x3x384.BroadcastsInDim S16x3x1x384 (![0, 1, 3] : Fin 3 → Fin S16x3x1x384.rank)
  bcast_S16x3x1x384_S16x3x3136x384_0_1_2_3 : S16x3x1x384.BroadcastsInDim S16x3x3136x384 (![0, 1, 2, 3] : Fin 4 → Fin S16x3x3136x384.rank)
  reducesTo_S16x3x3136x384_S16x3136x384_d1 : S16x3x3136x384.ReducesTo [1] S16x3136x384
  shapeCasts_S16x3136x384_S16x56x56x384 : S16x3136x384.ShapeCasts S16x56x56x384
  bcast_S384_S1x1x1x384_3 : S384.BroadcastsInDim S1x1x1x384 (![3] : Fin 1 → Fin S1x1x1x384.rank)
  bcast_S1x1x1x384_S16x56x56x384_0_1_2_3 : S1x1x1x384.BroadcastsInDim S16x56x56x384 (![0, 1, 2, 3] : Fin 4 → Fin S16x56x56x384.rank)
  dot_S16x56x56x384_S384x1152_S16x56x56x1152_3_0_012_1_n_n_wf : DotDims.WF S16x56x56x384 S384x1152 S16x56x56x1152 [3] [0] [0, 1, 2] [1] [] []
  dot_S16x384_S384x384_S16x384_1_0_0_1_n_n_wf : DotDims.WF S16x384 S384x384 S16x384 [1] [0] [0] [1] [] []
  dot_S16x384_S384x1152_S16x1152_1_0_0_1_n_n_wf : DotDims.WF S16x384 S384x1152 S16x1152 [1] [0] [0] [1] [] []
  dot_S16x56x56x384_S384x384_S16x56x56x384_3_0_012_1_n_n_wf : DotDims.WF S16x56x56x384 S384x384 S16x56x56x384 [3] [0] [0, 1, 2] [1] [] []

variable [Facts₀]

def dot_S16x56x56x384_S384x1152_S16x56x56x1152_3_0_012_1_n_n : DotDims S16x56x56x384 S384x1152 S16x56x56x1152 where
  lhsContracting := [3]
  rhsContracting := [0]
  lhsNonContracting := [0, 1, 2]
  rhsNonContracting := [1]
  lhsBatch := []
  rhsBatch := []
  wf := dot_S16x56x56x384_S384x1152_S16x56x56x1152_3_0_012_1_n_n_wf
def dot_S16x384_S384x384_S16x384_1_0_0_1_n_n : DotDims S16x384 S384x384 S16x384 where
  lhsContracting := [1]
  rhsContracting := [0]
  lhsNonContracting := [0]
  rhsNonContracting := [1]
  lhsBatch := []
  rhsBatch := []
  wf := dot_S16x384_S384x384_S16x384_1_0_0_1_n_n_wf
def dot_S16x384_S384x1152_S16x1152_1_0_0_1_n_n : DotDims S16x384 S384x1152 S16x1152 where
  lhsContracting := [1]
  rhsContracting := [0]
  lhsNonContracting := [0]
  rhsNonContracting := [1]
  lhsBatch := []
  rhsBatch := []
  wf := dot_S16x384_S384x1152_S16x1152_1_0_0_1_n_n_wf
def dot_S16x56x56x384_S384x384_S16x56x56x384_3_0_012_1_n_n : DotDims S16x56x56x384 S384x384 S16x56x56x384 where
  lhsContracting := [3]
  rhsContracting := [0]
  lhsNonContracting := [0, 1, 2]
  rhsNonContracting := [1]
  lhsBatch := []
  rhsBatch := []
  wf := dot_S16x56x56x384_S384x384_S16x56x56x384_3_0_012_1_n_n_wf

class Facts : Prop extends Facts₀ where

variable [Facts]
-- ==== Proof.Fold.lean ====
/-
  What the kernel program's buffers hold at the boundaries of its run: the launch memory pushed through the first stretch
  of host operations. The weights of the first projection are rounded to bf16 (the identity on extended reals) and the
  columns of each group cut out; the bias is cut into the groups' entries and laid out as a row; the second projection's
  weights are rounded and its bias laid out as a row. No stretch and no region writes an argument buffer.
-/
import proofs.«106878_j9723805958798_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer it does not write as it found it. -/
macro "host_keeps " b:term : tactic => `(tactic|
  exact StableHlo.after_of_forall_not_mem (b := Proc.devRef .tc $b) _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps main_arg0
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps main_arg2
    _ = m ((c : Thread nD τ).loc main_arg2) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps main_arg3
    _ = m ((c : Thread nD τ).loc main_arg3) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps main_arg4
    _ = m ((c : Thread nD τ).loc main_arg4) := rfl

/-- The first projection's weights, rounded. -/
theorem W1_v0 (c : Dev nD) : W1 m ρ c (Proc.devRef .tc main_v0)
    = (truncf .bf16 (m ((c : Thread nD τ).loc main_arg1) : (⟨S384x1152, .f32⟩ : BufTy).Contents (Elt F)) bitsLt_bf16_f32 : (⟨S384x1152, .bf16⟩ : BufTy).Contents (Elt F)) := by
  show StableHlo.after hostOps0 (W0 m ρ c) (Proc.devRef .tc main_v0) = _
  after_results <;> rfl

/-- The second projection's weights, rounded. -/
theorem W1_v1 (c : Dev nD) : W1 m ρ c (Proc.devRef .tc main_v1)
    = (truncf .bf16 (m ((c : Thread nD τ).loc main_arg5) : (⟨S384x384, .f32⟩ : BufTy).Contents (Elt F)) bitsLt_bf16_f32 : (⟨S384x384, .bf16⟩ : BufTy).Contents (Elt F)) := by
  show StableHlo.after hostOps0 (W0 m ρ c) (Proc.devRef .tc main_v1) = _
  after_results <;> rfl

/-- The second projection's bias as a row. -/
theorem W1_v2 (c : Dev nD) : W1 m ρ c (Proc.devRef .tc main_v2)
    = (shapeCast S1x384 (m ((c : Thread nD τ).loc main_arg6) : (⟨S384, .f32⟩ : BufTy).Contents (Elt F)) shapeCasts_S384_S1x384 : (⟨S1x384, .f32⟩ : BufTy).Contents (Elt F)) := by
  show StableHlo.after hostOps0 (W0 m ρ c) (Proc.devRef .tc main_v2) = _
  after_results <;> rfl

/-- Group 0's columns of the rounded weights. -/
theorem W1_v3 (c : Dev nD) : W1 m ρ c (Proc.devRef .tc main_v3)
    = (extractStridedSlice S384x384 ![0, 0] (truncf .bf16 (m ((c : Thread nD τ).loc main_arg1) : (⟨S384x1152, .f32⟩ : BufTy).Contents (Elt F)) bitsLt_bf16_f32) slices_S384x1152_S384x384_0_0 : (⟨S384x384, .bf16⟩ : BufTy).Contents (Elt F)) := by
  show StableHlo.after hostOps0 (W0 m ρ c) (Proc.devRef .tc main_v3) = _
  after_results <;> rfl

/-- Group 0's entries of the bias as a row. -/
theorem W1_v5 (c : Dev nD) : W1 m ρ c (Proc.devRef .tc main_v5)
    = (shapeCast S1x384 (extractStridedSlice S384 ![0] (m ((c : Thread nD τ).loc main_arg2) : (⟨S1152, .f32⟩ : BufTy).Contents (Elt F)) slices_S1152_S384_0) shapeCasts_S384_S1x384 : (⟨S1x384, .f32⟩ : BufTy).Contents (Elt F)) := by
  show StableHlo.after hostOps0 (W0 m ρ c) (Proc.devRef .tc main_v5) = _
  after_results <;> rfl

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps main_arg5
    _ = m ((c : Thread nD τ).loc main_arg5) := rfl

/-! ## Region 0 leaves alone what is not one of its arrays; its input arrays end as entered -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) : W2 m ρ c (Proc.devRef .tc main_v0) = W1 m ρ c (Proc.devRef .tc main_v0) :=
  W2_of_ne m ρ c main_v0 (by decide)
theorem W2_v1 (c : Dev nD) : W2 m ρ c (Proc.devRef .tc main_v1) = W1 m ρ c (Proc.devRef .tc main_v1) :=
  W2_of_ne m ρ c main_v1 (by decide)
theorem W2_v2 (c : Dev nD) : W2 m ρ c (Proc.devRef .tc main_v2) = W1 m ρ c (Proc.devRef .tc main_v2) :=
  W2_of_ne m ρ c main_v2 (by decide)

/-! ## After the second stretch (region 1's entry) -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps main_arg0
    _ = m ((c : Thread nD τ).loc main_arg0) := W2_arg0 m ρ c
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps main_arg2
    _ = m ((c : Thread nD τ).loc main_arg2) := W2_arg2 m ρ c
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps main_arg3
    _ = m ((c : Thread nD τ).loc main_arg3) := W2_arg3 m ρ c
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps main_arg4
    _ = m ((c : Thread nD τ).loc main_arg4) := W2_arg4 m ρ c
theorem W3_v0 (c : Dev nD) : W3 m ρ c (Proc.devRef .tc main_v0) = W1 m ρ c (Proc.devRef .tc main_v0) :=
  calc W3 m ρ c (Proc.devRef .tc main_v0)
    _ = W2 m ρ c (Proc.devRef .tc main_v0) := by host_keeps main_v0
    _ = W1 m ρ c (Proc.devRef .tc main_v0) := W2_v0 m ρ c
theorem W3_v1 (c : Dev nD) : W3 m ρ c (Proc.devRef .tc main_v1) = W1 m ρ c (Proc.devRef .tc main_v1) :=
  calc W3 m ρ c (Proc.devRef .tc main_v1)
    _ = W2 m ρ c (Proc.devRef .tc main_v1) := by host_keeps main_v1
    _ = W1 m ρ c (Proc.devRef .tc main_v1) := W2_v1 m ρ c
theorem W3_v2 (c : Dev nD) : W3 m ρ c (Proc.devRef .tc main_v2) = W1 m ρ c (Proc.devRef .tc main_v2) :=
  calc W3 m ρ c (Proc.devRef .tc main_v2)
    _ = W2 m ρ c (Proc.devRef .tc main_v2) := by host_keeps main_v2
    _ = W1 m ρ c (Proc.devRef .tc main_v2) := W2_v2 m ρ c
theorem W3_v6_0 (c : Dev nD) : W3 m ρ c (Proc.devRef .tc main_v6_0) = W2 m ρ c (Proc.devRef .tc main_v6_0) := by host_keeps main_v6_0
theorem W3_v6_1 (c : Dev nD) : W3 m ρ c (Proc.devRef .tc main_v6_1) = W2 m ρ c (Proc.devRef .tc main_v6_1) := by host_keeps main_v6_1

/-- Group 1's columns of the rounded weights. -/
theorem W3_v7 (c : Dev nD) : W3 m ρ c (Proc.devRef .tc main_v7)
    = (extractStridedSlice S384x384 ![0, 384] (W2 m ρ c (Proc.devRef .tc main_v0) : (⟨S384x1152, .bf16⟩ : BufTy).Contents (Elt F)) slices_S384x1152_S384x384_0_384 : (⟨S384x384, .bf16⟩ : BufTy).Contents (Elt F)) := by
  show StableHlo.after hostOps1 (W2 m ρ c) (Proc.devRef .tc main_v7) = _
  after_results <;> rfl
/-- Group 1's entries of the bias as a row. -/
theorem W3_v9 (c : Dev nD) : W3 m ρ c (Proc.devRef .tc main_v9)
    = (shapeCast S1x384 (extractStridedSlice S384 ![384] (W2 m ρ c (Proc.devRef .tc main_arg2) : (⟨S1152, .f32⟩ : BufTy).Contents (Elt F)) slices_S1152_S384_384) shapeCasts_S384_S1x384 : (⟨S1x384, .f32⟩ : BufTy).Contents (Elt F)) := by
  show StableHlo.after hostOps1 (W2 m ρ c) (Proc.devRef .tc main_v9) = _
  after_results <;> rfl

/-! ## Region 1 -/

theorem W4_arg0 (c : Dev nD) : W4 m ρ c (Proc.devRef .tc main_arg0) = m ((c : Thread nD τ).loc main_arg0) :=
  ((W4_arr m ρ c 0).trans (((dat1 (V3 m ρ) c).arrAt_in 0 rfl _).trans (A_eq1 (V3 m ρ) c 0))).trans (W3_arg0 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_v0 (c : Dev nD) : W4 m ρ c (Proc.devRef .tc main_v0) = W1 m ρ c (Proc.devRef .tc main_v0) :=
  (W4_of_ne m ρ c main_v0 (by decide)).trans (W3_v0 m ρ c)
theorem W4_v1 (c : Dev nD) : W4 m ρ c (Proc.devRef .tc main_v1) = W1 m ρ c (Proc.devRef .tc main_v1) :=
  (W4_of_ne m ρ c main_v1 (by decide)).trans (W3_v1 m ρ c)
theorem W4_v2 (c : Dev nD) : W4 m ρ c (Proc.devRef .tc main_v2) = W1 m ρ c (Proc.devRef .tc main_v2) :=
  (W4_of_ne m ρ c main_v2 (by decide)).trans (W3_v2 m ρ c)
theorem W4_v6_0 (c : Dev nD) : W4 m ρ c (Proc.devRef .tc main_v6_0) = W2 m ρ c (Proc.devRef .tc main_v6_0) :=
  (W4_of_ne m ρ c main_v6_0 (by decide)).trans (W3_v6_0 m ρ c)
theorem W4_v6_1 (c : Dev nD) : W4 m ρ c (Proc.devRef .tc main_v6_1) = W2 m ρ c (Proc.devRef .tc main_v6_1) :=
  (W4_of_ne m ρ c main_v6_1 (by decide)).trans (W3_v6_1 m ρ c)

/-! ## After the third stretch (region 2's entry) -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by host_keeps main_arg0
    _ = m ((c : Thread nD τ).loc main_arg0) := W4_arg0 m ρ c
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by host_keeps main_arg3
    _ = m ((c : Thread nD τ).loc main_arg3) := W4_arg3 m ρ c
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps main_arg4
    _ = m ((c : Thread nD τ).loc main_arg4) := W4_arg4 m ρ c
theorem W5_v1 (c : Dev nD) : W5 m ρ c (Proc.devRef .tc main_v1) = W1 m ρ c (Proc.devRef .tc main_v1) :=
  calc W5 m ρ c (Proc.devRef .tc main_v1)
    _ = W4 m ρ c (Proc.devRef .tc main_v1) := by host_keeps main_v1
    _ = W1 m ρ c (Proc.devRef .tc main_v1) := W4_v1 m ρ c
theorem W5_v2 (c : Dev nD) : W5 m ρ c (Proc.devRef .tc main_v2) = W1 m ρ c (Proc.devRef .tc main_v2) :=
  calc W5 m ρ c (Proc.devRef .tc main_v2)
    _ = W4 m ρ c (Proc.devRef .tc main_v2) := by host_keeps main_v2
    _ = W1 m ρ c (Proc.devRef .tc main_v2) := W4_v2 m ρ c
theorem W5_v6_0 (c : Dev nD) : W5 m ρ c (Proc.devRef .tc main_v6_0) = W2 m ρ c (Proc.devRef .tc main_v6_0) :=
  calc W5 m ρ c (Proc.devRef .tc main_v6_0)
    _ = W4 m ρ c (Proc.devRef .tc main_v6_0) := by host_keeps main_v6_0
    _ = W2 m ρ c (Proc.devRef .tc main_v6_0) := W4_v6_0 m ρ c
theorem W5_v6_1 (c : Dev nD) : W5 m ρ c (Proc.devRef .tc main_v6_1) = W2 m ρ c (Proc.devRef .tc main_v6_1) :=
  calc W5 m ρ c (Proc.devRef .tc main_v6_1)
    _ = W4 m ρ c (Proc.devRef .tc main_v6_1) := by host_keeps main_v6_1
    _ = W2 m ρ c (Proc.devRef .tc main_v6_1) := W4_v6_1 m ρ c
theorem W5_v10_0 (c : Dev nD) : W5 m ρ c (Proc.devRef .tc main_v10_0) = W4 m ρ c (Proc.devRef .tc main_v10_0) := by host_keeps main_v10_0
theorem W5_v10_1 (c : Dev nD) : W5 m ρ c (Proc.devRef .tc main_v10_1) = W4 m ρ c (Proc.devRef .tc main_v10_1) := by host_keeps main_v10_1

/-- Group 2's columns of the rounded weights. -/
theorem W5_v11 (c : Dev nD) : W5 m ρ c (Proc.devRef .tc main_v11)
    = (extractStridedSlice S384x384 ![0, 768] (W4 m ρ c (Proc.devRef .tc main_v0) : (⟨S384x1152, .bf16⟩ : BufTy).Contents (Elt F)) slices_S384x1152_S384x384_0_768 : (⟨S384x384, .bf16⟩ : BufTy).Contents (Elt F)) := by
  show StableHlo.after hostOps2 (W4 m ρ c) (Proc.devRef .tc main_v11) = _
  after_results <;> rfl
/-- Group 2's entries of the bias as a row. -/
theorem W5_v13 (c : Dev nD) : W5 m ρ c (Proc.devRef .tc main_v13)
    = (shapeCast S1x384 (extractStridedSlice S384 ![768] (W4 m ρ c (Proc.devRef .tc main_arg2) : (⟨S1152, .f32⟩ : BufTy).Contents (Elt F)) slices_S1152_S384_768) shapeCasts_S384_S1x384 : (⟨S1x384, .f32⟩ : BufTy).Contents (Elt F)) := by
  show StableHlo.after hostOps2 (W4 m ρ c) (Proc.devRef .tc main_v13) = _
  after_results <;> rfl

/-! ## Region 2 -/

theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v1 (c : Dev nD) : W6 m ρ c (Proc.devRef .tc main_v1) = W1 m ρ c (Proc.devRef .tc main_v1) :=
  (W6_of_ne m ρ c main_v1 (by decide)).trans (W5_v1 m ρ c)
theorem W6_v2 (c : Dev nD) : W6 m ρ c (Proc.devRef .tc main_v2) = W1 m ρ c (Proc.devRef .tc main_v2) :=
  (W6_of_ne m ρ c main_v2 (by decide)).trans (W5_v2 m ρ c)
theorem W6_v6_0 (c : Dev nD) : W6 m ρ c (Proc.devRef .tc main_v6_0) = W2 m ρ c (Proc.devRef .tc main_v6_0) :=
  (W6_of_ne m ρ c main_v6_0 (by decide)).trans (W5_v6_0 m ρ c)
theorem W6_v6_1 (c : Dev nD) : W6 m ρ c (Proc.devRef .tc main_v6_1) = W2 m ρ c (Proc.devRef .tc main_v6_1) :=
  (W6_of_ne m ρ c main_v6_1 (by decide)).trans (W5_v6_1 m ρ c)
theorem W6_v10_0 (c : Dev nD) : W6 m ρ c (Proc.devRef .tc main_v10_0) = W4 m ρ c (Proc.devRef .tc main_v10_0) :=
  (W6_of_ne m ρ c main_v10_0 (by decide)).trans (W5_v10_0 m ρ c)
theorem W6_v10_1 (c : Dev nD) : W6 m ρ c (Proc.devRef .tc main_v10_1) = W4 m ρ c (Proc.devRef .tc main_v10_1) :=
  (W6_of_ne m ρ c main_v10_1 (by decide)).trans (W5_v10_1 m ρ c)

/-! ## After the last stretch (region 3's entry): the three groups' arrays and the rounded weights are not touched -/

theorem W7_v6_0 (c : Dev nD) : W7 m ρ c (Proc.devRef .tc main_v6_0) = W2 m ρ c (Proc.devRef .tc main_v6_0) :=
  calc W7 m ρ c (Proc.devRef .tc main_v6_0)
    _ = W6 m ρ c (Proc.devRef .tc main_v6_0) := by host_keeps main_v6_0
    _ = W2 m ρ c (Proc.devRef .tc main_v6_0) := W6_v6_0 m ρ c
theorem W7_v10_0 (c : Dev nD) : W7 m ρ c (Proc.devRef .tc main_v10_0) = W4 m ρ c (Proc.devRef .tc main_v10_0) :=
  calc W7 m ρ c (Proc.devRef .tc main_v10_0)
    _ = W6 m ρ c (Proc.devRef .tc main_v10_0) := by host_keeps main_v10_0
    _ = W4 m ρ c (Proc.devRef .tc main_v10_0) := W6_v10_0 m ρ c
theorem W7_v14_0 (c : Dev nD) : W7 m ρ c (Proc.devRef .tc main_v14_0) = W6 m ρ c (Proc.devRef .tc main_v14_0) := by host_keeps main_v14_0
theorem W7_v1 (c : Dev nD) : W7 m ρ c (Proc.devRef .tc main_v1) = W1 m ρ c (Proc.devRef .tc main_v1) :=
  calc W7 m ρ c (Proc.devRef .tc main_v1)
    _ = W6 m ρ c (Proc.devRef .tc main_v1) := by host_keeps main_v1
    _ = W1 m ρ c (Proc.devRef .tc main_v1) := W6_v1 m ρ c
theorem W7_v2 (c : Dev nD) : W7 m ρ c (Proc.devRef .tc main_v2) = W1 m ρ c (Proc.devRef .tc main_v2) :=
  calc W7 m ρ c (Proc.devRef .tc main_v2)
    _ = W6 m ρ c (Proc.devRef .tc main_v2) := by host_keeps main_v2
    _ = W1 m ρ c (Proc.devRef .tc main_v2) := W6_v2 m ρ c

end Cert.KernelIdeal.Fold

end
-- ==== Proof.Blocks.lean ====
/-
  From blocks to arrays. Each region runs its body once per image; the body reads the image's block of each batched
  input array and the whole of each small array (weights, a bias row), and writes the image's block of each output
  array. So each output array ends as ONE function of the arrays the region found: image by image, the body's result of
  the image's blocks. Here that is shown for the three projection-and-shift regions (the shifted group and its per-image
  sums) and for the combining region, the body's result itself kept as a named term.
-/
import proofs.«106878_j9723805958798_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Image `b`'s block of a batch of images. -/
def blockOf (X : S16x56x56x384.Idx → EReal) (b : Fin 16) : S1x56x56x384.Idx → EReal :=
  fun y => X (ix4 b (y 1 : Fin 56) (y 2 : Fin 56) (y 3 : Fin 384))

/-- Image `b`'s block of the gating weights. -/
def gblockOf (g : S16x3x384.Idx → EReal) (b : Fin 16) : S1x3x384.Idx → EReal :=
  fun y => g (ix3 b (y 1 : Fin 3) (y 2 : Fin 384))

/-! ## Region 0 -/

def img0 (t : Fin cfg0.N) : Fin 16 := ⟨t.val, by have h := t.isLt; have e : cfg0.N = 16 := N_0; omega⟩

theorem idx0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The image block the body reads at point `t` is image `t`'s block of the batch. -/
theorem iblk0_0 (c : Dev nD) (t : Fin cfg0.N) :
    (iblk0 V c 0 t : S1x56x56x384.Idx → EReal) = blockOf (V c main_arg0) (img0 t) := by
  funext y
  show V c main_arg0 (((cfg0.win 0).blk t).view.emb y) = V c main_arg0 (ix4 (img0 t) (y 1 : Fin 56) (y 2 : Fin 56) (y 3 : Fin 384))
  refine congrArg _ (funext fun a => Fin.ext ?_)
  obtain ⟨e0, e1, e2, e3⟩ := idx0_0 t
  have y0 : (y 0).val < 1 := (y 0).isLt
  match a with
  | ⟨0, _⟩ => show win0_0.index t (0 : Fin 4) * 1 + 1 * (y 0).val = t.val; omega
  | ⟨1, _⟩ => show win0_0.index t (1 : Fin 4) * 56 + 1 * (y 1).val = (y 1).val; omega
  | ⟨2, _⟩ => show win0_0.index t (2 : Fin 4) * 56 + 1 * (y 2).val = (y 2).val; omega
  | ⟨3, _⟩ => show win0_0.index t (3 : Fin 4) * 384 + 1 * (y 3).val = (y 3).val; omega

/-- The weights' window is the whole array at every point. -/
theorem iblk0_1 (c : Dev nD) (t : Fin cfg0.N) :
    (iblk0 V c 1 t : S384x384.Idx → EReal) = V c main_v3 := by
  funext y
  show V c main_v3 (((cfg0.win 1).blk t).view.emb y) = V c main_v3 y
  refine congrArg _ (funext fun a => Fin.ext ?_)
  obtain ⟨e0, e1⟩ := idx0_1 t
  match a with
  | ⟨0, _⟩ => show win0_1.index t (0 : Fin 2) * 384 + 1 * (y 0).val = (y 0).val; omega
  | ⟨1, _⟩ => show win0_1.index t (1 : Fin 2) * 384 + 1 * (y 1).val = (y 1).val; omega

/-- The bias row's window is the whole row at every point. -/
theorem iblk0_2 (c : Dev nD) (t : Fin cfg0.N) :
    (iblk0 V c 2 t : S1x384.Idx → EReal) = V c main_v5 := by
  funext y
  show V c main_v5 (((cfg0.win 2).blk t).view.emb y) = V c main_v5 y
  refine congrArg _ (funext fun a => Fin.ext ?_)
  obtain ⟨e0, e1⟩ := idx0_2 t
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- The group's array after the region: image by image, the body's first result of the image's block. -/
def arr0_3 (X : S16x56x56x384.Idx → EReal) (Wb : S384x384.Idx → EReal) (bb : S1x384.Idx → EReal) : S16x56x56x384.Idx → EReal :=
  fun i => out0_3 (F := Ideal) (blockOf X (i 0 : Fin 16)) Wb bb (ix4 0 (i 1 : Fin 56) (i 2 : Fin 56) (i 3 : Fin 384))

/-- The group's per-image sums after the region: image by image, the body's second result of the image's block. -/
def arr0_4 (X : S16x56x56x384.Idx → EReal) (Wb : S384x384.Idx → EReal) (bb : S1x384.Idx → EReal) : S16x1x384.Idx → EReal :=
  fun i => out0_4 (F := Ideal) (blockOf X (i 0 : Fin 16)) Wb bb (ix3 0 0 (i 2 : Fin 384))

theorem arr0_3_at (X : S16x56x56x384.Idx → EReal) (Wb : S384x384.Idx → EReal) (bb : S1x384.Idx → EReal) (b : Fin 16)
    (y : S1x56x56x384.Idx) (i : S16x56x56x384.Idx)
    (h0 : (i 0).val = b.val) (h1 : (i 1).val = (y 1).val) (h2 : (i 2).val = (y 2).val) (h3 : (i 3).val = (y 3).val) :
    out0_3 (F := Ideal) (blockOf X b) Wb bb y = arr0_3 X Wb bb i := by
  unfold arr0_3
  have hb : (i 0 : Fin 16) = b := Fin.ext h0
  have y0 : (y 0).val < 1 := (y 0).isLt
  have hy : ix4 0 (i 1 : Fin 56) (i 2 : Fin 56) (i 3 : Fin 384) = y := by
    funext a; apply Fin.ext
    match a with
    | ⟨0, _⟩ => show 0 = (y 0).val; omega
    | ⟨1, _⟩ => exact h1
    | ⟨2, _⟩ => exact h2
    | ⟨3, _⟩ => exact h3
  rw [hb]
  exact congrArg _ hy.symm

theorem arr0_4_at (X : S16x56x56x384.Idx → EReal) (Wb : S384x384.Idx → EReal) (bb : S1x384.Idx → EReal) (b : Fin 16)
    (y : S1x1x384.Idx) (i : S16x1x384.Idx) (h0 : (i 0).val = b.val) (h2 : (i 2).val = (y 2).val) :
    out0_4 (F := Ideal) (blockOf X b) Wb bb y = arr0_4 X Wb bb i := by
  unfold arr0_4
  have hb : (i 0 : Fin 16) = b := Fin.ext h0
  have y0 : (y 0).val < 1 := (y 0).isLt
  have y1 : (y 1).val < 1 := (y 1).isLt
  have hy : ix3 0 0 (i 2 : Fin 384) = y := by
    funext a; apply Fin.ext
    match a with
    | ⟨0, _⟩ => show 0 = (y 0).val; omega
    | ⟨1, _⟩ => show 0 = (y 1).val; omega
    | ⟨2, _⟩ => exact h2
  rw [hb]
  exact congrArg _ hy.symm

attribute [local irreducible] arr0_3 Cert.KernelIdeal.Gen.out0_3 in
set_option maxHeartbeats 400000 in
/-- What point `t` writes back to the group's array is block `t` of `arr0_3`. -/
theorem flushed0_3 (c : Dev nD) (t : Fin cfg0.N) :
    (dat0 V c).flushed 3 t = ((cfg0.win 3).blk t).view.read (Elt Ideal) (arr0_3 (V c main_arg0) (V c main_v3) (V c main_v5)) := by
  show (cfg0.win 3).cut (grid0.coords t) ((dat0 V c).after 3 t) = _
  rw [after0_3]
  have e0 := iblk0_0 V c t
  have e1 := iblk0_1 V c t
  have e2 := iblk0_2 V c t
  rw [e0, e1, e2]
  obtain ⟨i0, i1, i2, i3⟩ := idx0_3 t
  funext y
  rw [View.read_apply]
  have y0 : (y 0).val < 1 := (y 0).isLt
  exact arr0_3_at (V c main_arg0) (V c main_v3) (V c main_v5) (img0 t) ((cfg0.win 3).xinj (grid0.coords t) y) (((cfg0.win 3).blk t).view.emb y)
    (by show win0_3.index t (0 : Fin 4) * 1 + 1 * (y 0).val = t.val; omega)
    (by show win0_3.index t (1 : Fin 4) * 56 + 1 * (y 1).val = (y 1).val; omega)
    (by show win0_3.index t (2 : Fin 4) * 56 + 1 * (y 2).val = (y 2).val; omega)
    (by show win0_3.index t (3 : Fin 4) * 384 + 1 * (y 3).val = (y 3).val; omega)

attribute [local irreducible] arr0_4 Cert.KernelIdeal.Gen.out0_4 in
set_option maxHeartbeats 400000 in
/-- What point `t` writes back to the sums' array is block `t` of `arr0_4`. -/
theorem flushed0_4 (c : Dev nD) (t : Fin cfg0.N) :
    (dat0 V c).flushed 4 t = ((cfg0.win 4).blk t).view.read (Elt Ideal) (arr0_4 (V c main_arg0) (V c main_v3) (V c main_v5)) := by
  show (cfg0.win 4).cut (grid0.coords t) ((dat0 V c).after 4 t) = _
  rw [after0_4]
  have e0 := iblk0_0 V c t
  have e1 := iblk0_1 V c t
  have e2 := iblk0_2 V c t
  rw [e0, e1, e2]
  obtain ⟨i0, i1, i2⟩ := idx0_4 t
  funext y
  rw [View.read_apply]
  have y0 : (y 0).val < 1 := (y 0).isLt
  exact arr0_4_at (V c main_arg0) (V c main_v3) (V c main_v5) (img0 t) ((cfg0.win 4).xinj (grid0.coords t) y) (((cfg0.win 4).blk t).view.emb y)
    (by show win0_4.index t (0 : Fin 3) * 1 + 1 * (y 0).val = t.val; omega)
    (by show win0_4.index t (2 : Fin 3) * 384 + 1 * (y 2).val = (y 2).val; omega)

/-- Every index of the group's array lies in its image's block. -/
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 16 := (i 0).isLt
  have hi1 : (i 1).val < 56 := (i 1).isLt
  have hi2 : (i 2).val < 56 := (i 2).isLt
  have hi3 : (i 3).val < 384 := (i 3).isLt
  have hN : cfg0.N = 16 := N_0
  obtain ⟨t, ht⟩ : ∃ t : Fin cfg0.N, t.val = (i 0).val := ⟨⟨(i 0).val, by omega⟩, rfl⟩
  obtain ⟨i0, i1, i2, i3⟩ := idx0_3 t
  refine ⟨t, flush0_3 t, ?_⟩
  show i ∈ ((View.whole main_v6_0).slice (win0_3.rect t)).set
  rw [View.set_slice_whole, Rect.mem_set_unit]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 56 ≤ (i 1).val ∧ (i 1).val < win0_3.index t (1 : Fin 4) * 56 + 56; omega
  | ⟨2, _⟩ => show win0_3.index t (2 : Fin 4) * 56 ≤ (i 2).val ∧ (i 2).val < win0_3.index t (2 : Fin 4) * 56 + 56; omega
  | ⟨3, _⟩ => show win0_3.index t (3 : Fin 4) * 384 ≤ (i 3).val ∧ (i 3).val < win0_3.index t (3 : Fin 4) * 384 + 384; omega

/-- Every index of the sums' array lies in its image's block. -/
theorem cover0_4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 384 := (i 2).isLt
  have hN : cfg0.N = 16 := N_0
  obtain ⟨t, ht⟩ : ∃ t : Fin cfg0.N, t.val = (i 0).val := ⟨⟨(i 0).val, by omega⟩, rfl⟩
  obtain ⟨i0, i1, i2⟩ := idx0_4 t
  refine ⟨t, flush0_4 t, ?_⟩
  show i ∈ ((View.whole main_v6_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 384 ≤ (i 2).val ∧ (i 2).val < win0_4.index t (2 : Fin 3) * 384 + 384; omega

/-- The group's array after region 0. -/
theorem final0_3 (c : Dev nD) : (dat0 V c).arrAt 3 cfg0.N = arr0_3 (V c main_arg0) (V c main_v3) (V c main_v5) :=
  (dat0 V c).arrAt_eq_of_cover 3 _ (fun t _ => flushed0_3 V c t) (cover0_3 c)

/-- The group's per-image sums after region 0. -/
theorem final0_4 (c : Dev nD) : (dat0 V c).arrAt 4 cfg0.N = arr0_4 (V c main_arg0) (V c main_v3) (V c main_v5) :=
  (dat0 V c).arrAt_eq_of_cover 4 _ (fun t _ => flushed0_4 V c t) (cover0_4 c)

/-! ## Region 1 -/

def img1 (t : Fin cfg1.N) : Fin 16 := ⟨t.val, by have h := t.isLt; have e : cfg1.N = 16 := N_1; omega⟩

theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)

/-- The image block the body reads at point `t` is image `t`'s block of the batch. -/
theorem iblk1_0 (c : Dev nD) (t : Fin cfg1.N) :
    (iblk1 V c 0 t : S1x56x56x384.Idx → EReal) = blockOf (V c main_arg0) (img1 t) := by
  funext y
  show V c main_arg0 (((cfg1.win 0).blk t).view.emb y) = V c main_arg0 (ix4 (img1 t) (y 1 : Fin 56) (y 2 : Fin 56) (y 3 : Fin 384))
  refine congrArg _ (funext fun a => Fin.ext ?_)
  obtain ⟨e0, e1, e2, e3⟩ := idx1_0 t
  have y0 : (y 0).val < 1 := (y 0).isLt
  match a with
  | ⟨0, _⟩ => show win1_0.index t (0 : Fin 4) * 1 + 1 * (y 0).val = t.val; omega
  | ⟨1, _⟩ => show win1_0.index t (1 : Fin 4) * 56 + 1 * (y 1).val = (y 1).val; omega
  | ⟨2, _⟩ => show win1_0.index t (2 : Fin 4) * 56 + 1 * (y 2).val = (y 2).val; omega
  | ⟨3, _⟩ => show win1_0.index t (3 : Fin 4) * 384 + 1 * (y 3).val = (y 3).val; omega

/-- The weights' window is the whole array at every point. -/
theorem iblk1_1 (c : Dev nD) (t : Fin cfg1.N) :
    (iblk1 V c 1 t : S384x384.Idx → EReal) = V c main_v7 := by
  funext y
  show V c main_v7 (((cfg1.win 1).blk t).view.emb y) = V c main_v7 y
  refine congrArg _ (funext fun a => Fin.ext ?_)
  obtain ⟨e0, e1⟩ := idx1_1 t
  match a with
  | ⟨0, _⟩ => show win1_1.index t (0 : Fin 2) * 384 + 1 * (y 0).val = (y 0).val; omega
  | ⟨1, _⟩ => show win1_1.index t (1 : Fin 2) * 384 + 1 * (y 1).val = (y 1).val; omega

/-- The bias row's window is the whole row at every point. -/
theorem iblk1_2 (c : Dev nD) (t : Fin cfg1.N) :
    (iblk1 V c 2 t : S1x384.Idx → EReal) = V c main_v9 := by
  funext y
  show V c main_v9 (((cfg1.win 2).blk t).view.emb y) = V c main_v9 y
  refine congrArg _ (funext fun a => Fin.ext ?_)
  obtain ⟨e0, e1⟩ := idx1_2 t
  match a with
  | ⟨0, _⟩ => show win1_2.index t (0 : Fin 2) * 1 + 1 * (y 0).val = (y 0).val; omega
  | ⟨1, _⟩ => show win1_2.index t (1 : Fin 2) * 384 + 1 * (y 1).val = (y 1).val; omega

/-- The group's array after the region: image by image, the body's first result of the image's block. -/
def arr1_3 (X : S16x56x56x384.Idx → EReal) (Wb : S384x384.Idx → EReal) (bb : S1x384.Idx → EReal) : S16x56x56x384.Idx → EReal :=
  fun i => out1_3 (F := Ideal) (blockOf X (i 0 : Fin 16)) Wb bb (ix4 0 (i 1 : Fin 56) (i 2 : Fin 56) (i 3 : Fin 384))

/-- The group's per-image sums after the region: image by image, the body's second result of the image's block. -/
def arr1_4 (X : S16x56x56x384.Idx → EReal) (Wb : S384x384.Idx → EReal) (bb : S1x384.Idx → EReal) : S16x1x384.Idx → EReal :=
  fun i => out1_4 (F := Ideal) (blockOf X (i 0 : Fin 16)) Wb bb (ix3 0 0 (i 2 : Fin 384))

theorem arr1_3_at (X : S16x56x56x384.Idx → EReal) (Wb : S384x384.Idx → EReal) (bb : S1x384.Idx → EReal) (b : Fin 16)
    (y : S1x56x56x384.Idx) (i : S16x56x56x384.Idx)
    (h0 : (i 0).val = b.val) (h1 : (i 1).val = (y 1).val) (h2 : (i 2).val = (y 2).val) (h3 : (i 3).val = (y 3).val) :
    out1_3 (F := Ideal) (blockOf X b) Wb bb y = arr1_3 X Wb bb i := by
  unfold arr1_3
  have hb : (i 0 : Fin 16) = b := Fin.ext h0
  have y0 : (y 0).val < 1 := (y 0).isLt
  have hy : ix4 0 (i 1 : Fin 56) (i 2 : Fin 56) (i 3 : Fin 384) = y := by
    funext a; apply Fin.ext
    match a with
    | ⟨0, _⟩ => show 0 = (y 0).val; omega
    | ⟨1, _⟩ => exact h1
    | ⟨2, _⟩ => exact h2
    | ⟨3, _⟩ => exact h3
  rw [hb]
  exact congrArg _ hy.symm

theorem arr1_4_at (X : S16x56x56x384.Idx → EReal) (Wb : S384x384.Idx → EReal) (bb : S1x384.Idx → EReal) (b : Fin 16)
    (y : S1x1x384.Idx) (i : S16x1x384.Idx) (h0 : (i 0).val = b.val) (h2 : (i 2).val = (y 2).val) :
    out1_4 (F := Ideal) (blockOf X b) Wb bb y = arr1_4 X Wb bb i := by
  unfold arr1_4
  have hb : (i 0 : Fin 16) = b := Fin.ext h0
  have y0 : (y 0).val < 1 := (y 0).isLt
  have y1 : (y 1).val < 1 := (y 1).isLt
  have hy : ix3 0 0 (i 2 : Fin 384) = y := by
    funext a; apply Fin.ext
    match a with
    | ⟨0, _⟩ => show 0 = (y 0).val; omega
    | ⟨1, _⟩ => show 0 = (y 1).val; omega
    | ⟨2, _⟩ => exact h2
  rw [hb]
  exact congrArg _ hy.symm

attribute [local irreducible] arr1_3 Cert.KernelIdeal.Gen.out1_3 in
set_option maxHeartbeats 400000 in
/-- What point `t` writes back to the group's array is block `t` of `arr1_3`. -/
theorem flushed1_3 (c : Dev nD) (t : Fin cfg1.N) :
    (dat1 V c).flushed 3 t = ((cfg1.win 3).blk t).view.read (Elt Ideal) (arr1_3 (V c main_arg0) (V c main_v7) (V c main_v9)) := by
  show (cfg1.win 3).cut (grid1.coords t) ((dat1 V c).after 3 t) = _
  rw [after1_3]
  have e0 := iblk1_0 V c t
  have e1 := iblk1_1 V c t
  have e2 := iblk1_2 V c t
  rw [e0, e1, e2]
  obtain ⟨i0, i1, i2, i3⟩ := idx1_3 t
  funext y
  rw [View.read_apply]
  have y0 : (y 0).val < 1 := (y 0).isLt
  exact arr1_3_at (V c main_arg0) (V c main_v7) (V c main_v9) (img1 t) ((cfg1.win 3).xinj (grid1.coords t) y) (((cfg1.win 3).blk t).view.emb y)
    (by show win1_3.index t (0 : Fin 4) * 1 + 1 * (y 0).val = t.val; omega)
    (by show win1_3.index t (1 : Fin 4) * 56 + 1 * (y 1).val = (y 1).val; omega)
    (by show win1_3.index t (2 : Fin 4) * 56 + 1 * (y 2).val = (y 2).val; omega)
    (by show win1_3.index t (3 : Fin 4) * 384 + 1 * (y 3).val = (y 3).val; omega)

attribute [local irreducible] arr1_4 Cert.KernelIdeal.Gen.out1_4 in
set_option maxHeartbeats 400000 in
/-- What point `t` writes back to the sums' array is block `t` of `arr1_4`. -/
theorem flushed1_4 (c : Dev nD) (t : Fin cfg1.N) :
    (dat1 V c).flushed 4 t = ((cfg1.win 4).blk t).view.read (Elt Ideal) (arr1_4 (V c main_arg0) (V c main_v7) (V c main_v9)) := by
  show (cfg1.win 4).cut (grid1.coords t) ((dat1 V c).after 4 t) = _
  rw [after1_4]
  have e0 := iblk1_0 V c t
  have e1 := iblk1_1 V c t
  have e2 := iblk1_2 V c t
  rw [e0, e1, e2]
  obtain ⟨i0, i1, i2⟩ := idx1_4 t
  funext y
  rw [View.read_apply]
  have y0 : (y 0).val < 1 := (y 0).isLt
  exact arr1_4_at (V c main_arg0) (V c main_v7) (V c main_v9) (img1 t) ((cfg1.win 4).xinj (grid1.coords t) y) (((cfg1.win 4).blk t).view.emb y)
    (by show win1_4.index t (0 : Fin 3) * 1 + 1 * (y 0).val = t.val; omega)
    (by show win1_4.index t (2 : Fin 3) * 384 + 1 * (y 2).val = (y 2).val; omega)

/-- Every index of the group's array lies in its image's block. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : (i 0).val < 16 := (i 0).isLt
  have hi1 : (i 1).val < 56 := (i 1).isLt
  have hi2 : (i 2).val < 56 := (i 2).isLt
  have hi3 : (i 3).val < 384 := (i 3).isLt
  have hN : cfg1.N = 16 := N_1
  obtain ⟨t, ht⟩ : ∃ t : Fin cfg1.N, t.val = (i 0).val := ⟨⟨(i 0).val, by omega⟩, rfl⟩
  obtain ⟨i0, i1, i2, i3⟩ := idx1_3 t
  refine ⟨t, flush1_3 t, ?_⟩
  show i ∈ ((View.whole main_v10_0).slice (win1_3.rect t)).set
  rw [View.set_slice_whole, Rect.mem_set_unit]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 56 ≤ (i 1).val ∧ (i 1).val < win1_3.index t (1 : Fin 4) * 56 + 56; omega
  | ⟨2, _⟩ => show win1_3.index t (2 : Fin 4) * 56 ≤ (i 2).val ∧ (i 2).val < win1_3.index t (2 : Fin 4) * 56 + 56; omega
  | ⟨3, _⟩ => show win1_3.index t (3 : Fin 4) * 384 ≤ (i 3).val ∧ (i 3).val < win1_3.index t (3 : Fin 4) * 384 + 384; omega

/-- Every index of the sums' array lies in its image's block. -/
theorem cover1_4 (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0).val < 16 := (i 0).isLt
  have hi1 : (i 1).val < 1 := (i 1).isLt
  have hi2 : (i 2).val < 384 := (i 2).isLt
  have hN : cfg1.N = 16 := N_1
  obtain ⟨t, ht⟩ : ∃ t : Fin cfg1.N, t.val = (i 0).val := ⟨⟨(i 0).val, by omega⟩, rfl⟩
  obtain ⟨i0, i1, i2⟩ := idx1_4 t
  refine ⟨t, flush1_4 t, ?_⟩
  show i ∈ ((View.whole main_v10_1).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 384 ≤ (i 2).val ∧ (i 2).val < win1_4.index t (2 : Fin 3) * 384 + 384; omega

/-- The group's array after region 1. -/
theorem final1_3 (c : Dev nD) : (dat1 V c).arrAt 3 cfg1.N = arr1_3 (V c main_arg0) (V c main_v7) (V c main_v9) :=
  (dat1 V c).arrAt_eq_of_cover 3 _ (fun t _ => flushed1_3 V c t) (cover1_3 c)

/-- The group's per-image sums after region 1. -/
theorem final1_4 (c : Dev nD) : (dat1 V c).arrAt 4 cfg1.N = arr1_4 (V c main_arg0) (V c main_v7) (V c main_v9) :=
  (dat1 V c).arrAt_eq_of_cover 4 _ (fun t _ => flushed1_4 V c t) (cover1_4 c)

/-! ## Region 2 -/

def img2 (t : Fin cfg2.N) : Fin 16 := ⟨t.val, by have h := t.isLt; have e : cfg2.N = 16 := N_2; omega⟩

theorem idx2_0 : ∀ t : Fin cfg2.N, win2_0.index t (0 : Fin 4) = t.val ∧ win2_0.index t (1 : Fin 4) = 0 ∧ win2_0.index t (2 : Fin 4) = 0 ∧ win2_0.index t (3 : Fin 4) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)
theorem idx2_4 : ∀ t : Fin cfg2.N, win2_4.index t (0 : Fin 3) = t.val ∧ win2_4.index t (1 : Fin 3) = 0 ∧ win2_4.index t (2 : Fin 3) = 0 :=
  (by decide +kernel : ∀ t : Fin grid2.N, _)

/-- The image block the body reads at point `t` is image `t`'s block of the batch. -/
theorem iblk2_0 (c : Dev nD) (t : Fin cfg2.N) :
    (iblk2 V c 0 t : S1x56x56x384.Idx → EReal) = blockOf (V c main_arg0) (img2 t) := by
  funext y
  show V c main_arg0 (((cfg2.win 0).blk t).view.emb y) = V c main_arg0 (ix4 (img2 t) (y 1 : Fin 56) (y 2 : Fin 56) (y 3 : Fin 384))
  refine congrArg _ (funext fun a => Fin.ext ?_)
  obtain ⟨e0, e1, e2, e3⟩ := idx2_0 t
  have y0 : (y 0).val < 1 := (y 0).isLt
  match a with
  | ⟨0, _⟩ => show win2_0.index t (0 : Fin 4) * 1 + 1 * (y 0).val = t.val; omega
  | ⟨1, _⟩ => show win2_0.index t (1 : Fin 4) * 56 + 1 * (y 1).val = (y 1).val; omega
  | ⟨2, _⟩ => show win2_0.index t (2 : Fin 4) * 56 + 1 * (y 2).val = (y 2).val; omega
  | ⟨3, _⟩ => show win2_0.index t (3 : Fin 4) * 384 + 1 * (y 3).val = (y 3).val; omega

/-- The weights' window is the whole array at every point. -/
theorem iblk2_1 (c : Dev nD) (t : Fin cfg2.N) :
    (iblk2 V c 1 t : S384x384.Idx → EReal) = V c main_v11 := by
  funext y
  show V c main_v11 (((cfg2.win 1).blk t).view.emb y) = V c main_v11 y
  refine congrArg _ (funext fun a => Fin.ext ?_)
  obtain ⟨e0, e1⟩ := idx2_1 t
  match a with
  | ⟨0, _⟩ => show win2_1.index t (0 : Fin 2) * 384 + 1 * (y 0).val = (y 0).val; omega
  | ⟨1, _⟩ => show win2_1.index t (1 : Fin 2) * 384 + 1 * (y 1).val = (y 1).val; omega

/-- The bias row's window is the whole row at every point. -/
theorem iblk2_2 (c : Dev nD) (t : Fin cfg2.N) :
    (iblk2 V c 2 t : S1x384.Idx → EReal) = V c main_v13 := by
  funext y
  show V c main_v13 (((cfg2.win 2).blk t).view.emb y) = V c main_v13 y
  refine congrArg _ (funext fun a => Fin.ext ?_)
  obtain ⟨e0, e1⟩ := idx2_2 t
  match a with
  | ⟨0, _⟩ => show win2_2.index t (0 : Fin 2) * 1 + 1 * (y 0).val = (y 0).val; omega
  | ⟨1, _⟩ => show win2_2.index t (1 : Fin 2) * 384 + 1 * (y 1).val = (y 1).val; omega

/-- The group's array after the region: image by image, the body's first result of the image's block. -/
def arr2_3 (X : S16x56x56x384.Idx → EReal) (Wb : S384x384.Idx → EReal) (bb : S1x384.Idx → EReal) : S16x56x56x384.Idx → EReal :=
  fun i => out2_3 (F := Ideal) (blockOf X (i 0 : Fin 16)) Wb bb (ix4 0 (i 1 : Fin 56) (i 2 : Fin 56) (i 3 : Fin 384))

/-- The group's per-image sums after the region: image by image, the body's second result of the image's block. -/
def arr2_4 (X : S16x56x56x384.Idx → EReal) (Wb : S384x384.Idx → EReal) (bb : S1x384.Idx → EReal) : S16x1x384.Idx → EReal :=
  fun i => out2_4 (F := Ideal) (blockOf X (i 0 : Fin 16)) Wb bb (ix3 0 0 (i 2 : Fin 384))

theorem arr2_3_at (X : S16x56x56x384.Idx → EReal) (Wb : S384x384.Idx → EReal) (bb : S1x384.Idx → EReal) (b : Fin 16)
    (y : S1x56x56x384.Idx) (i : S16x56x56x384.Idx)
    (h0 : (i 0).val = b.val) (h1 : (i 1).val = (y 1).val) (h2 : (i 2).val = (y 2).val) (h3 : (i 3).val = (y 3).val) :
    out2_3 (F := Ideal) (blockOf X b) Wb bb y = arr2_3 X Wb bb i := by
  unfold arr2_3
  have hb : (i 0 : Fin 16) = b := Fin.ext h0
  have y0 : (y 0).val < 1 := (y 0).isLt
  have hy : ix4 0 (i 1 : Fin 56) (i 2 : Fin 56) (i 3 : Fin 384) = y := by
    funext a; apply Fin.ext
    match a with
    | ⟨0, _⟩ => show 0 = (y 0).val; omega
    | ⟨1, _⟩ => exact h1
    | ⟨2, _⟩ => exact h2
    | ⟨3, _⟩ => exact h3
  rw [hb]
  exact congrArg _ hy.symm

theorem arr2_4_at (X : S16x56x56x384.Idx → EReal) (Wb : S384x384.Idx → EReal) (bb : S1x384.Idx → EReal) (b : Fin 16)
    (y : S1x1x384.Idx) (i : S16x1x384.Idx) (h0 : (i 0).val = b.val) (h2 : (i 2).val = (y 2).val) :
    out2_4 (F := Ideal) (blockOf X b) Wb bb y = arr2_4 X Wb bb i := by
  unfold arr2_4
  have hb : (i 0 : Fin 16) = b := Fin.ext h0
  have y0 : (y 0).val < 1 := (y 0).isLt
  have y1 : (y 1).val < 1 := (y 1).isLt
  have hy : ix3 0 0 (i 2 : Fin 384) = y := by
    funext a; apply Fin.ext
    match a with
    | ⟨0, _⟩ => show 0 = (y 0).val; omega
    | ⟨1, _⟩ => show 0 = (y 1).val; omega
    | ⟨2, _⟩ => exact h2
  rw [hb]
  exact congrArg _ hy.symm

attribute [local irreducible] arr2_3 Cert.KernelIdeal.Gen.out2_3 in
set_option maxHeartbeats 400000 in
/-- What point `t` writes back to the group's array is block `t` of `arr2_3`. -/
theorem flushed2_3 (c : Dev nD) (t : Fin cfg2.N) :
    (dat2 V c).flushed 3 t = ((cfg2.win 3).blk t).view.read (Elt Ideal) (arr2_3 (V c main_arg0) (V c main_v11) (V c main_v13)) := by
  show (cfg2.win 3).cut (grid2.coords t) ((dat2 V c).after 3 t) = _
  rw [after2_3]
  have e0 := iblk2_0 V c t
  have e1 := iblk2_1 V c t
  have e2 := iblk2_2 V c t
  rw [e0, e1, e2]
  obtain ⟨i0, i1, i2, i3⟩ := idx2_3 t
  funext y
  rw [View.read_apply]
  have y0 : (y 0).val < 1 := (y 0).isLt
  exact arr2_3_at (V c main_arg0) (V c main_v11) (V c main_v13) (img2 t) ((cfg2.win 3).xinj (grid2.coords t) y) (((cfg2.win 3).blk t).view.emb y)
    (by show win2_3.index t (0 : Fin 4) * 1 + 1 * (y 0).val = t.val; omega)
    (by show win2_3.index t (1 : Fin 4) * 56 + 1 * (y 1).val = (y 1).val; omega)
    (by show win2_3.index t (2 : Fin 4) * 56 + 1 * (y 2).val = (y 2).val; omega)
    (by show win2_3.index t (3 : Fin 4) * 384 + 1 * (y 3).val = (y 3).val; omega)

attribute [local irreducible] arr2_4 Cert.KernelIdeal.Gen.out2_4 in
set_option maxHeartbeats 400000 in
/-- What point `t` writes back to the sums' array is block `t` of `arr2_4`. -/
theorem flushed2_4 (c : Dev nD) (t : Fin cfg2.N) :
    (dat2 V c).flushed 4 t = ((cfg2.win 4).blk t).view.read (Elt Ideal) (arr2_4 (V c main_arg0) (V c main_v11) (V c main_v13)) := by
  show (cfg2.win 4).cut (grid2.coords t) ((dat2 V c).after 4 t) = _
  rw [after2_4]
  have e0 := iblk2_0 V c t
  have e1 := iblk2_1 V c t
  have e2 := iblk2_2 V c t
  rw [e0, e1, e2]
  obtain ⟨i0, i1, i2⟩ := idx2_4 t
  funext y
  rw [View.read_apply]
  have y0 : (y 0).val < 1 := (y 0).isLt
  exact arr2_4_at (V c main_arg0) (V c main_v11) (V c main_v13) (img2 t) ((cfg2.win 4).xinj (grid2.coords t) y) (((cfg2.win 4).blk t).view.emb y)
    (by show win2_4.index t (0 : Fin 3) * 1 + 1 * (y 0).val = t.val; omega)
    (by show win2_4.index t (2 : Fin 3) * 384 + 1 * (y 2).val = (y 2).val; omega)

/-- Every index of the group's array lies in its image's block. -/
theorem cover2_3 (c : Dev nD) (i : ((cfg2.win 3).arr.view.loc (c.tc : Thread nD τ)).2.ty.Idx) :
    ∃ t : Fin cfg2.N, (cfg2.win 3).flush t = true ∧ i ∈ ((cfg2.win 3).blk t).view.set := by
  have hi0 : (i 0).val < 16 := (i 0).isLt
  have hi1 : (i 1).val < 56 := (i 1).isLt
  have hi2 : (i 2).val < 56 := (i 2).isLt
  have hi3 : (i 3).val < 384 := (i 3).isLt
  have hN : cfg2.N = 16 := N_2
  obtain ⟨t, ht⟩ : ∃ t : Fin cfg2.N, t.val = (i 0).val := ⟨⟨(i 0).val, by omega⟩, rfl⟩
  obtain ⟨i0, i1, i2, i3⟩ := idx2_3 t
  refine ⟨t, flush2_3 t, ?_⟩
  show i ∈ ((View.whole main_v14_0).slice (win2_3.rect t)).set
  rw [View.set_slice_whole, Rect.mem_set_unit]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 56 ≤ (i 1).val ∧ (i 1).val < win2_3.index t (1 : Fin 4) * 56 + 56; omega
  | ⟨2, _⟩ => show win2_3.index t (2 : Fin 4) * 56 ≤ (i 2).val ∧ (i 2).val < win2_3.index t (2 : Fin 4) * 56 + 56; omega
  | ⟨3, _⟩ => show win2_3.index t (3 : Fin 4) * 384 ≤ (i 3).val ∧ (i 3).val < win2_3.index t (3 : Fin 4) * 384 + 384; omega

/-- Every index of the sums' array lies in its image's block. -/
theorem cover2_4 (c : Dev nD) (i : ((cfg2.win 4).arr.view.loc (c.tc : Thread nD τ)).2.ty.Idx) :
    ∃ t : Fin cfg2.N, (cfg2.win 4).flush t = true ∧ i ∈ ((cfg2.win 4).blk t).view.set := by
  have hi0 : (i 0).val < 16 := (i 0).isLt
  have hi1 : (i 1).val < 1 := (i 1).isLt
  have hi2 : (i 2).val < 384 := (i 2).isLt
  have hN : cfg2.N = 16 := N_2
  obtain ⟨t, ht⟩ : ∃ t : Fin cfg2.N, t.val = (i 0).val := ⟨⟨(i 0).val, by omega⟩, rfl⟩
  obtain ⟨i0, i1, i2⟩ := idx2_4 t
  refine ⟨t, flush2_4 t, ?_⟩
  show i ∈ ((View.whole main_v14_1).slice (win2_4.rect t)).set
  rw [View.set_slice_whole, Rect.mem_set_unit]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1 ≤ (i 1).val ∧ (i 1).val < win2_4.index t (1 : Fin 3) * 1 + 1; omega
  | ⟨2, _⟩ => show win2_4.index t (2 : Fin 3) * 384 ≤ (i 2).val ∧ (i 2).val < win2_4.index t (2 : Fin 3) * 384 + 384; omega

/-- The group's array after region 2. -/
theorem final2_3 (c : Dev nD) : (dat2 V c).arrAt 3 cfg2.N = arr2_3 (V c main_arg0) (V c main_v11) (V c main_v13) :=
  (dat2 V c).arrAt_eq_of_cover 3 _ (fun t _ => flushed2_3 V c t) (cover2_3 c)

/-- The group's per-image sums after region 2. -/
theorem final2_4 (c : Dev nD) : (dat2 V c).arrAt 4 cfg2.N = arr2_4 (V c main_arg0) (V c main_v11) (V c main_v13) :=
  (dat2 V c).arrAt_eq_of_cover 4 _ (fun t _ => flushed2_4 V c t) (cover2_4 c)

/-! ## Region 3: the gated combination and the second projection -/

def img3 (t : Fin cfg3.N) : Fin 16 := ⟨t.val, by have h := t.isLt; have e : cfg3.N = 16 := N_3; omega⟩

theorem idx3_0 : ∀ t : Fin cfg3.N, win3_0.index t (0 : Fin 4) = t.val ∧ win3_0.index t (1 : Fin 4) = 0 ∧ win3_0.index t (2 : Fin 4) = 0 ∧ win3_0.index t (3 : Fin 4) = 0 :=
  (by decide +kernel : ∀ t : Fin grid3.N, _)
theorem idx3_1 : ∀ t : Fin cfg3.N, win3_1.index t (0 : Fin 4) = t.val ∧ win3_1.index t (1 : Fin 4) = 0 ∧ win3_1.index t (2 : Fin 4) = 0 ∧ win3_1.index t (3 : Fin 4) = 0 :=
  (by decide +kernel : ∀ t : Fin grid3.N, _)
theorem idx3_2 : ∀ t : Fin cfg3.N, win3_2.index t (0 : Fin 4) = t.val ∧ win3_2.index t (1 : Fin 4) = 0 ∧ win3_2.index t (2 : Fin 4) = 0 ∧ win3_2.index t (3 : Fin 4) = 0 :=
  (by decide +kernel : ∀ t : Fin grid3.N, _)
theorem idx3_3 : ∀ t : Fin cfg3.N, win3_3.index t (0 : Fin 3) = t.val ∧ win3_3.index t (1 : Fin 3) = 0 ∧ win3_3.index t (2 : Fin 3) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 4) = t.val ∧ win3_6.index t (1 : Fin 4) = 0 ∧ win3_6.index t (2 : Fin 4) = 0 ∧ win3_6.index t (3 : Fin 4) = 0 :=
  (by decide +kernel : ∀ t : Fin grid3.N, _)

/-- Group 0's block the body reads at point `t` is image `t`'s block of the group's array. -/
theorem iblk3_0 (c : Dev nD) (t : Fin cfg3.N) :
    (iblk3 V c 0 t : S1x56x56x384.Idx → EReal) = blockOf (V c main_v6_0) (img3 t) := by
  funext y
  show V c main_v6_0 (((cfg3.win 0).blk t).view.emb y) = V c main_v6_0 (ix4 (img3 t) (y 1 : Fin 56) (y 2 : Fin 56) (y 3 : Fin 384))
  refine congrArg _ (funext fun a => Fin.ext ?_)
  obtain ⟨e0, e1, e2, e3⟩ := idx3_0 t
  have y0 : (y 0).val < 1 := (y 0).isLt
  match a with
  | ⟨0, _⟩ => show win3_0.index t (0 : Fin 4) * 1 + 1 * (y 0).val = t.val; omega
  | ⟨1, _⟩ => show win3_0.index t (1 : Fin 4) * 56 + 1 * (y 1).val = (y 1).val; omega
  | ⟨2, _⟩ => show win3_0.index t (2 : Fin 4) * 56 + 1 * (y 2).val = (y 2).val; omega
  | ⟨3, _⟩ => show win3_0.index t (3 : Fin 4) * 384 + 1 * (y 3).val = (y 3).val; omega

/-- Group 1's block the body reads at point `t` is image `t`'s block of the group's array. -/
theorem iblk3_1 (c : Dev nD) (t : Fin cfg3.N) :
    (iblk3 V c 1 t : S1x56x56x384.Idx → EReal) = blockOf (V c main_v10_0) (img3 t) := by
  funext y
  show V c main_v10_0 (((cfg3.win 1).blk t).view.emb y) = V c main_v10_0 (ix4 (img3 t) (y 1 : Fin 56) (y 2 : Fin 56) (y 3 : Fin 384))
  refine congrArg _ (funext fun a => Fin.ext ?_)
  obtain ⟨e0, e1, e2, e3⟩ := idx3_1 t
  have y0 : (y 0).val < 1 := (y 0).isLt
  match a with
  | ⟨0, _⟩ => show win3_1.index t (0 : Fin 4) * 1 + 1 * (y 0).val = t.val; omega
  | ⟨1, _⟩ => show win3_1.index t (1 : Fin 4) * 56 + 1 * (y 1).val = (y 1).val; omega
  | ⟨2, _⟩ => show win3_1.index t (2 : Fin 4) * 56 + 1 * (y 2).val = (y 2).val; omega
  | ⟨3, _⟩ => show win3_1.index t (3 : Fin 4) * 384 + 1 * (y 3).val = (y 3).val; omega

/-- Group 2's block the body reads at point `t` is image `t`'s block of the group's array. -/
theorem iblk3_2 (c : Dev nD) (t : Fin cfg3.N) :
    (iblk3 V c 2 t : S1x56x56x384.Idx → EReal) = blockOf (V c main_v14_0) (img3 t) := by
  funext y
  show V c main_v14_0 (((cfg3.win 2).blk t).view.emb y) = V c main_v14_0 (ix4 (img3 t) (y 1 : Fin 56) (y 2 : Fin 56) (y 3 : Fin 384))
  refine congrArg _ (funext fun a => Fin.ext ?_)
  obtain ⟨e0, e1, e2, e3⟩ := idx3_2 t
  have y0 : (y 0).val < 1 := (y 0).isLt
  match a with
  | ⟨0, _⟩ => show win3_2.index t (0 : Fin 4) * 1 + 1 * (y 0).val = t.val; omega
  | ⟨1, _⟩ => show win3_2.index t (1 : Fin 4) * 56 + 1 * (y 1).val = (y 1).val; omega
  | ⟨2, _⟩ => show win3_2.index t (2 : Fin 4) * 56 + 1 * (y 2).val = (y 2).val; omega
  | ⟨3, _⟩ => show win3_2.index t (3 : Fin 4) * 384 + 1 * (y 3).val = (y 3).val; omega

/-- The gating weights' block at point `t` is image `t`'s three rows. -/
theorem iblk3_3 (c : Dev nD) (t : Fin cfg3.N) :
    (iblk3 V c 3 t : S1x3x384.Idx → EReal) = gblockOf (V c main_v44) (img3 t) := by
  funext y
  show V c main_v44 (((cfg3.win 3).blk t).view.emb y) = V c main_v44 (ix3 (img3 t) (y 1 : Fin 3) (y 2 : Fin 384))
  refine congrArg _ (funext fun a => Fin.ext ?_)
  obtain ⟨e0, e1, e2⟩ := idx3_3 t
  have y0 : (y 0).val < 1 := (y 0).isLt
  match a with
  | ⟨0, _⟩ => show win3_3.index t (0 : Fin 3) * 1 + 1 * (y 0).val = t.val; omega
  | ⟨1, _⟩ => show win3_3.index t (1 : Fin 3) * 3 + 1 * (y 1).val = (y 1).val; omega
  | ⟨2, _⟩ => show win3_3.index t (2 : Fin 3) * 384 + 1 * (y 2).val = (y 2).val; omega

theorem iblk3_4 (c : Dev nD) (t : Fin cfg3.N) :
    (iblk3 V c 4 t : S384x384.Idx → EReal) = V c main_v1 := by
  funext y
  show V c main_v1 (((cfg3.win 4).blk t).view.emb y) = V c main_v1 y
  refine congrArg _ (funext fun a => Fin.ext ?_)
  obtain ⟨e0, e1⟩ := idx3_4 t
  match a with
  | ⟨0, _⟩ => show win3_4.index t (0 : Fin 2) * 384 + 1 * (y 0).val = (y 0).val; omega
  | ⟨1, _⟩ => show win3_4.index t (1 : Fin 2) * 384 + 1 * (y 1).val = (y 1).val; omega

theorem iblk3_5 (c : Dev nD) (t : Fin cfg3.N) :
    (iblk3 V c 5 t : S1x384.Idx → EReal) = V c main_v2 := by
  funext y
  show V c main_v2 (((cfg3.win 5).blk t).view.emb y) = V c main_v2 y
  refine congrArg _ (funext fun a => Fin.ext ?_)
  obtain ⟨e0, e1⟩ := idx3_5 t
  match a with
  | ⟨0, _⟩ => show win3_5.index t (0 : Fin 2) * 1 + 1 * (y 0).val = (y 0).val; omega
  | ⟨1, _⟩ => show win3_5.index t (1 : Fin 2) * 384 + 1 * (y 1).val = (y 1).val; omega

/-- The result array after the last region: image by image, the body's result of the image's blocks of the three groups
    and of the gating weights, the rounded second weights and the bias row. -/
def arr3_6 (X0 X1 X2 : S16x56x56x384.Idx → EReal) (g : S16x3x384.Idx → EReal) (Wb : S384x384.Idx → EReal) (bb : S1x384.Idx → EReal) : S16x56x56x384.Idx → EReal :=
  fun i => out3_6 (F := Ideal) (blockOf X0 (i 0 : Fin 16)) (blockOf X1 (i 0 : Fin 16)) (blockOf X2 (i 0 : Fin 16)) (gblockOf g (i 0 : Fin 16)) Wb bb
    (ix4 0 (i 1 : Fin 56) (i 2 : Fin 56) (i 3 : Fin 384))

theorem arr3_6_at (X0 X1 X2 : S16x56x56x384.Idx → EReal) (g : S16x3x384.Idx → EReal) (Wb : S384x384.Idx → EReal) (bb : S1x384.Idx → EReal) (b : Fin 16)
    (y : S1x56x56x384.Idx) (i : S16x56x56x384.Idx)
    (h0 : (i 0).val = b.val) (h1 : (i 1).val = (y 1).val) (h2 : (i 2).val = (y 2).val) (h3 : (i 3).val = (y 3).val) :
    out3_6 (F := Ideal) (blockOf X0 b) (blockOf X1 b) (blockOf X2 b) (gblockOf g b) Wb bb y = arr3_6 X0 X1 X2 g Wb bb i := by
  unfold arr3_6
  have hb : (i 0 : Fin 16) = b := Fin.ext h0
  have y0 : (y 0).val < 1 := (y 0).isLt
  have hy : ix4 0 (i 1 : Fin 56) (i 2 : Fin 56) (i 3 : Fin 384) = y := by
    funext a; apply Fin.ext
    match a with
    | ⟨0, _⟩ => show 0 = (y 0).val; omega
    | ⟨1, _⟩ => exact h1
    | ⟨2, _⟩ => exact h2
    | ⟨3, _⟩ => exact h3
  rw [hb]
  exact congrArg _ hy.symm

attribute [local irreducible] arr3_6 Cert.KernelIdeal.Gen.out3_6 in
set_option maxHeartbeats 400000 in
/-- What point `t` writes back to the result array is block `t` of `arr3_6`. -/
theorem flushed3_6 (c : Dev nD) (t : Fin cfg3.N) :
    (dat3 V c).flushed 6 t = ((cfg3.win 6).blk t).view.read (Elt Ideal)
      (arr3_6 (V c main_v6_0) (V c main_v10_0) (V c main_v14_0) (V c main_v44) (V c main_v1) (V c main_v2)) := by
  show (cfg3.win 6).cut (grid3.coords t) ((dat3 V c).after 6 t) = _
  rw [after3_6]
  have e0 := iblk3_0 V c t
  have e1 := iblk3_1 V c t
  have e2 := iblk3_2 V c t
  have e3 := iblk3_3 V c t
  have e4 := iblk3_4 V c t
  have e5 := iblk3_5 V c t
  rw [e0, e1, e2, e3, e4, e5]
  obtain ⟨i0, i1, i2, i3⟩ := idx3_6 t
  funext y
  rw [View.read_apply]
  have y0 : (y 0).val < 1 := (y 0).isLt
  exact arr3_6_at (V c main_v6_0) (V c main_v10_0) (V c main_v14_0) (V c main_v44) (V c main_v1) (V c main_v2) (img3 t)
    ((cfg3.win 6).xinj (grid3.coords t) y) (((cfg3.win 6).blk t).view.emb y)
    (by show win3_6.index t (0 : Fin 4) * 1 + 1 * (y 0).val = t.val; omega)
    (by show win3_6.index t (1 : Fin 4) * 56 + 1 * (y 1).val = (y 1).val; omega)
    (by show win3_6.index t (2 : Fin 4) * 56 + 1 * (y 2).val = (y 2).val; omega)
    (by show win3_6.index t (3 : Fin 4) * 384 + 1 * (y 3).val = (y 3).val; omega)

/-- Every index of the result array lies in its image's block. -/
theorem cover3_6 (c : Dev nD) (i : ((cfg3.win 6).arr.view.loc (c.tc : Thread nD τ)).2.ty.Idx) :
    ∃ t : Fin cfg3.N, (cfg3.win 6).flush t = true ∧ i ∈ ((cfg3.win 6).blk t).view.set := by
  have hi0 : (i 0).val < 16 := (i 0).isLt
  have hi1 : (i 1).val < 56 := (i 1).isLt
  have hi2 : (i 2).val < 56 := (i 2).isLt
  have hi3 : (i 3).val < 384 := (i 3).isLt
  have hN : cfg3.N = 16 := N_3
  obtain ⟨t, ht⟩ : ∃ t : Fin cfg3.N, t.val = (i 0).val := ⟨⟨(i 0).val, by omega⟩, rfl⟩
  obtain ⟨i0, i1, i2, i3⟩ := idx3_6 t
  refine ⟨t, flush3_6 t, ?_⟩
  show i ∈ ((View.whole main_v45).slice (win3_6.rect t)).set
  rw [View.set_slice_whole, Rect.mem_set_unit]
  intro a
  match a with
  | ⟨0, _⟩ => show win3_6.index t (0 : Fin 4) * 1 ≤ (i 0).val ∧ (i 0).val < win3_6.index t (0 : Fin 4) * 1 + 1; omega
  | ⟨1, _⟩ => show win3_6.index t (1 : Fin 4) * 56 ≤ (i 1).val ∧ (i 1).val < win3_6.index t (1 : Fin 4) * 56 + 56; omega
  | ⟨2, _⟩ => show win3_6.index t (2 : Fin 4) * 56 ≤ (i 2).val ∧ (i 2).val < win3_6.index t (2 : Fin 4) * 56 + 56; omega
  | ⟨3, _⟩ => show win3_6.index t (3 : Fin 4) * 384 ≤ (i 3).val ∧ (i 3).val < win3_6.index t (3 : Fin 4) * 384 + 384; omega

/-- The result array after the last region. -/
theorem final3_6 (c : Dev nD) : (dat3 V c).arrAt 6 cfg3.N
    = arr3_6 (V c main_v6_0) (V c main_v10_0) (V c main_v14_0) (V c main_v44) (V c main_v1) (V c main_v2) :=
  (dat3 V c).arrAt_eq_of_cover 6 _ (fun t _ => flushed3_6 V c t) (cover3_6 c)

end Cert.KernelIdeal.Blocks

end
-- ==== Proof.Mix.lean ====
/-
  The mathematics of the spatial-shift mixing layer, as plain functions on extended reals, index by index.

  An input image batch x[b,h,w,c] (16 × 56 × 56 × 384) is projected by W1 (384 × 1152) with bias b1 into three groups of
  384 channels, `pre … b h w j = Σ_c x[b,h,w,c] · W1[c,j] + b1[j]`. Group 0 and group 1 are shifted by one pixel with the
  border replicated, a different direction for each quarter (96 channels) of the group: for group 0 the quarters read
  their column from the left neighbour, the right neighbour, and their row from the upper and the lower neighbour; for
  group 1 the rows first, then the columns. Group 2 is not moved. `dn` is "one back, staying at 0", `up` is "one forward,
  staying at 55". The three moved groups are `mixed … k`, k = 0, 1, 2.

  `pool` sums the three groups over every pixel: one number per image and channel. A gating function of the pooled
  sums (it is a parameter `g` here: one weight per image, group and channel) weights the three groups, and the
  weighted sum is projected by W2 (384 × 384) with bias b2: `result`.

  The same functions over ONE image's block (`bpre`, `bmix0`, `bmix1`, `bmix2`) are what a per-image program computes from
  the image's block, a 384-column block of W1 and the matching 384 entries of b1 laid out as one row.
-/
import Idealize.ShloMosaic.PureOps.Ideal
import Idealize.ShloMosaic.Lib.ValueIdx

noncomputable section

open scoped BigOperators

namespace Cert.Mix

open Idealize.ShloMosaic Idealize.ShloMosaic.ValueIdx

/-- One step back along a 56-long axis, the border replicated: 0 stays 0. -/
def dn (i : Fin 56) : Fin 56 := ⟨i.val - 1, by have := i.isLt; omega⟩
/-- One step forward along a 56-long axis, the border replicated: 55 stays 55. -/
def up (i : Fin 56) : Fin 56 := ⟨if i.val < 55 then i.val + 1 else 55, by split <;> omega⟩

theorem dn_val (i : Fin 56) : (dn i).val = i.val - 1 := rfl
theorem up_val (i : Fin 56) : (up i).val = if i.val < 55 then i.val + 1 else 55 := rfl

/-! ## Whole arrays -/

abbrev Act := (⟨4, ![16, 56, 56, 384]⟩ : Shape).Idx → EReal
abbrev Wide := (⟨2, ![384, 1152]⟩ : Shape).Idx → EReal
abbrev Sq := (⟨2, ![384, 384]⟩ : Shape).Idx → EReal
abbrev Bias3 := (⟨1, ![1152]⟩ : Shape).Idx → EReal
abbrev Bias := (⟨1, ![384]⟩ : Shape).Idx → EReal
abbrev Gates := (⟨3, ![16, 3, 384]⟩ : Shape).Idx → EReal
abbrev Pooled := (⟨2, ![16, 384]⟩ : Shape).Idx → EReal

/-- The first projection at one pixel and one of its 1152 output channels. -/
def pre (x : Act) (W1 : Wide) (b1 : Bias3) (b : Fin 16) (h w : Fin 56) (j : Fin 1152) : EReal :=
  (∑ c : Fin 384, x (ix4 b h w c) * W1 (ix2 c j)) + b1 (ix1 j)

/-- Channel `d` of group `k` among the 1152 projected channels. -/
def col (k : Fin 3) (d : Fin 384) : Fin 1152 := ⟨384 * k.val + d.val, by have := k.isLt; have := d.isLt; omega⟩

/-- Group 0 after its shift: quarters read from (h, w−1), (h, w+1), (h−1, w), (h+1, w), borders replicated. -/
def mix0 (x : Act) (W1 : Wide) (b1 : Bias3) (b : Fin 16) (h w : Fin 56) (d : Fin 384) : EReal :=
  if d.val < 96 then pre x W1 b1 b h (dn w) (col 0 d)
  else if d.val < 192 then pre x W1 b1 b h (up w) (col 0 d)
  else if d.val < 288 then pre x W1 b1 b (dn h) w (col 0 d)
  else pre x W1 b1 b (up h) w (col 0 d)

/-- Group 1 after its shift: quarters read from (h−1, w), (h+1, w), (h, w−1), (h, w+1), borders replicated. -/
def mix1 (x : Act) (W1 : Wide) (b1 : Bias3) (b : Fin 16) (h w : Fin 56) (d : Fin 384) : EReal :=
  if d.val < 96 then pre x W1 b1 b (dn h) w (col 1 d)
  else if d.val < 192 then pre x W1 b1 b (up h) w (col 1 d)
  else if d.val < 288 then pre x W1 b1 b h (dn w) (col 1 d)
  else pre x W1 b1 b h (up w) (col 1 d)

/-- Group 2 is not moved. -/
def mix2 (x : Act) (W1 : Wide) (b1 : Bias3) (b : Fin 16) (h w : Fin 56) (d : Fin 384) : EReal :=
  pre x W1 b1 b h w (col 2 d)

/-- The three groups after their shifts. -/
def mixed (x : Act) (W1 : Wide) (b1 : Bias3) (k : Fin 3) (b : Fin 16) (h w : Fin 56) (d : Fin 384) : EReal :=
  match k with
  | 0 => mix0 x W1 b1 b h w d
  | 1 => mix1 x W1 b1 b h w d
  | 2 => mix2 x W1 b1 b h w d

/-- The pooled sums: every group, every pixel. -/
def pool (x : Act) (W1 : Wide) (b1 : Bias3) : Pooled := fun i =>
  ∑ k : Fin 3, ∑ h : Fin 56, ∑ w : Fin 56, mixed x W1 b1 k (i 0) h w (i 1)

/-- The gated sum of the three groups, projected by `W2` with bias `b2`. -/
def result (x : Act) (W1 : Wide) (b1 : Bias3) (W2 : Sq) (b2 : Bias) (g : Gates) : Act := fun i =>
  (∑ d : Fin 384, (∑ k : Fin 3, g (ix3 (i 0) k d) * mixed x W1 b1 k (i 0) (i 1) (i 2) d) * W2 (ix2 d (i 3))) + b2 (ix1 (i 3))

/-! ## One image's block -/

abbrev ActB := (⟨4, ![1, 56, 56, 384]⟩ : Shape).Idx → EReal
abbrev Row := (⟨2, ![1, 384]⟩ : Shape).Idx → EReal

/-- The projection of one image by one 384-column block of the weights, the bias laid out as a row. -/
def bpre (xb : ActB) (wb : Sq) (bb : Row) (h w : Fin 56) (d : Fin 384) : EReal :=
  (∑ c : Fin 384, xb (ix4 0 h w c) * wb (ix2 c d)) + bb (ix2 0 d)

def bmix0 (xb : ActB) (wb : Sq) (bb : Row) (h w : Fin 56) (d : Fin 384) : EReal :=
  if d.val < 96 then bpre xb wb bb h (dn w) d
  else if d.val < 192 then bpre xb wb bb h (up w) d
  else if d.val < 288 then bpre xb wb bb (dn h) w d
  else bpre xb wb bb (up h) w d

def bmix1 (xb : ActB) (wb : Sq) (bb : Row) (h w : Fin 56) (d : Fin 384) : EReal :=
  if d.val < 96 then bpre xb wb bb (dn h) w d
  else if d.val < 192 then bpre xb wb bb (up h) w d
  else if d.val < 288 then bpre xb wb bb h (dn w) d
  else bpre xb wb bb h (up w) d

/-- A block computed from the image's block of `x`, group `k`'s columns of `W1` and entries of `b1` is the whole-array
    function at that image. -/
theorem bpre_eq (x : Act) (W1 : Wide) (b1 : Bias3) (k : Fin 3) (b : Fin 16) (xb : ActB) (wb : Sq) (bb : Row)
    (hx : ∀ h w c, xb (ix4 0 h w c) = x (ix4 b h w c)) (hw : ∀ c d, wb (ix2 c d) = W1 (ix2 c (col k d)))
    (hb : ∀ d, bb (ix2 0 d) = b1 (ix1 (col k d))) (h w : Fin 56) (d : Fin 384) :
    bpre xb wb bb h w d = pre x W1 b1 b h w (col k d) := by
  unfold bpre pre
  rw [hb d]
  exact congrArg (· + _) (Finset.sum_congr rfl fun c _ => by rw [hx, hw])

theorem bmix0_eq (x : Act) (W1 : Wide) (b1 : Bias3) (b : Fin 16) (xb : ActB) (wb : Sq) (bb : Row)
    (hx : ∀ h w c, xb (ix4 0 h w c) = x (ix4 b h w c)) (hw : ∀ c d, wb (ix2 c d) = W1 (ix2 c (col 0 d)))
    (hb : ∀ d, bb (ix2 0 d) = b1 (ix1 (col 0 d))) (h w : Fin 56) (d : Fin 384) :
    bmix0 xb wb bb h w d = mix0 x W1 b1 b h w d := by
  unfold bmix0 mix0
  simp only [bpre_eq x W1 b1 0 b xb wb bb hx hw hb]

theorem bmix1_eq (x : Act) (W1 : Wide) (b1 : Bias3) (b : Fin 16) (xb : ActB) (wb : Sq) (bb : Row)
    (hx : ∀ h w c, xb (ix4 0 h w c) = x (ix4 b h w c)) (hw : ∀ c d, wb (ix2 c d) = W1 (ix2 c (col 1 d)))
    (hb : ∀ d, bb (ix2 0 d) = b1 (ix1 (col 1 d))) (h w : Fin 56) (d : Fin 384) :
    bmix1 xb wb bb h w d = mix1 x W1 b1 b h w d := by
  unfold bmix1 mix1
  simp only [bpre_eq x W1 b1 1 b xb wb bb hx hw hb]

theorem bmix2_eq (x : Act) (W1 : Wide) (b1 : Bias3) (b : Fin 16) (xb : ActB) (wb : Sq) (bb : Row)
    (hx : ∀ h w c, xb (ix4 0 h w c) = x (ix4 b h w c)) (hw : ∀ c d, wb (ix2 c d) = W1 (ix2 c (col 2 d)))
    (hb : ∀ d, bb (ix2 0 d) = b1 (ix1 (col 2 d))) (h w : Fin 56) (d : Fin 384) :
    bpre xb wb bb h w d = mix2 x W1 b1 b h w d :=
  bpre_eq x W1 b1 2 b xb wb bb hx hw hb h w d

end Cert.Mix

end
-- ==== Proof.ChunkValue.lean ====
/-
  The values the four program bodies leave in their output blocks, read at one index.

  Each of the first three bodies projects one image's block x[1,56,56,384] by a 384 × 384 block of weights and adds a
  bias row: the image is viewed as a [3136, 384] matrix (pixel (h, w) is row 56 h + w), multiplied, the bias row
  broadcast over the rows is added, and the result is viewed as [56, 56, 384] again. At pixel (h, w) and channel d this is
  `Mix.bpre … h w d`. The third body stores that array; the first two first move each quarter of the channels by one
  pixel with the border replicated (a slice of all but one row or column, joined with a copy of the border row or
  column), which at an index is a read at the neighbouring pixel, `Mix.dn` or `Mix.up` of the coordinate. Each body also
  stores the sum of what it stores over all pixels, as two sums over one axis each: first over h, then over w.

  The fourth body weights three stored blocks by three rows of gates, adds them, projects by a 384 × 384 matrix in the
  same way and adds a bias row.
-/
import proofs.«106878_j9723805958798_1_alg».proof.Proof.Gen.KernelIdeal.Frame
import proofs.«106878_j9723805958798_1_alg».proof.Proof.Mix
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The zero offsets of a rank-4 whole-block rectangle, however spelt. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The [3136, 384] × [384, 384] product into the zero accumulator, at row p and column e: the sum over the
    contracted coordinate of the products of the entries. -/
theorem mm_apply {φ₁ φ₂ : FTy} (A : FVec Ideal S3136x384 φ₁) (B : FVec Ideal S384x384 φ₂) (p : Fin 3136) (e : Fin 384) :
    matmul dot_S3136x384_S384x384_S3136x384_1_0_0_1_n_n none A B (constant (F := Ideal) S3136x384 .f32 0x00000000#32) (ix2 p e)
      = ∑ c : Fin 384, A (ix2 p c) * B (ix2 c e) := by
  refine (Ideal.matmul_constant_zero_apply dot_S3136x384_S384x384_S3136x384_1_0_0_1_n_n none A B (ix2 p e)).trans ?_
  rw [← Equiv.sum_comp (contrEquiv1 dot_S3136x384_S384x384_S3136x384_1_0_0_1_n_n 384 rfl rfl).symm]
  refine Finset.sum_congr rfl fun c _ => ?_
  have c2 := contrEquiv1_symm_val dot_S3136x384_S384x384_S3136x384_1_0_0_1_n_n 384 rfl rfl c
  have l2 : dot_S3136x384_S384x384_S3136x384_1_0_0_1_n_n.lhsIdx (ix2 p e) ((contrEquiv1 _ 384 rfl rfl).symm c) = ix2 p c := by
    funext ax; apply Fin.ext
    match ax with
    | ⟨0, _⟩ => simp [DotDims.lhsIdx, dot_S3136x384_S384x384_S3136x384_1_0_0_1_n_n]; rfl
    | ⟨1, _⟩ => simp [DotDims.lhsIdx, dot_S3136x384_S384x384_S3136x384_1_0_0_1_n_n]; exact c2
  have r2 : dot_S3136x384_S384x384_S3136x384_1_0_0_1_n_n.rhsIdx (ix2 p e) ((contrEquiv1 _ 384 rfl rfl).symm c) = ix2 c e := by
    funext ax; apply Fin.ext
    match ax with
    | ⟨0, _⟩ => simp [DotDims.rhsIdx, dot_S3136x384_S384x384_S3136x384_1_0_0_1_n_n]; exact c2
    | ⟨1, _⟩ => simp [DotDims.rhsIdx, dot_S3136x384_S384x384_S3136x384_1_0_0_1_n_n]; rfl
  rw [l2, r2]

/-- The row of the [3136, 384] matrix that holds pixel (h, w). -/
def pos (h w : Fin 56) : Fin 3136 := ⟨h.val * 56 + w.val, by have := h.isLt; have := w.isLt; omega⟩

theorem pos_val (h w : Fin 56) : (pos h w).val = h.val * 56 + w.val := rfl

/-- The [56, 56, 384] view of a [3136, 384] matrix reads row `pos h w`. -/
theorem cast_3136_apply {α : Type} (x : S3136x384.Idx → α) (hc : S3136x384.ShapeCasts S56x56x384) (h w : Fin 56) (d : Fin 384) :
    shapeCast S56x56x384 x hc (ix3 h w d) = x (ix2 (pos h w) d) :=
  shapeCast_apply x hc _ _ (by
    rw [Shape.rowMajor_val_two, Shape.rowMajor_val_three]
    show (h.val * 56 + w.val) * 384 + d.val = (h.val * 56 + w.val) * 384 + d.val
    rfl)

/-- The [3136, 384] view of a [56, 56, 384] array reads, at row `pos h w`, pixel (h, w). -/
theorem cast_56_apply {α : Type} (x : S56x56x384.Idx → α) (hc : S56x56x384.ShapeCasts S3136x384) (h w : Fin 56) (d : Fin 384) :
    shapeCast S3136x384 x hc (ix2 (pos h w) d) = x (ix3 h w d) :=
  shapeCast_apply x hc _ _ (by
    rw [Shape.rowMajor_val_two, Shape.rowMajor_val_three]
    show (h.val * 56 + w.val) * 384 + d.val = (h.val * 56 + w.val) * 384 + d.val
    rfl)

/-- The projection payload at pixel (h, w) and channel d is the block projection of Mix. -/
theorem pay1_apply (x0 : Vec Ideal S1x56x56x384 .f32) (x1 : Vec Ideal S384x384 .bf16) (x2 : Vec Ideal S1x384 .f32)
    (h w : Fin 56) (d : Fin 384) :
    k2_pay1 (F := Ideal) x0 x1 x2 (ix3 h w d) = Cert.Mix.bpre x0 x1 x2 h w d := by
  unfold k2_pay1
  refine (cast_3136_apply _ _ h w d).trans ?_
  refine (addf_apply _ _ _).trans ?_
  unfold Cert.Mix.bpre
  refine congrArg₂ (· + ·) ?_ ?_
  · refine (mm_apply _ _ (pos h w) d).trans ?_
    refine Finset.sum_congr rfl fun c _ => ?_
    refine congrArg₂ (· * ·) ?_ ?_
    · refine (cast_56_apply _ _ h w c).trans ?_
      refine (truncf_apply (ψ := .bf16) (φ := .f32) _ bitsLt_bf16_f32 _).trans ?_
      exact shapeCast_1abc_abc_apply x0 _ h w c
    · exact congrFun (shapeCast_self x1 _) _
  · refine (broadcastTo_1b_ab_apply _ _ (pos h w) d).trans ?_
    exact congrFun (shapeCast_self x2 _) _

/-- The sum over the rows h of a [56, 56, 384] array, at column w and channel d. -/
theorem red_h (src : FVec Ideal S56x56x384 .f32) (w : Fin 56) (d : Fin 384) :
    multiReduction (F := Ideal) .add [0] S56x384 src 0x00000000#32 reduces_S56x56x384_S56x384 (.inl rfl) rfl (ix2 w d)
      = ∑ h : Fin 56, src (ix3 h w d) := by
  refine (Ideal.multiReduction_add_single src _ reduces_S56x56x384_S56x384 (.inl rfl) rfl (ix2 w d)).trans ?_
  refine Finset.sum_congr rfl fun h _ => congrArg src ?_
  funext a; apply Fin.ext
  match a with
  | ⟨0, _⟩ => rfl
  | ⟨1, _⟩ => rfl
  | ⟨2, _⟩ => rfl

/-- The sum over the columns w of a [56, 384] array, at channel d. -/
theorem red_w (src : FVec Ideal S56x384 .f32) (d : Fin 384) :
    multiReduction (F := Ideal) .add [0] S384 src 0x00000000#32 reduces_S56x384_S384 (.inl rfl) rfl (ix1 d)
      = ∑ w : Fin 56, src (ix2 w d) := by
  refine (Ideal.multiReduction_add_single src _ reduces_S56x384_S384 (.inl rfl) rfl (ix1 d)).trans ?_
  refine Finset.sum_congr rfl fun w _ => congrArg src ?_
  funext a; apply Fin.ext
  match a with
  | ⟨0, _⟩ => rfl
  | ⟨1, _⟩ => rfl

/-- The two lane sums of a [56, 56, 384] array laid out as a [1, 1, 384] block: at channel d, the sum over every pixel. -/
theorem pool_apply (src : FVec Ideal S56x56x384 .f32) (d : Fin 384) :
    shapeCast S1x1x384 (shapeCast S1x384
        (multiReduction (F := Ideal) .add [0] S384
          (multiReduction (F := Ideal) .add [0] S56x384 src 0x00000000#32 reduces_S56x56x384_S56x384 (.inl rfl) rfl)
          0x00000000#32 reduces_S56x384_S384 (.inl rfl) rfl) shapeCasts_S384_S1x384) shapeCasts_S1x384_S1x1x384 (ix3 0 0 d)
      = ∑ w : Fin 56, ∑ h : Fin 56, src (ix3 h w d) := by
  refine (shapeCast_ab_1ab_apply _ _ 0 0 d).trans ?_
  refine (shapeCast_a_1a_apply _ _ 0 d).trans ?_
  refine (red_w _ d).trans ?_
  exact Finset.sum_congr rfl fun w _ => red_h src w d

theorem out2_3_apply (x0 : Vec Ideal S1x56x56x384 .f32) (x1 : Vec Ideal S384x384 .bf16) (x2 : Vec Ideal S1x384 .f32)
    (h w : Fin 56) (d : Fin 384) :
    out2_3 (F := Ideal) x0 x1 x2 (ix4 0 h w d) = Cert.Mix.bpre x0 x1 x2 h w d := by
  unfold out2_3
  rw [View.canon_unit_zero hz4]
  simp only [View.ld_unit_zero (S := S1x56x56x384) hz4, View.ld_unit_zero (S := S384x384) hz2, View.ld_unit_zero (S := S1x384) hz2]
  unfold k2_pay2
  refine (shapeCast_abc_1abc_apply _ _ 0 h w d).trans ?_
  refine (truncf_apply (ψ := .bf16) (φ := .f32) _ bitsLt_bf16_f32 _).trans ?_
  exact pay1_apply x0 x1 x2 h w d

theorem out2_4_apply (x0 : Vec Ideal S1x56x56x384 .f32) (x1 : Vec Ideal S384x384 .bf16) (x2 : Vec Ideal S1x384 .f32)
    (d : Fin 384) :
    out2_4 (F := Ideal) x0 x1 x2 (ix3 0 0 d) = ∑ w : Fin 56, ∑ h : Fin 56, Cert.Mix.bpre x0 x1 x2 h w d := by
  unfold out2_4
  rw [View.canon_unit_zero hz3]
  simp only [View.ld_unit_zero (S := S1x56x56x384) hz4, View.ld_unit_zero (S := S384x384) hz2, View.ld_unit_zero (S := S1x384) hz2]
  unfold k2_pay3
  refine (pool_apply _ d).trans ?_
  exact Finset.sum_congr rfl fun w _ => Finset.sum_congr rfl fun h _ => pay1_apply x0 x1 x2 h w d

/-! ## One-pixel moves with the border replicated, read at an index -/

section Shift
variable {α : Type}

/-- Column 0 joined with columns 0 … 54: at column w, the operand at column w − 1, column 0 at w = 0. -/
theorem dnW_apply (v : S56x56x96.Idx → α) (h w : Fin 56) (q : Fin 96) :
    concatenate S56x56x96 1 [⟨S56x1x96, extractStridedSlice S56x1x96 ![0, 0, 0] v slices_S56x56x96_o0_0_0_S56x1x96⟩,
        ⟨S56x55x96, extractStridedSlice S56x55x96 ![0, 0, 0] v slices_S56x56x96_o0_0_0_S56x55x96⟩]
        concatenates_S56x1x96_S56x55x96_S56x56x96_d1 (ix3 h w q)
      = v (ix3 h (Cert.Mix.dn w) q) := by
  have hwlt := w.isLt
  by_cases hw : w.val < 1
  · refine (concatenate_pair_apply_left (s₁ := S56x1x96) (s₂ := S56x55x96) (1 : Fin S56x56x96.rank) _ _ _ (ix3 h w q) rfl (ix3 h (0 : Fin 1) q) (fun b => by
      match b with
      | ⟨0, _⟩ => rfl
      | ⟨1, _⟩ => show 0 = w.val; omega
      | ⟨2, _⟩ => rfl)).trans ?_
    refine extractStridedSlice_apply _ v _ _ _ (fun a => by
      match a with
      | ⟨0, _⟩ => exact (Nat.zero_add _).symm
      | ⟨1, _⟩ => show (Cert.Mix.dn w).val = 0 + 0; rw [Cert.Mix.dn_val]; omega
      | ⟨2, _⟩ => exact (Nat.zero_add _).symm)
  · refine (concatenate_pair_apply_right (s₁ := S56x1x96) (s₂ := S56x55x96) (1 : Fin S56x56x96.rank) _ _ _ (ix3 h w q) rfl rfl
      (ix3 h (⟨w.val - 1, by omega⟩ : Fin 55) q) (fun b => by
        match b with
        | ⟨0, _⟩ => exact fun _ => rfl
        | ⟨1, _⟩ => exact fun hne => absurd rfl hne
        | ⟨2, _⟩ => exact fun _ => rfl) (by show (w.val - 1) + 1 = w.val; omega)).trans ?_
    refine extractStridedSlice_apply _ v _ _ _ (fun a => by
      match a with
      | ⟨0, _⟩ => exact (Nat.zero_add _).symm
      | ⟨1, _⟩ => show (Cert.Mix.dn w).val = 0 + (w.val - 1); rw [Cert.Mix.dn_val]; omega
      | ⟨2, _⟩ => exact (Nat.zero_add _).symm)

/-- Columns 1 … 55 joined with column 55: at column w, the operand at column w + 1, column 55 at w = 55. -/
theorem upW_apply (v : S56x56x96.Idx → α) (h w : Fin 56) (q : Fin 96) :
    concatenate S56x56x96 1 [⟨S56x55x96, extractStridedSlice S56x55x96 ![0, 1, 0] v slices_S56x56x96_o0_1_0_S56x55x96⟩,
        ⟨S56x1x96, extractStridedSlice S56x1x96 ![0, 55, 0] v slices_S56x56x96_o0_55_0_S56x1x96⟩]
        concatenates_S56x55x96_S56x1x96_S56x56x96_d1 (ix3 h w q)
      = v (ix3 h (Cert.Mix.up w) q) := by
  have hwlt := w.isLt
  by_cases hw : w.val < 55
  · refine (concatenate_pair_apply_left (s₁ := S56x55x96) (s₂ := S56x1x96) (1 : Fin S56x56x96.rank) _ _ _ (ix3 h w q) rfl (ix3 h (⟨w.val, hw⟩ : Fin 55) q) (fun b => by
      match b with
      | ⟨0, _⟩ => rfl
      | ⟨1, _⟩ => rfl
      | ⟨2, _⟩ => rfl)).trans ?_
    refine extractStridedSlice_apply _ v _ _ _ (fun a => by
      match a with
      | ⟨0, _⟩ => exact (Nat.zero_add _).symm
      | ⟨1, _⟩ => show (Cert.Mix.up w).val = 1 + w.val; rw [Cert.Mix.up_val, if_pos hw]; omega
      | ⟨2, _⟩ => exact (Nat.zero_add _).symm)
  · refine (concatenate_pair_apply_right (s₁ := S56x55x96) (s₂ := S56x1x96) (1 : Fin S56x56x96.rank) _ _ _ (ix3 h w q) rfl rfl
      (ix3 h (0 : Fin 1) q) (fun b => by
        match b with
        | ⟨0, _⟩ => exact fun _ => rfl
        | ⟨1, _⟩ => exact fun hne => absurd rfl hne
        | ⟨2, _⟩ => exact fun _ => rfl) (by show 0 + 55 = w.val; omega)).trans ?_
    refine extractStridedSlice_apply _ v _ _ _ (fun a => by
      match a with
      | ⟨0, _⟩ => exact (Nat.zero_add _).symm
      | ⟨1, _⟩ => show (Cert.Mix.up w).val = 55 + 0; rw [Cert.Mix.up_val, if_neg hw]
      | ⟨2, _⟩ => exact (Nat.zero_add _).symm)

/-- Row 0 joined with rows 0 … 54: at row h, the operand at row h − 1, row 0 at h = 0. -/
theorem dnH_apply (v : S56x56x96.Idx → α) (h w : Fin 56) (q : Fin 96) :
    concatenate S56x56x96 0 [⟨S1x56x96, extractStridedSlice S1x56x96 ![0, 0, 0] v slices_S56x56x96_o0_0_0_S1x56x96⟩,
        ⟨S55x56x96, extractStridedSlice S55x56x96 ![0, 0, 0] v slices_S56x56x96_o0_0_0_S55x56x96⟩]
        concatenates_S1x56x96_S55x56x96_S56x56x96_d0 (ix3 h w q)
      = v (ix3 (Cert.Mix.dn h) w q) := by
  have hhlt := h.isLt
  by_cases hh : h.val < 1
  · refine (concatenate_pair_apply_left (s₁ := S1x56x96) (s₂ := S55x56x96) (0 : Fin S56x56x96.rank) _ _ _ (ix3 h w q) rfl (ix3 (0 : Fin 1) w q) (fun b => by
      match b with
      | ⟨0, _⟩ => show 0 = h.val; omega
      | ⟨1, _⟩ => rfl
      | ⟨2, _⟩ => rfl)).trans ?_
    refine extractStridedSlice_apply _ v _ _ _ (fun a => by
      match a with
      | ⟨0, _⟩ => show (Cert.Mix.dn h).val = 0 + 0; rw [Cert.Mix.dn_val]; omega
      | ⟨1, _⟩ => exact (Nat.zero_add _).symm
      | ⟨2, _⟩ => exact (Nat.zero_add _).symm)
  · refine (concatenate_pair_apply_right (s₁ := S1x56x96) (s₂ := S55x56x96) (0 : Fin S56x56x96.rank) _ _ _ (ix3 h w q) rfl rfl
      (ix3 (⟨h.val - 1, by omega⟩ : Fin 55) w q) (fun b => by
        match b with
        | ⟨0, _⟩ => exact fun hne => absurd rfl hne
        | ⟨1, _⟩ => exact fun _ => rfl
        | ⟨2, _⟩ => exact fun _ => rfl) (by show (h.val - 1) + 1 = h.val; omega)).trans ?_
    refine extractStridedSlice_apply _ v _ _ _ (fun a => by
      match a with
      | ⟨0, _⟩ => show (Cert.Mix.dn h).val = 0 + (h.val - 1); rw [Cert.Mix.dn_val]; omega
      | ⟨1, _⟩ => exact (Nat.zero_add _).symm
      | ⟨2, _⟩ => exact (Nat.zero_add _).symm)

/-- Rows 1 … 55 joined with row 55: at row h, the operand at row h + 1, row 55 at h = 55. -/
theorem upH_apply (v : S56x56x96.Idx → α) (h w : Fin 56) (q : Fin 96) :
    concatenate S56x56x96 0 [⟨S55x56x96, extractStridedSlice S55x56x96 ![1, 0, 0] v slices_S56x56x96_o1_0_0_S55x56x96⟩,
        ⟨S1x56x96, extractStridedSlice S1x56x96 ![55, 0, 0] v slices_S56x56x96_o55_0_0_S1x56x96⟩]
        concatenates_S55x56x96_S1x56x96_S56x56x96_d0 (ix3 h w q)
      = v (ix3 (Cert.Mix.up h) w q) := by
  have hhlt := h.isLt
  by_cases hh : h.val < 55
  · refine (concatenate_pair_apply_left (s₁ := S55x56x96) (s₂ := S1x56x96) (0 : Fin S56x56x96.rank) _ _ _ (ix3 h w q) rfl (ix3 (⟨h.val, hh⟩ : Fin 55) w q) (fun b => by
      match b with
      | ⟨0, _⟩ => rfl
      | ⟨1, _⟩ => rfl
      | ⟨2, _⟩ => rfl)).trans ?_
    refine extractStridedSlice_apply _ v _ _ _ (fun a => by
      match a with
      | ⟨0, _⟩ => show (Cert.Mix.up h).val = 1 + h.val; rw [Cert.Mix.up_val, if_pos hh]; omega
      | ⟨1, _⟩ => exact (Nat.zero_add _).symm
      | ⟨2, _⟩ => exact (Nat.zero_add _).symm)
  · refine (concatenate_pair_apply_right (s₁ := S55x56x96) (s₂ := S1x56x96) (0 : Fin S56x56x96.rank) _ _ _ (ix3 h w q) rfl rfl
      (ix3 (0 : Fin 1) w q) (fun b => by
        match b with
        | ⟨0, _⟩ => exact fun hne => absurd rfl hne
        | ⟨1, _⟩ => exact fun _ => rfl
        | ⟨2, _⟩ => exact fun _ => rfl) (by show 0 + 55 = h.val; omega)).trans ?_
    refine extractStridedSlice_apply _ v _ _ _ (fun a => by
      match a with
      | ⟨0, _⟩ => show (Cert.Mix.up h).val = 55 + 0; rw [Cert.Mix.up_val, if_neg hh]
      | ⟨1, _⟩ => exact (Nat.zero_add _).symm
      | ⟨2, _⟩ => exact (Nat.zero_add _).symm)

end Shift

section Quarters
variable {α : Type}

/-- A block of 96 channels cut from channel o on: channel q of the block is channel o + q of the operand. -/
theorem quarter_apply (v : S56x56x384.Idx → α) (o : Nat) (hs : S56x56x384.Slices ![0, 0, o] S56x56x96) (h w : Fin 56)
    (q : Fin 96) (d : Fin 384) (hd : d.val = o + q.val) :
    extractStridedSlice S56x56x96 ![0, 0, o] v hs (ix3 h w q) = v (ix3 h w d) :=
  extractStridedSlice_apply _ v hs _ _ (fun a => by
    match a with
    | ⟨0, _⟩ => exact (Nat.zero_add _).symm
    | ⟨1, _⟩ => exact (Nat.zero_add _).symm
    | ⟨2, _⟩ => exact hd)

/-- Four blocks of 96 channels joined along the channels: channel d = 96 k + q reads block k at channel q. -/
theorem cat4_0 (p0 p1 p2 p3 : S56x56x96.Idx → α) (h w : Fin 56) (d : Fin 384) (q : Fin 96) (hd : 0 + q.val = d.val) :
    concatenate S56x56x384 2 [⟨S56x56x96, p0⟩, ⟨S56x56x96, p1⟩, ⟨S56x56x96, p2⟩, ⟨S56x56x96, p3⟩]
        concatenates_S56x56x96_S56x56x96_S56x56x96_S56x56x96_S56x56x384_d2 (ix3 h w d) = p0 (ix3 h w q) :=
  concatenate_apply_piece (2 : Fin S56x56x384.rank) _ _ (ix3 h w d) 0 (by show 0 < 4; omega) S56x56x96 p0 rfl rfl 0 rfl (ix3 h w q)
    (fun b => by
      match b with
      | ⟨0, _⟩ => exact fun _ => rfl
      | ⟨1, _⟩ => exact fun _ => rfl
      | ⟨2, _⟩ => exact fun hne => absurd rfl hne) hd

theorem cat4_1 (p0 p1 p2 p3 : S56x56x96.Idx → α) (h w : Fin 56) (d : Fin 384) (q : Fin 96) (hd : 96 + q.val = d.val) :
    concatenate S56x56x384 2 [⟨S56x56x96, p0⟩, ⟨S56x56x96, p1⟩, ⟨S56x56x96, p2⟩, ⟨S56x56x96, p3⟩]
        concatenates_S56x56x96_S56x56x96_S56x56x96_S56x56x96_S56x56x384_d2 (ix3 h w d) = p1 (ix3 h w q) :=
  concatenate_apply_piece (2 : Fin S56x56x384.rank) _ _ (ix3 h w d) 1 (by show 1 < 4; omega) S56x56x96 p1 rfl rfl 96 rfl (ix3 h w q)
    (fun b => by
      match b with
      | ⟨0, _⟩ => exact fun _ => rfl
      | ⟨1, _⟩ => exact fun _ => rfl
      | ⟨2, _⟩ => exact fun hne => absurd rfl hne) hd

theorem cat4_2 (p0 p1 p2 p3 : S56x56x96.Idx → α) (h w : Fin 56) (d : Fin 384) (q : Fin 96) (hd : 192 + q.val = d.val) :
    concatenate S56x56x384 2 [⟨S56x56x96, p0⟩, ⟨S56x56x96, p1⟩, ⟨S56x56x96, p2⟩, ⟨S56x56x96, p3⟩]
        concatenates_S56x56x96_S56x56x96_S56x56x96_S56x56x96_S56x56x384_d2 (ix3 h w d) = p2 (ix3 h w q) :=
  concatenate_apply_piece (2 : Fin S56x56x384.rank) _ _ (ix3 h w d) 2 (by show 2 < 4; omega) S56x56x96 p2 rfl rfl 192 rfl (ix3 h w q)
    (fun b => by
      match b with
      | ⟨0, _⟩ => exact fun _ => rfl
      | ⟨1, _⟩ => exact fun _ => rfl
      | ⟨2, _⟩ => exact fun hne => absurd rfl hne) hd

theorem cat4_3 (p0 p1 p2 p3 : S56x56x96.Idx → α) (h w : Fin 56) (d : Fin 384) (q : Fin 96) (hd : 288 + q.val = d.val) :
    concatenate S56x56x384 2 [⟨S56x56x96, p0⟩, ⟨S56x56x96, p1⟩, ⟨S56x56x96, p2⟩, ⟨S56x56x96, p3⟩]
        concatenates_S56x56x96_S56x56x96_S56x56x96_S56x56x96_S56x56x384_d2 (ix3 h w d) = p3 (ix3 h w q) :=
  concatenate_apply_piece (2 : Fin S56x56x384.rank) _ _ (ix3 h w d) 3 (by show 3 < 4; omega) S56x56x96 p3 rfl rfl 288 rfl (ix3 h w q)
    (fun b => by
      match b with
      | ⟨0, _⟩ => exact fun _ => rfl
      | ⟨1, _⟩ => exact fun _ => rfl
      | ⟨2, _⟩ => exact fun hne => absurd rfl hne) hd

end Quarters

/-! ## The quarters of the two moved groups, in Mix's words -/

theorem bmix0_q0 (xb : Cert.Mix.ActB) (wb : Cert.Mix.Sq) (bb : Cert.Mix.Row) (h w : Fin 56) (d : Fin 384) (h1 : d.val < 96) :
    Cert.Mix.bmix0 xb wb bb h w d = Cert.Mix.bpre xb wb bb h (Cert.Mix.dn w) d := by
  unfold Cert.Mix.bmix0; rw [if_pos h1]
theorem bmix0_q1 (xb : Cert.Mix.ActB) (wb : Cert.Mix.Sq) (bb : Cert.Mix.Row) (h w : Fin 56) (d : Fin 384) (h1 : ¬ d.val < 96)
    (h2 : d.val < 192) : Cert.Mix.bmix0 xb wb bb h w d = Cert.Mix.bpre xb wb bb h (Cert.Mix.up w) d := by
  unfold Cert.Mix.bmix0; rw [if_neg h1, if_pos h2]
theorem bmix0_q2 (xb : Cert.Mix.ActB) (wb : Cert.Mix.Sq) (bb : Cert.Mix.Row) (h w : Fin 56) (d : Fin 384) (h1 : ¬ d.val < 96)
    (h2 : ¬ d.val < 192) (h3 : d.val < 288) : Cert.Mix.bmix0 xb wb bb h w d = Cert.Mix.bpre xb wb bb (Cert.Mix.dn h) w d := by
  unfold Cert.Mix.bmix0; rw [if_neg h1, if_neg h2, if_pos h3]
theorem bmix0_q3 (xb : Cert.Mix.ActB) (wb : Cert.Mix.Sq) (bb : Cert.Mix.Row) (h w : Fin 56) (d : Fin 384) (h1 : ¬ d.val < 96)
    (h2 : ¬ d.val < 192) (h3 : ¬ d.val < 288) : Cert.Mix.bmix0 xb wb bb h w d = Cert.Mix.bpre xb wb bb (Cert.Mix.up h) w d := by
  unfold Cert.Mix.bmix0; rw [if_neg h1, if_neg h2, if_neg h3]

theorem bmix1_q0 (xb : Cert.Mix.ActB) (wb : Cert.Mix.Sq) (bb : Cert.Mix.Row) (h w : Fin 56) (d : Fin 384) (h1 : d.val < 96) :
    Cert.Mix.bmix1 xb wb bb h w d = Cert.Mix.bpre xb wb bb (Cert.Mix.dn h) w d := by
  unfold Cert.Mix.bmix1; rw [if_pos h1]
theorem bmix1_q1 (xb : Cert.Mix.ActB) (wb : Cert.Mix.Sq) (bb : Cert.Mix.Row) (h w : Fin 56) (d : Fin 384) (h1 : ¬ d.val < 96)
    (h2 : d.val < 192) : Cert.Mix.bmix1 xb wb bb h w d = Cert.Mix.bpre xb wb bb (Cert.Mix.up h) w d := by
  unfold Cert.Mix.bmix1; rw [if_neg h1, if_pos h2]
theorem bmix1_q2 (xb : Cert.Mix.ActB) (wb : Cert.Mix.Sq) (bb : Cert.Mix.Row) (h w : Fin 56) (d : Fin 384) (h1 : ¬ d.val < 96)
    (h2 : ¬ d.val < 192) (h3 : d.val < 288) : Cert.Mix.bmix1 xb wb bb h w d = Cert.Mix.bpre xb wb bb h (Cert.Mix.dn w) d := by
  unfold Cert.Mix.bmix1; rw [if_neg h1, if_neg h2, if_pos h3]
theorem bmix1_q3 (xb : Cert.Mix.ActB) (wb : Cert.Mix.Sq) (bb : Cert.Mix.Row) (h w : Fin 56) (d : Fin 384) (h1 : ¬ d.val < 96)
    (h2 : ¬ d.val < 192) (h3 : ¬ d.val < 288) : Cert.Mix.bmix1 xb wb bb h w d = Cert.Mix.bpre xb wb bb h (Cert.Mix.up w) d := by
  unfold Cert.Mix.bmix1; rw [if_neg h1, if_neg h2, if_neg h3]

/-! ## Regions 0 and 1: the moved projection at an index -/

theorem pay1_0_apply (x0 : Vec Ideal S1x56x56x384 .f32) (x1 : Vec Ideal S384x384 .bf16) (x2 : Vec Ideal S1x384 .f32)
    (h w : Fin 56) (d : Fin 384) :
    k0_pay1 (F := Ideal) x0 x1 x2 (ix3 h w d) = Cert.Mix.bmix0 x0 x1 x2 h w d := by
  have hd := d.isLt
  unfold k0_pay1
  by_cases h1 : d.val < 96
  · refine Eq.trans ?_ (bmix0_q0 x0 x1 x2 h w d h1).symm
    refine (cat4_0 _ _ _ _ h w d ⟨d.val, h1⟩ (Nat.zero_add _)).trans ?_
    refine (dnW_apply _ h w _).trans ?_
    refine (quarter_apply _ 0 _ h (Cert.Mix.dn w) ⟨d.val, h1⟩ d (Nat.zero_add _).symm).trans ?_
    exact pay1_apply x0 x1 x2 h (Cert.Mix.dn w) d
  · by_cases h2 : d.val < 192
    · refine Eq.trans ?_ (bmix0_q1 x0 x1 x2 h w d h1 h2).symm
      refine (cat4_1 _ _ _ _ h w d ⟨d.val - 96, by omega⟩ (by show 96 + (d.val - 96) = d.val; omega)).trans ?_
      refine (upW_apply _ h w _).trans ?_
      refine (quarter_apply _ 96 _ h (Cert.Mix.up w) ⟨d.val - 96, by omega⟩ d (by show d.val = 96 + (d.val - 96); omega)).trans ?_
      exact pay1_apply x0 x1 x2 h (Cert.Mix.up w) d
    · by_cases h3 : d.val < 288
      · refine Eq.trans ?_ (bmix0_q2 x0 x1 x2 h w d h1 h2 h3).symm
        refine (cat4_2 _ _ _ _ h w d ⟨d.val - 192, by omega⟩ (by show 192 + (d.val - 192) = d.val; omega)).trans ?_
        refine (dnH_apply _ h w _).trans ?_
        refine (quarter_apply _ 192 _ (Cert.Mix.dn h) w ⟨d.val - 192, by omega⟩ d (by show d.val = 192 + (d.val - 192); omega)).trans ?_
        exact pay1_apply x0 x1 x2 (Cert.Mix.dn h) w d
      · refine Eq.trans ?_ (bmix0_q3 x0 x1 x2 h w d h1 h2 h3).symm
        refine (cat4_3 _ _ _ _ h w d ⟨d.val - 288, by omega⟩ (by show 288 + (d.val - 288) = d.val; omega)).trans ?_
        refine (upH_apply _ h w _).trans ?_
        refine (quarter_apply _ 288 _ (Cert.Mix.up h) w ⟨d.val - 288, by omega⟩ d (by show d.val = 288 + (d.val - 288); omega)).trans ?_
        exact pay1_apply x0 x1 x2 (Cert.Mix.up h) w d

theorem pay1_1_apply (x0 : Vec Ideal S1x56x56x384 .f32) (x1 : Vec Ideal S384x384 .bf16) (x2 : Vec Ideal S1x384 .f32)
    (h w : Fin 56) (d : Fin 384) :
    k1_pay1 (F := Ideal) x0 x1 x2 (ix3 h w d) = Cert.Mix.bmix1 x0 x1 x2 h w d := by
  have hd := d.isLt
  unfold k1_pay1
  by_cases h1 : d.val < 96
  · refine Eq.trans ?_ (bmix1_q0 x0 x1 x2 h w d h1).symm
    refine (cat4_0 _ _ _ _ h w d ⟨d.val, h1⟩ (Nat.zero_add _)).trans ?_
    refine (dnH_apply _ h w _).trans ?_
    refine (quarter_apply _ 0 _ (Cert.Mix.dn h) w ⟨d.val, h1⟩ d (Nat.zero_add _).symm).trans ?_
    exact pay1_apply x0 x1 x2 (Cert.Mix.dn h) w d
  · by_cases h2 : d.val < 192
    · refine Eq.trans ?_ (bmix1_q1 x0 x1 x2 h w d h1 h2).symm
      refine (cat4_1 _ _ _ _ h w d ⟨d.val - 96, by omega⟩ (by show 96 + (d.val - 96) = d.val; omega)).trans ?_
      refine (upH_apply _ h w _).trans ?_
      refine (quarter_apply _ 96 _ (Cert.Mix.up h) w ⟨d.val - 96, by omega⟩ d (by show d.val = 96 + (d.val - 96); omega)).trans ?_
      exact pay1_apply x0 x1 x2 (Cert.Mix.up h) w d
    · by_cases h3 : d.val < 288
      · refine Eq.trans ?_ (bmix1_q2 x0 x1 x2 h w d h1 h2 h3).symm
        refine (cat4_2 _ _ _ _ h w d ⟨d.val - 192, by omega⟩ (by show 192 + (d.val - 192) = d.val; omega)).trans ?_
        refine (dnW_apply _ h w _).trans ?_
        refine (quarter_apply _ 192 _ h (Cert.Mix.dn w) ⟨d.val - 192, by omega⟩ d (by show d.val = 192 + (d.val - 192); omega)).trans ?_
        exact pay1_apply x0 x1 x2 h (Cert.Mix.dn w) d
      · refine Eq.trans ?_ (bmix1_q3 x0 x1 x2 h w d h1 h2 h3).symm
        refine (cat4_3 _ _ _ _ h w d ⟨d.val - 288, by omega⟩ (by show 288 + (d.val - 288) = d.val; omega)).trans ?_
        refine (upW_apply _ h w _).trans ?_
        refine (quarter_apply _ 288 _ h (Cert.Mix.up w) ⟨d.val - 288, by omega⟩ d (by show d.val = 288 + (d.val - 288); omega)).trans ?_
        exact pay1_apply x0 x1 x2 h (Cert.Mix.up w) d

theorem out0_3_apply (x0 : Vec Ideal S1x56x56x384 .f32) (x1 : Vec Ideal S384x384 .bf16) (x2 : Vec Ideal S1x384 .f32)
    (h w : Fin 56) (d : Fin 384) :
    out0_3 (F := Ideal) x0 x1 x2 (ix4 0 h w d) = Cert.Mix.bmix0 x0 x1 x2 h w d := by
  unfold out0_3
  rw [View.canon_unit_zero hz4]
  simp only [View.ld_unit_zero (S := S1x56x56x384) hz4, View.ld_unit_zero (S := S384x384) hz2, View.ld_unit_zero (S := S1x384) hz2]
  unfold k0_pay2
  refine (shapeCast_abc_1abc_apply _ _ 0 h w d).trans ?_
  refine (truncf_apply (ψ := .bf16) (φ := .f32) _ bitsLt_bf16_f32 _).trans ?_
  exact pay1_0_apply x0 x1 x2 h w d

theorem out0_4_apply (x0 : Vec Ideal S1x56x56x384 .f32) (x1 : Vec Ideal S384x384 .bf16) (x2 : Vec Ideal S1x384 .f32)
    (d : Fin 384) :
    out0_4 (F := Ideal) x0 x1 x2 (ix3 0 0 d) = ∑ w : Fin 56, ∑ h : Fin 56, Cert.Mix.bmix0 x0 x1 x2 h w d := by
  unfold out0_4
  rw [View.canon_unit_zero hz3]
  simp only [View.ld_unit_zero (S := S1x56x56x384) hz4, View.ld_unit_zero (S := S384x384) hz2, View.ld_unit_zero (S := S1x384) hz2]
  unfold k0_pay3
  refine (pool_apply _ d).trans ?_
  exact Finset.sum_congr rfl fun w _ => Finset.sum_congr rfl fun h _ => pay1_0_apply x0 x1 x2 h w d

theorem out1_3_apply (x0 : Vec Ideal S1x56x56x384 .f32) (x1 : Vec Ideal S384x384 .bf16) (x2 : Vec Ideal S1x384 .f32)
    (h w : Fin 56) (d : Fin 384) :
    out1_3 (F := Ideal) x0 x1 x2 (ix4 0 h w d) = Cert.Mix.bmix1 x0 x1 x2 h w d := by
  unfold out1_3
  rw [View.canon_unit_zero hz4]
  simp only [View.ld_unit_zero (S := S1x56x56x384) hz4, View.ld_unit_zero (S := S384x384) hz2, View.ld_unit_zero (S := S1x384) hz2]
  unfold k1_pay2
  refine (shapeCast_abc_1abc_apply _ _ 0 h w d).trans ?_
  refine (truncf_apply (ψ := .bf16) (φ := .f32) _ bitsLt_bf16_f32 _).trans ?_
  exact pay1_1_apply x0 x1 x2 h w d

theorem out1_4_apply (x0 : Vec Ideal S1x56x56x384 .f32) (x1 : Vec Ideal S384x384 .bf16) (x2 : Vec Ideal S1x384 .f32)
    (d : Fin 384) :
    out1_4 (F := Ideal) x0 x1 x2 (ix3 0 0 d) = ∑ w : Fin 56, ∑ h : Fin 56, Cert.Mix.bmix1 x0 x1 x2 h w d := by
  unfold out1_4
  rw [View.canon_unit_zero hz3]
  simp only [View.ld_unit_zero (S := S1x56x56x384) hz4, View.ld_unit_zero (S := S384x384) hz2, View.ld_unit_zero (S := S1x384) hz2]
  unfold k1_pay3
  refine (pool_apply _ d).trans ?_
  exact Finset.sum_congr rfl fun w _ => Finset.sum_congr rfl fun h _ => pay1_1_apply x0 x1 x2 h w d

/-! ## Region 3: the gated sum of three blocks, projected -/

/-- Row k of the [1, 3, 384] gates, cut out, flattened, laid out as [1, 1, 384] and broadcast over the pixels: at pixel
    (h, w) and channel d, gate (0, k, d). -/
theorem gate_apply (g : Vec Ideal S1x3x384 .f32) (o : Nat) (hs : S3x384.Slices ![o, 0] S1x384) (k : Fin 3) (hk : k.val = o)
    (h w : Fin 56) (d : Fin 384) :
    broadcastTo S56x56x384 (shapeCast S1x1x384 (shapeCast S384 (extractStridedSlice S1x384 ![o, 0]
        (shapeCast S3x384 g shapeCasts_S1x3x384_S3x384) hs) shapeCasts_S1x384_S384) shapeCasts_S384_S1x1x384)
        broadcasts_S1x1x384_S56x56x384 (ix3 h w d)
      = g (ix3 0 k d) := by
  refine (broadcastTo_apply _ _ (ix3 h w d) (ix3 (0 : Fin 1) (0 : Fin 1) d) (fun a => by
    match a with
    | ⟨0, _⟩ => rfl
    | ⟨1, _⟩ => rfl
    | ⟨2, _⟩ => rfl)).trans ?_
  refine (shapeCast_apply _ _ (ix3 (0 : Fin 1) (0 : Fin 1) d) (ix1 d) (by
    rw [Shape.rowMajor_val_one, Shape.rowMajor_val_three]
    show d.val = (0 * 1 + 0) * 384 + d.val
    omega)).trans ?_
  refine (shapeCast_1a_a_apply _ _ d).trans ?_
  refine (slice2_axis0_apply o _ hs (0 : Fin 1) d k (by show k.val = o + 0; omega)).trans ?_
  exact shapeCast_1ab_ab_apply g _ k d

theorem pay2_3_apply (g : Vec Ideal S1x3x384 .f32) (x0 x1 x2 : Vec Ideal S1x56x56x384 .bf16) (W : Vec Ideal S384x384 .bf16)
    (b : Vec Ideal S1x384 .f32) (h w : Fin 56) (e : Fin 384) :
    k3_pay2 (F := Ideal) g x0 x1 x2 W b (ix3 h w e)
      = (∑ d : Fin 384, ((x0 (ix4 0 h w d) * g (ix3 0 0 d) + x1 (ix4 0 h w d) * g (ix3 0 1 d))
          + x2 (ix4 0 h w d) * g (ix3 0 2 d)) * W (ix2 d e)) + b (ix2 0 e) := by
  unfold k3_pay2
  refine (cast_3136_apply _ _ h w e).trans ?_
  refine (addf_apply _ _ _).trans ?_
  refine congrArg₂ (· + ·) ?_ ?_
  · refine (mm_apply _ _ (pos h w) e).trans ?_
    refine Finset.sum_congr rfl fun d _ => ?_
    refine congrArg₂ (· * ·) ?_ ?_
    · refine (cast_56_apply _ _ h w d).trans ?_
      refine (truncf_apply (ψ := .bf16) (φ := .f32) _ bitsLt_bf16_f32 _).trans ?_
      refine (addf_apply _ _ _).trans ?_
      refine congrArg₂ (· + ·) ?_ ?_
      · refine (addf_apply _ _ _).trans ?_
        refine congrArg₂ (· + ·) ?_ ?_
        · refine (mulf_apply _ _ _).trans ?_
          refine congrArg₂ (· * ·) ?_ ?_
          · refine (extf_apply (ψ := .f32) (φ := .bf16) _ bitsLt_bf16_f32 _).trans ?_
            exact shapeCast_1abc_abc_apply x0 _ h w d
          · exact gate_apply g 0 _ 0 rfl h w d
        · refine (mulf_apply _ _ _).trans ?_
          refine congrArg₂ (· * ·) ?_ ?_
          · refine (extf_apply (ψ := .f32) (φ := .bf16) _ bitsLt_bf16_f32 _).trans ?_
            exact shapeCast_1abc_abc_apply x1 _ h w d
          · exact gate_apply g 1 _ 1 rfl h w d
      · refine (mulf_apply _ _ _).trans ?_
        refine congrArg₂ (· * ·) ?_ ?_
        · refine (extf_apply (ψ := .f32) (φ := .bf16) _ bitsLt_bf16_f32 _).trans ?_
          exact shapeCast_1abc_abc_apply x2 _ h w d
        · exact gate_apply g 2 _ 2 rfl h w d
    · exact congrFun (shapeCast_self W _) _
  · refine (broadcastTo_1b_ab_apply _ _ (pos h w) e).trans ?_
    exact congrFun (shapeCast_self b _) _

theorem out3_6_apply (x0 x1 x2 : Vec Ideal S1x56x56x384 .bf16) (x3 : Vec Ideal S1x3x384 .f32) (x4 : Vec Ideal S384x384 .bf16)
    (x5 : Vec Ideal S1x384 .f32) (h w : Fin 56) (e : Fin 384) :
    out3_6 (F := Ideal) x0 x1 x2 x3 x4 x5 (ix4 0 h w e)
      = (∑ d : Fin 384, ((x0 (ix4 0 h w d) * x3 (ix3 0 0 d) + x1 (ix4 0 h w d) * x3 (ix3 0 1 d))
          + x2 (ix4 0 h w d) * x3 (ix3 0 2 d)) * x4 (ix2 d e)) + x5 (ix2 0 e) := by
  unfold out3_6
  rw [View.canon_unit_zero hz4]
  simp only [View.ld_unit_zero (S := S1x56x56x384) hz4, View.ld_unit_zero (S := S384x384) hz2, View.ld_unit_zero (S := S1x384) hz2,
    View.ld_unit_zero (S := S1x3x384) hz3]
  unfold k3_pay1
  refine (shapeCast_abc_1abc_apply _ _ 0 h w e).trans ?_
  exact pay2_3_apply x3 x0 x1 x2 x4 x5 h w e

end Cert.KernelIdeal.Pay

end
-- ==== Proof.KernelAlgebra.lean ====
/-
  Three layout facts of the whole-batch program, read at an index.

  The 1152 projected channels are three groups of 384: channel d of group g is channel 384 g + d (`Mix.col g d`). A block of
  384 columns of the 384 × 1152 weights cut from column 384 g on is, at (c, d), the weights at (c, col g d); the matching 384
  entries of the bias, laid out as one row, are at (0, d) the bias at col g d. A [16, 1, 384] array viewed as [16, 384] reads,
  at (b, d), the array at (b, 0, d).
-/
import proofs.«106878_j9723805958798_1_alg».proof.Proof.Mix
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx

section Slices
variable {α : Type}

/-! ## A group's 384 columns of the weights -/

/-- Columns 384 g … 384 g + 383 of the weights: at (c, d), the weights at (c, col g d). The offset is written `384 * g.val`;
    the three lemmas after it are this one at the literal offsets 0, 384 and 768. -/
theorem wslice_apply (g : Fin 3) (Wt : (⟨2, ![384, 1152]⟩ : Shape).Idx → α)
    (h : (⟨2, ![384, 1152]⟩ : Shape).Slices ![0, 384 * g.val] ⟨2, ![384, 384]⟩) (c d : Fin 384) :
    extractStridedSlice ⟨2, ![384, 384]⟩ ![0, 384 * g.val] Wt h (ix2 c d) = Wt (ix2 c (Cert.Mix.col g d)) :=
  slice2_axis1_apply (384 * g.val) Wt h c d (Cert.Mix.col g d) rfl

theorem wslice0_apply (Wt : (⟨2, ![384, 1152]⟩ : Shape).Idx → α)
    (h : (⟨2, ![384, 1152]⟩ : Shape).Slices ![0, 0] ⟨2, ![384, 384]⟩) (c d : Fin 384) :
    extractStridedSlice ⟨2, ![384, 384]⟩ ![0, 0] Wt h (ix2 c d) = Wt (ix2 c (Cert.Mix.col 0 d)) :=
  slice2_axis1_apply 0 Wt h c d (Cert.Mix.col 0 d) (by show 384 * 0 + d.val = 0 + d.val; omega)

theorem wslice1_apply (Wt : (⟨2, ![384, 1152]⟩ : Shape).Idx → α)
    (h : (⟨2, ![384, 1152]⟩ : Shape).Slices ![0, 384] ⟨2, ![384, 384]⟩) (c d : Fin 384) :
    extractStridedSlice ⟨2, ![384, 384]⟩ ![0, 384] Wt h (ix2 c d) = Wt (ix2 c (Cert.Mix.col 1 d)) :=
  slice2_axis1_apply 384 Wt h c d (Cert.Mix.col 1 d) (by show 384 * 1 + d.val = 384 + d.val; omega)

theorem wslice2_apply (Wt : (⟨2, ![384, 1152]⟩ : Shape).Idx → α)
    (h : (⟨2, ![384, 1152]⟩ : Shape).Slices ![0, 768] ⟨2, ![384, 384]⟩) (c d : Fin 384) :
    extractStridedSlice ⟨2, ![384, 384]⟩ ![0, 768] Wt h (ix2 c d) = Wt (ix2 c (Cert.Mix.col 2 d)) :=
  slice2_axis1_apply 768 Wt h c d (Cert.Mix.col 2 d) (by show 384 * 2 + d.val = 768 + d.val; omega)

/-! ## A group's 384 entries of the bias, laid out as one row -/

/-- A vector cut from entry o on reads, at j, the operand at o + j. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- Entries 384 g … 384 g + 383 of the bias as a [1, 384] row: at (0, d), the bias at col g d. -/
theorem bslice_apply (g : Fin 3) (b1 : (⟨1, ![1152]⟩ : Shape).Idx → α)
    (h : (⟨1, ![1152]⟩ : Shape).Slices ![384 * g.val] ⟨1, ![384]⟩)
    (h' : (⟨1, ![384]⟩ : Shape).ShapeCasts ⟨2, ![1, 384]⟩) (d : Fin 384) :
    shapeCast ⟨2, ![1, 384]⟩ (extractStridedSlice ⟨1, ![384]⟩ ![384 * g.val] b1 h) h' (ix2 0 d) = b1 (ix1 (Cert.Mix.col g d)) :=
  (shapeCast_a_1a_apply _ h' 0 d).trans (slice1_apply (384 * g.val) b1 h d (Cert.Mix.col g d) rfl)

theorem bslice0_apply (b1 : (⟨1, ![1152]⟩ : Shape).Idx → α) (h : (⟨1, ![1152]⟩ : Shape).Slices ![0] ⟨1, ![384]⟩)
    (h' : (⟨1, ![384]⟩ : Shape).ShapeCasts ⟨2, ![1, 384]⟩) (d : Fin 384) :
    shapeCast ⟨2, ![1, 384]⟩ (extractStridedSlice ⟨1, ![384]⟩ ![0] b1 h) h' (ix2 0 d) = b1 (ix1 (Cert.Mix.col 0 d)) :=
  (shapeCast_a_1a_apply _ h' 0 d).trans
    (slice1_apply 0 b1 h d (Cert.Mix.col 0 d) (by show 384 * 0 + d.val = 0 + d.val; omega))

theorem bslice1_apply (b1 : (⟨1, ![1152]⟩ : Shape).Idx → α) (h : (⟨1, ![1152]⟩ : Shape).Slices ![384] ⟨1, ![384]⟩)
    (h' : (⟨1, ![384]⟩ : Shape).ShapeCasts ⟨2, ![1, 384]⟩) (d : Fin 384) :
    shapeCast ⟨2, ![1, 384]⟩ (extractStridedSlice ⟨1, ![384]⟩ ![384] b1 h) h' (ix2 0 d) = b1 (ix1 (Cert.Mix.col 1 d)) :=
  (shapeCast_a_1a_apply _ h' 0 d).trans
    (slice1_apply 384 b1 h d (Cert.Mix.col 1 d) (by show 384 * 1 + d.val = 384 + d.val; omega))

theorem bslice2_apply (b1 : (⟨1, ![1152]⟩ : Shape).Idx → α) (h : (⟨1, ![1152]⟩ : Shape).Slices ![768] ⟨1, ![384]⟩)
    (h' : (⟨1, ![384]⟩ : Shape).ShapeCasts ⟨2, ![1, 384]⟩) (d : Fin 384) :
    shapeCast ⟨2, ![1, 384]⟩ (extractStridedSlice ⟨1, ![384]⟩ ![768] b1 h) h' (ix2 0 d) = b1 (ix1 (Cert.Mix.col 2 d)) :=
  (shapeCast_a_1a_apply _ h' 0 d).trans
    (slice1_apply 768 b1 h d (Cert.Mix.col 2 d) (by show 384 * 2 + d.val = 768 + d.val; omega))

/-! ## A middle unit axis dropped -/

/-- A [16, 1, 384] array viewed as [16, 384] reads, at (b, d), the array at (b, 0, d). -/
theorem cast_16x1x384_apply (a : (⟨3, ![16, 1, 384]⟩ : Shape).Idx → α)
    (h : (⟨3, ![16, 1, 384]⟩ : Shape).ShapeCasts ⟨2, ![16, 384]⟩) (b : Fin 16) (d : Fin 384) :
    shapeCast ⟨2, ![16, 384]⟩ a h (ix2 b d) = a (ix3 b 0 d) :=
  shapeCast_apply a h _ _ (by
    rw [Shape.rowMajor_val_three, Shape.rowMajor_val_two]
    show (b.val * 1 + 0) * 384 + d.val = b.val * 384 + d.val
    omega)

end Slices

end Cert.KernelIdeal.Pay

end
-- ==== Proof.MixAlgebra.lean ====
/-
  Two regroupings of finite sums in a commutative additive monoid, and one in a commutative semiring-like setting where only
  commutativity of the product is used. The per-image program sums each group over the rows inside the columns and adds the
  three groups; the whole-batch program sums over the groups and the pixels at once. The per-image program weights the three
  groups one after the other; the whole-batch program sums the weighted groups over the group index.
-/
import Idealize.ShloMosaic.PureOps.Ideal

open scoped BigOperators

namespace Cert.Mix

/-- Three per-group sums (columns outside, rows inside) added in order are the sum over groups, rows and columns. -/
theorem pool_groups {M : Type*} [AddCommMonoid M] (f : Fin 3 → Fin 56 → Fin 56 → M) :
    ((∑ w : Fin 56, ∑ h : Fin 56, f 0 h w) + (∑ w : Fin 56, ∑ h : Fin 56, f 1 h w)) + (∑ w : Fin 56, ∑ h : Fin 56, f 2 h w)
      = ∑ k : Fin 3, ∑ h : Fin 56, ∑ w : Fin 56, f k h w := by
  rw [Fin.sum_univ_three, Finset.sum_comm (f := fun h w => f 0 h w), Finset.sum_comm (f := fun h w => f 1 h w),
    Finset.sum_comm (f := fun h w => f 2 h w)]

/-- The three groups weighted one after the other are the sum over the group index of weight times group. -/
theorem gated_groups (g v : Fin 3 → EReal) :
    (v 0 * g 0 + v 1 * g 1) + v 2 * g 2 = ∑ k : Fin 3, g k * v k := by
  rw [Fin.sum_univ_three, mul_comm (g 0), mul_comm (g 1), mul_comm (g 2)]

end Cert.Mix
-- ==== Proof.KernelMath.lean ====
/-
  The whole-batch program's two sums, regrouped into Mix's words.

  The program weights the three moved groups of one pixel one after the other by their gates, adds them, and projects the
  sum by W2 with its bias; Mix.result sums gate times group over the group index first. The two agree because the product
  of extended reals commutes. The program adds the three per-group pooled sums, each a sum over the columns of the sums over
  the rows; Mix.pool sums over the groups, the rows and the columns at once. The two agree because finite sums in a
  commutative monoid can be taken in any order.
-/
import proofs.«106878_j9723805958798_1_alg».proof.Proof.Mix
import proofs.«106878_j9723805958798_1_alg».proof.Proof.MixAlgebra
import proofs.«106878_j9723805958798_1_alg».proof.Proof.KernelAlgebra
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.Mix

/-- The gated sum of three arrays that hold the three moved groups, projected by a copy of W2 with a copy of its bias laid
    out as a row, is Mix.result. -/
theorem result_of_groups (x : Act) (W1 : Wide) (b1 : Bias3) (W2 : Sq) (b2 : Bias) (g : Gates) (Wb : Sq) (bb : Row)
    (X0 X1 X2 : Act)
    (hX0 : ∀ b h w d, X0 (ix4 b h w d) = mix0 x W1 b1 b h w d)
    (hX1 : ∀ b h w d, X1 (ix4 b h w d) = mix1 x W1 b1 b h w d)
    (hX2 : ∀ b h w d, X2 (ix4 b h w d) = mix2 x W1 b1 b h w d)
    (hW : ∀ d e, Wb (ix2 d e) = W2 (ix2 d e)) (hb : ∀ e, bb (ix2 0 e) = b2 (ix1 e))
    (b : Fin 16) (h w : Fin 56) (e : Fin 384) :
    (∑ d : Fin 384, ((X0 (ix4 b h w d) * g (ix3 b 0 d) + X1 (ix4 b h w d) * g (ix3 b 1 d))
        + X2 (ix4 b h w d) * g (ix3 b 2 d)) * Wb (ix2 d e)) + bb (ix2 0 e)
      = result x W1 b1 W2 b2 g (ix4 b h w e) := by
  show _ = (∑ d : Fin 384, (∑ k : Fin 3, g (ix3 b k d) * mixed x W1 b1 k b h w d) * W2 (ix2 d e)) + b2 (ix1 e)
  rw [hb e]
  refine congrArg (· + b2 (ix1 e)) (Finset.sum_congr rfl fun d _ => ?_)
  rw [hX0, hX1, hX2, hW]
  exact congrArg (· * W2 (ix2 d e)) (gated_groups (fun k => g (ix3 b k d)) (fun k => mixed x W1 b1 k b h w d))

/-- The three per-group pooled sums, each held as a [16, 1, 384] array, added in order and viewed as [16, 384], are
    Mix.pool. -/
theorem pool_of_groups (x : Act) (W1 : Wide) (b1 : Bias3) (s0 s1 s2 : FVec Ideal ⟨3, ![16, 1, 384]⟩ .f32)
    (hs0 : ∀ b d, s0 (ix3 b 0 d) = ∑ w : Fin 56, ∑ h : Fin 56, mix0 x W1 b1 b h w d)
    (hs1 : ∀ b d, s1 (ix3 b 0 d) = ∑ w : Fin 56, ∑ h : Fin 56, mix1 x W1 b1 b h w d)
    (hs2 : ∀ b d, s2 (ix3 b 0 d) = ∑ w : Fin 56, ∑ h : Fin 56, mix2 x W1 b1 b h w d)
    (hc : (⟨3, ![16, 1, 384]⟩ : Shape).ShapeCasts ⟨2, ![16, 384]⟩) :
    shapeCast ⟨2, ![16, 384]⟩ (addf (F := Ideal) (addf (F := Ideal) s0 s1) s2) hc = pool x W1 b1 := by
  funext i
  obtain ⟨b, d, rfl⟩ : ∃ (b : Fin 16) (d : Fin 384), i = ix2 b d := ⟨i 0, i 1, eq_ix2 i⟩
  refine (cast_16x1x384_apply _ hc b d).trans ?_
  show (s0 (ix3 b 0 d) + s1 (ix3 b 0 d)) + s2 (ix3 b 0 d)
    = ∑ k : Fin 3, ∑ h : Fin 56, ∑ w : Fin 56, mixed x W1 b1 k b h w d
  rw [hs0, hs1, hs2]
  exact pool_groups (fun k h w => mixed x W1 b1 k b h w d)

end Cert.KernelIdeal.Pay

end
-- ==== Proof.Gate.lean ====
/-
  The gating function: from the pooled sums a[b,d] (16 × 384) and the two gating weight matrices to one weight per image,
  group and channel (16 × 3 × 384).  u = a · Wg1;  the tanh form of GELU, u · (½ · (1 + tanh(c₁ · (u + c₀ · u³))));  times
  Wg2 and cut into the three groups;  then a softmax over the three groups: the exponentials of the entries less their
  maximum over the groups, divided by the sum of those exponentials over the groups.  Both programs compute exactly this
  chain of host operations; it is never opened, only applied to equal arguments.
-/
import proofs.«106878_j9723805958798_1_alg».proof.ReferenceIdeal
import proofs.«106878_j9723805958798_1_alg».proof.Proof.Gen.ReferenceIdeal
import Idealize.ShloMosaic.PureOps.Ideal

noncomputable section

namespace Cert.Mix

open Idealize.ShloMosaic Cert.ReferenceIdeal Cert.ReferenceIdeal.Gen

/-- The pooled sums through the first gating matrix. -/
def gateU (a : FVec Ideal S16x384 .f32) (Wg1 : FVec Ideal S384x384 .f32) : FVec Ideal S16x384 .f32 :=
  Host.dotGeneral (F := Ideal) dot_S16x384_S384x384_S16x384_1_0_0_1_n_n none a Wg1

/-- GELU (tanh form) of that, through the second gating matrix, cut into the three groups. -/
def gateV (u : FVec Ideal S16x384 .f32) (Wg2 : FVec Ideal S384x1152 .f32) : FVec Ideal S16x3x384 .f32 :=
  shapeCast _ (Host.dotGeneral (F := Ideal) dot_S16x384_S384x1152_S16x1152_1_0_0_1_n_n none (mulf u (mulf (broadcastInDim S16x384 ![] bcast_S_S16x384 (constant (F := Ideal) S_ .f32 0x3F000000#32)) (addf (broadcastInDim S16x384 ![] bcast_S_S16x384 (constant (F := Ideal) S_ .f32 0x3F800000#32)) (Host.tanh (F := Ideal) (mulf (broadcastInDim S16x384 ![] bcast_S_S16x384 (constant (F := Ideal) S_ .f32 0x3F4C422A#32)) (addf u (mulf (broadcastInDim S16x384 ![] bcast_S_S16x384 (constant (F := Ideal) S_ .f32 0x3D372713#32)) (mulf (mulf u u) u)))))))) Wg2) shapeCasts_S16x1152_S16x3x384

/-- The exponentials of the entries less their maximum over the three groups. -/
def gateE (v : FVec Ideal S16x3x384 .f32) : FVec Ideal S16x3x384 .f32 :=
  Host.exp (F := Ideal) (subf v (broadcastInDim S16x3x384 ![0, 1, 2] bcast_S16x1x384_S16x3x384_0_1_2 (broadcastInDim S16x1x384 ![0, 2] bcast_S16x384_S16x1x384_0_2 (maximumf (broadcastInDim S16x384 ![] bcast_S_S16x384 (constant (F := Ideal) S_ .f32 0xFF800000#32)) (Host.reduce (FloatOps.maximumf (F := Ideal)) v (constant (F := Ideal) S_ .f32 0xFF800000#32) reducesTo_S16x3x384_S16x384_d1 h_S_)))))

/-- The softmax weights: each exponential over the sum of the three. -/
def gateW (e : FVec Ideal S16x3x384 .f32) : FVec Ideal S16x3x384 .f32 :=
  Host.divf (F := Ideal) e (broadcastInDim S16x3x384 ![0, 1, 2] bcast_S16x1x384_S16x3x384_0_1_2 (broadcastInDim S16x1x384 ![0, 2] bcast_S16x384_S16x1x384_0_2 (Host.reduceAdd (F := Ideal) e (constant (F := Ideal) S_ .f32 0x00000000#32) reducesTo_S16x3x384_S16x384_d1 h_S_)))

/-- The whole gate. -/
def gate (a : FVec Ideal S16x384 .f32) (Wg1 : FVec Ideal S384x384 .f32) (Wg2 : FVec Ideal S384x1152 .f32) : FVec Ideal S16x3x384 .f32 :=
  gateW (gateE (gateV (gateU a Wg1) Wg2))

end Cert.Mix

end
-- ==== Proof.KernelValue.lean ====
/-
  The idealized kernel's result array as the specification's function of the argument arrays.

  Through the run's fold: the result array is what the combining region leaves; that region reads the three groups'
  arrays (what the three projection-and-shift regions left, untouched since), the gating weights (the last stretch of
  host operations applied to the three regions' per-image sums and the two gating matrices), and the second projection's
  rounded weights and bias row. Each group's array is the specification's shifted group (the body's result at an index,
  with the group's columns of the weights and entries of the bias cut out by the first stretches of host operations);
  the three per-image sums add up to the specification's pooled sums; so the gating weights are the gate of the pooled
  sums, and the combining body's result at an index is the specification's result.
-/
import proofs.«106878_j9723805958798_1_alg».proof.Proof.Fold
import proofs.«106878_j9723805958798_1_alg».proof.Proof.Blocks
import proofs.«106878_j9723805958798_1_alg».proof.Proof.ChunkValue
import proofs.«106878_j9723805958798_1_alg».proof.Proof.KernelAlgebra
import proofs.«106878_j9723805958798_1_alg».proof.Proof.KernelMath
import proofs.«106878_j9723805958798_1_alg».proof.Proof.Gate
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Blocks Cert.KernelIdeal.Fold Cert.KernelIdeal.Pay
open Idealize.ShloMosaic Idealize.ShloMosaic.TcCoe Idealize.SL.Sem Idealize.ShloMosaic.StableHlo Idealize.ShloMosaic.ValueIdx
open Cert.Mix

/-! ## The bodies' results over whole arrays are the specification's groups -/

theorem group0_at (x : Act) (W1 : Wide) (b1 : Bias3) (Wb : Sq) (bb : Row)
    (hw : ∀ c d, Wb (ix2 c d) = W1 (ix2 c (col 0 d))) (hb : ∀ d, bb (ix2 0 d) = b1 (ix1 (col 0 d)))
    (b : Fin 16) (h w : Fin 56) (d : Fin 384) : arr0_3 x Wb bb (ix4 b h w d) = mix0 x W1 b1 b h w d := by
  unfold arr0_3
  exact (out0_3_apply (blockOf x b) Wb bb h w d).trans (bmix0_eq x W1 b1 b (blockOf x b) Wb bb (fun _ _ _ => rfl) hw hb h w d)

theorem group1_at (x : Act) (W1 : Wide) (b1 : Bias3) (Wb : Sq) (bb : Row)
    (hw : ∀ c d, Wb (ix2 c d) = W1 (ix2 c (col 1 d))) (hb : ∀ d, bb (ix2 0 d) = b1 (ix1 (col 1 d)))
    (b : Fin 16) (h w : Fin 56) (d : Fin 384) : arr1_3 x Wb bb (ix4 b h w d) = mix1 x W1 b1 b h w d := by
  unfold arr1_3
  exact (out1_3_apply (blockOf x b) Wb bb h w d).trans (bmix1_eq x W1 b1 b (blockOf x b) Wb bb (fun _ _ _ => rfl) hw hb h w d)

theorem group2_at (x : Act) (W1 : Wide) (b1 : Bias3) (Wb : Sq) (bb : Row)
    (hw : ∀ c d, Wb (ix2 c d) = W1 (ix2 c (col 2 d))) (hb : ∀ d, bb (ix2 0 d) = b1 (ix1 (col 2 d)))
    (b : Fin 16) (h w : Fin 56) (d : Fin 384) : arr2_3 x Wb bb (ix4 b h w d) = mix2 x W1 b1 b h w d := by
  unfold arr2_3
  exact (out2_3_apply (blockOf x b) Wb bb h w d).trans (bmix2_eq x W1 b1 b (blockOf x b) Wb bb (fun _ _ _ => rfl) hw hb h w d)

theorem sums0_at (x : Act) (W1 : Wide) (b1 : Bias3) (Wb : Sq) (bb : Row)
    (hw : ∀ c d, Wb (ix2 c d) = W1 (ix2 c (col 0 d))) (hb : ∀ d, bb (ix2 0 d) = b1 (ix1 (col 0 d)))
    (b : Fin 16) (d : Fin 384) : arr0_4 x Wb bb (ix3 b 0 d) = ∑ w : Fin 56, ∑ h : Fin 56, mix0 x W1 b1 b h w d := by
  unfold arr0_4
  refine (out0_4_apply (blockOf x b) Wb bb d).trans ?_
  exact Finset.sum_congr rfl fun w _ => Finset.sum_congr rfl fun h _ =>
    bmix0_eq x W1 b1 b (blockOf x b) Wb bb (fun _ _ _ => rfl) hw hb h w d

theorem sums1_at (x : Act) (W1 : Wide) (b1 : Bias3) (Wb : Sq) (bb : Row)
    (hw : ∀ c d, Wb (ix2 c d) = W1 (ix2 c (col 1 d))) (hb : ∀ d, bb (ix2 0 d) = b1 (ix1 (col 1 d)))
    (b : Fin 16) (d : Fin 384) : arr1_4 x Wb bb (ix3 b 0 d) = ∑ w : Fin 56, ∑ h : Fin 56, mix1 x W1 b1 b h w d := by
  unfold arr1_4
  refine (out1_4_apply (blockOf x b) Wb bb d).trans ?_
  exact Finset.sum_congr rfl fun w _ => Finset.sum_congr rfl fun h _ =>
    bmix1_eq x W1 b1 b (blockOf x b) Wb bb (fun _ _ _ => rfl) hw hb h w d

theorem sums2_at (x : Act) (W1 : Wide) (b1 : Bias3) (Wb : Sq) (bb : Row)
    (hw : ∀ c d, Wb (ix2 c d) = W1 (ix2 c (col 2 d))) (hb : ∀ d, bb (ix2 0 d) = b1 (ix1 (col 2 d)))
    (b : Fin 16) (d : Fin 384) : arr2_4 x Wb bb (ix3 b 0 d) = ∑ w : Fin 56, ∑ h : Fin 56, mix2 x W1 b1 b h w d := by
  unfold arr2_4
  refine (out2_4_apply (blockOf x b) Wb bb d).trans ?_
  exact Finset.sum_congr rfl fun w _ => Finset.sum_congr rfl fun h _ =>
    bmix2_eq x W1 b1 b (blockOf x b) Wb bb (fun _ _ _ => rfl) hw hb h w d

/-! ## The argument arrays, and what the regions find -/

variable (m : (ℓ : Loc nD τ sig) → Buf (Elt Ideal) ℓ) (ρ : Dev nD → PrngReg)

abbrev aX (c : Dev nD) : Act := m ((c : Thread nD τ).loc main_arg0)
abbrev aW1 (c : Dev nD) : Wide := m ((c : Thread nD τ).loc main_arg1)
abbrev aB1 (c : Dev nD) : Bias3 := m ((c : Thread nD τ).loc main_arg2)
abbrev aW2 (c : Dev nD) : Sq := m ((c : Thread nD τ).loc main_arg5)
abbrev aB2 (c : Dev nD) : Bias := m ((c : Thread nD τ).loc main_arg6)

theorem w0_at (c : Dev nD) (k d : Fin 384) : (V1 m ρ c main_v3 : Sq) (ix2 k d) = aW1 m c (ix2 k (col 0 d)) :=
  (congrFun (W1_v3 m ρ c) (ix2 k d)).trans (wslice0_apply _ _ k d)
theorem w1_at (c : Dev nD) (k d : Fin 384) : (V3 m ρ c main_v7 : Sq) (ix2 k d) = aW1 m c (ix2 k (col 1 d)) :=
  (congrFun (W3_v7 m ρ c) (ix2 k d)).trans ((wslice1_apply _ _ k d).trans (congrFun ((W2_v0 m ρ c).trans (W1_v0 m ρ c)) _))
theorem w2_at (c : Dev nD) (k d : Fin 384) : (V5 m ρ c main_v11 : Sq) (ix2 k d) = aW1 m c (ix2 k (col 2 d)) :=
  (congrFun (W5_v11 m ρ c) (ix2 k d)).trans ((wslice2_apply _ _ k d).trans (congrFun ((W4_v0 m ρ c).trans (W1_v0 m ρ c)) _))

theorem b0_at (c : Dev nD) (d : Fin 384) : (V1 m ρ c main_v5 : Row) (ix2 0 d) = aB1 m c (ix1 (col 0 d)) :=
  (congrFun (W1_v5 m ρ c) (ix2 0 d)).trans (bslice0_apply _ _ _ d)
theorem b1_at (c : Dev nD) (d : Fin 384) : (V3 m ρ c main_v9 : Row) (ix2 0 d) = aB1 m c (ix1 (col 1 d)) :=
  (congrFun (W3_v9 m ρ c) (ix2 0 d)).trans ((bslice1_apply _ _ _ d).trans (congrFun (W2_arg2 m ρ c) _))
theorem b2_at (c : Dev nD) (d : Fin 384) : (V5 m ρ c main_v13 : Row) (ix2 0 d) = aB1 m c (ix1 (col 2 d)) :=
  (congrFun (W5_v13 m ρ c) (ix2 0 d)).trans ((bslice2_apply _ _ _ d).trans (congrFun (W4_arg2 m ρ c) _))

/-! ## The three groups' arrays and their per-image sums, as the regions leave them -/

theorem X0_at (c : Dev nD) (b : Fin 16) (h w : Fin 56) (d : Fin 384) :
    (W2 m ρ c (Proc.devRef .tc main_v6_0) : Act) (ix4 b h w d) = mix0 (aX m c) (aW1 m c) (aB1 m c) b h w d := by
  have e : W2 m ρ c (Proc.devRef .tc main_v6_0) = arr0_3 (V1 m ρ c main_arg0) (V1 m ρ c main_v3) (V1 m ρ c main_v5) :=
    (W2_arr m ρ c 3).trans (final0_3 (V1 m ρ) c)
  refine (congrFun e (ix4 b h w d)).trans ?_
  rw [show V1 m ρ c main_arg0 = aX m c from W1_arg0 m ρ c]
  exact group0_at (aX m c) (aW1 m c) (aB1 m c) _ _ (w0_at m ρ c) (b0_at m ρ c) b h w d

theorem X1_at (c : Dev nD) (b : Fin 16) (h w : Fin 56) (d : Fin 384) :
    (W4 m ρ c (Proc.devRef .tc main_v10_0) : Act) (ix4 b h w d) = mix1 (aX m c) (aW1 m c) (aB1 m c) b h w d := by
  have e : W4 m ρ c (Proc.devRef .tc main_v10_0) = arr1_3 (V3 m ρ c main_arg0) (V3 m ρ c main_v7) (V3 m ρ c main_v9) :=
    (W4_arr m ρ c 3).trans (final1_3 (V3 m ρ) c)
  refine (congrFun e (ix4 b h w d)).trans ?_
  rw [show V3 m ρ c main_arg0 = aX m c from W3_arg0 m ρ c]
  exact group1_at (aX m c) (aW1 m c) (aB1 m c) _ _ (w1_at m ρ c) (b1_at m ρ c) b h w d

theorem X2_at (c : Dev nD) (b : Fin 16) (h w : Fin 56) (d : Fin 384) :
    (W6 m ρ c (Proc.devRef .tc main_v14_0) : Act) (ix4 b h w d) = mix2 (aX m c) (aW1 m c) (aB1 m c) b h w d := by
  have e : W6 m ρ c (Proc.devRef .tc main_v14_0) = arr2_3 (V5 m ρ c main_arg0) (V5 m ρ c main_v11) (V5 m ρ c main_v13) :=
    (W6_arr m ρ c 3).trans (final2_3 (V5 m ρ) c)
  refine (congrFun e (ix4 b h w d)).trans ?_
  rw [show V5 m ρ c main_arg0 = aX m c from W5_arg0 m ρ c]
  exact group2_at (aX m c) (aW1 m c) (aB1 m c) _ _ (w2_at m ρ c) (b2_at m ρ c) b h w d

theorem S0_at (c : Dev nD) (b : Fin 16) (d : Fin 384) :
    (W2 m ρ c (Proc.devRef .tc main_v6_1) : S16x1x384.Idx → EReal) (ix3 b 0 d) = ∑ w : Fin 56, ∑ h : Fin 56, mix0 (aX m c) (aW1 m c) (aB1 m c) b h w d := by
  have e : W2 m ρ c (Proc.devRef .tc main_v6_1) = arr0_4 (V1 m ρ c main_arg0) (V1 m ρ c main_v3) (V1 m ρ c main_v5) :=
    (W2_arr m ρ c 4).trans (final0_4 (V1 m ρ) c)
  refine (congrFun e (ix3 b 0 d)).trans ?_
  rw [show V1 m ρ c main_arg0 = aX m c from W1_arg0 m ρ c]
  exact sums0_at (aX m c) (aW1 m c) (aB1 m c) _ _ (w0_at m ρ c) (b0_at m ρ c) b d

theorem S1_at (c : Dev nD) (b : Fin 16) (d : Fin 384) :
    (W4 m ρ c (Proc.devRef .tc main_v10_1) : S16x1x384.Idx → EReal) (ix3 b 0 d) = ∑ w : Fin 56, ∑ h : Fin 56, mix1 (aX m c) (aW1 m c) (aB1 m c) b h w d := by
  have e : W4 m ρ c (Proc.devRef .tc main_v10_1) = arr1_4 (V3 m ρ c main_arg0) (V3 m ρ c main_v7) (V3 m ρ c main_v9) :=
    (W4_arr m ρ c 4).trans (final1_4 (V3 m ρ) c)
  refine (congrFun e (ix3 b 0 d)).trans ?_
  rw [show V3 m ρ c main_arg0 = aX m c from W3_arg0 m ρ c]
  exact sums1_at (aX m c) (aW1 m c) (aB1 m c) _ _ (w1_at m ρ c) (b1_at m ρ c) b d

theorem S2_at (c : Dev nD) (b : Fin 16) (d : Fin 384) :
    (W6 m ρ c (Proc.devRef .tc main_v14_1) : S16x1x384.Idx → EReal) (ix3 b 0 d) = ∑ w : Fin 56, ∑ h : Fin 56, mix2 (aX m c) (aW1 m c) (aB1 m c) b h w d := by
  have e : W6 m ρ c (Proc.devRef .tc main_v14_1) = arr2_4 (V5 m ρ c main_arg0) (V5 m ρ c main_v11) (V5 m ρ c main_v13) :=
    (W6_arr m ρ c 4).trans (final2_4 (V5 m ρ) c)
  refine (congrFun e (ix3 b 0 d)).trans ?_
  rw [show V5 m ρ c main_arg0 = aX m c from W5_arg0 m ρ c]
  exact sums2_at (aX m c) (aW1 m c) (aB1 m c) _ _ (w2_at m ρ c) (b2_at m ρ c) b d

/-! ## The gating weights -/

set_option maxHeartbeats 4000000 in
/-- The last stretch of host operations applies the gate to the three per-image sums added and laid out as 16 × 384. -/
theorem v44_eq (c : Dev nD) : W7 m ρ c (Proc.devRef .tc main_v44)
    = Cert.Mix.gate (shapeCast S16x384 (addf (F := Ideal) (φ := .f32) (addf (F := Ideal) (φ := .f32) (W6 m ρ c (Proc.devRef .tc main_v6_1) : FVec Ideal S16x1x384 .f32) (W6 m ρ c (Proc.devRef .tc main_v10_1) : FVec Ideal S16x1x384 .f32)) (W6 m ρ c (Proc.devRef .tc main_v14_1) : FVec Ideal S16x1x384 .f32)) shapeCasts_S16x1x384_S16x384)
        (W6 m ρ c (Proc.devRef .tc main_arg3)) (W6 m ρ c (Proc.devRef .tc main_arg4)) := by
  show StableHlo.after hostOps3 (W6 m ρ c) (Proc.devRef .tc main_v44) = _
  after_results_simp <;> rfl

/-- The three per-image sums added are the pooled sums. -/
theorem pooled (c : Dev nD) :
    shapeCast S16x384 (addf (F := Ideal) (φ := .f32) (addf (F := Ideal) (φ := .f32) (W6 m ρ c (Proc.devRef .tc main_v6_1) : FVec Ideal S16x1x384 .f32) (W6 m ρ c (Proc.devRef .tc main_v10_1) : FVec Ideal S16x1x384 .f32)) (W6 m ρ c (Proc.devRef .tc main_v14_1) : FVec Ideal S16x1x384 .f32)) shapeCasts_S16x1x384_S16x384
      = pool (aX m c) (aW1 m c) (aB1 m c) :=
  pool_of_groups (aX m c) (aW1 m c) (aB1 m c) _ _ _
    (fun b d => (congrFun (W6_v6_1 m ρ c) _).trans (S0_at m ρ c b d))
    (fun b d => (congrFun (W6_v10_1 m ρ c) _).trans (S1_at m ρ c b d))
    (fun b d => S2_at m ρ c b d) shapeCasts_S16x1x384_S16x384

/-- So the gating weights the combining region finds are the gate of the pooled sums. -/
theorem gates (c : Dev nD) : V7 m ρ c main_v44
    = Cert.Mix.gate (pool (aX m c) (aW1 m c) (aB1 m c)) (m ((c : Thread nD τ).loc main_arg3)) (m ((c : Thread nD τ).loc main_arg4)) := by
  show W7 m ρ c (Proc.devRef .tc main_v44) = _
  rw [v44_eq m ρ c, pooled m ρ c, W6_arg3 m ρ c, W6_arg4 m ρ c]

/-! ## The result -/

theorem value_of (c : Dev nD) (g : Gates) (hg : V7 m ρ c main_v44 = g) :
    W8 m ρ c (Proc.devRef .tc main_v45) = result (aX m c) (aW1 m c) (aB1 m c) (aW2 m c) (aB2 m c) g := by
  subst hg
  have e : W8 m ρ c (Proc.devRef .tc main_v45) = arr3_6 (V7 m ρ c main_v6_0) (V7 m ρ c main_v10_0) (V7 m ρ c main_v14_0) (V7 m ρ c main_v44) (V7 m ρ c main_v1) (V7 m ρ c main_v2) :=
    (W8_arr m ρ c 6).trans (final3_6 (V7 m ρ) c)
  rw [e]
  funext i
  obtain ⟨b, h, w, e', rfl⟩ : ∃ (b : Fin 16) (h w : Fin 56) (e' : Fin 384), i = ix4 b h w e' := ⟨i 0, i 1, i 2, i 3, eq_ix4 i⟩
  unfold arr3_6
  refine (out3_6_apply _ _ _ _ _ _ h w e').trans ?_
  exact result_of_groups (aX m c) (aW1 m c) (aB1 m c) (aW2 m c) (aB2 m c) (V7 m ρ c main_v44) (V7 m ρ c main_v1) (V7 m ρ c main_v2)
    (V7 m ρ c main_v6_0) (V7 m ρ c main_v10_0) (V7 m ρ c main_v14_0)
    (fun b h w d => (congrFun (W7_v6_0 m ρ c) _).trans (X0_at m ρ c b h w d))
    (fun b h w d => (congrFun (W7_v10_0 m ρ c) _).trans (X1_at m ρ c b h w d))
    (fun b h w d => (congrFun (W7_v14_0 m ρ c) _).trans (X2_at m ρ c b h w d))
    (fun d e => congrFun ((W7_v1 m ρ c).trans (W1_v1 m ρ c)) _)
    (fun e => (congrFun ((W7_v2 m ρ c).trans (W1_v2 m ρ c)) (ix2 0 e)).trans (shapeCast_a_1a_apply _ _ 0 e))
    b h w e'

/-- The idealized kernel's result array is the specification's result of the argument arrays. -/
theorem value (c : Dev nD) : W8 m ρ c (Proc.devRef .tc main_v45)
    = result (aX m c) (aW1 m c) (aB1 m c) (aW2 m c) (aB2 m c)
        (Cert.Mix.gate (pool (aX m c) (aW1 m c) (aB1 m c)) (m ((c : Thread nD τ).loc main_arg3)) (m ((c : Thread nD τ).loc main_arg4))) :=
  value_of m ρ c _ (gates m ρ c)

end Cert.KernelIdeal.KValue

end
-- ==== Proof.RefLemmas.lean ====
/-
  The reference side, read index by index.  Each lemma reads one of the reference's array operations (a projection, a
  bias laid over the pixels, a slice, a concatenation, a merge of axes, a sum over axes) at one index, over coordinates
  of literal extents.  Put together: the projected activations are `Mix.pre`; the three groups, two of them moved by one
  pixel with the border repeated, stacked, are `Mix.mixed`; their sum over groups and pixels is `Mix.pool`; and the
  gated sum projected by the second matrix is `Mix.result`.
-/
import proofs.«106878_j9723805958798_1_alg».proof.Proof.Gen.ReferenceIdeal
import proofs.«106878_j9723805958798_1_alg».proof.Proof.Mix
import Idealize.ShloMosaic.Lib.ValueIdx
import Idealize.ShloMosaic.Lib.Pipeline.Value
import Idealize.ShloMosaic.PureOps.Ideal.Laws

noncomputable section

open scoped BigOperators

namespace Cert.ReferenceIdeal.RefLemmas

open Idealize.ShloMosaic Idealize.ShloMosaic.ValueIdx Cert.ReferenceIdeal Cert.ReferenceIdeal.Gen
open Cert.Mix (dn up dn_val up_val col)

/-! ## The two projections read at an index -/

/-- The first projection read at one pixel and channel: the sum over the input channels. -/
theorem dot1_apply (x : FVec Ideal S16x56x56x384 .f32) (W : FVec Ideal S384x1152 .f32)
    (b : Fin 16) (h w : Fin 56) (j : Fin 1152) :
    Host.dotGeneral (F := Ideal) dot_S16x56x56x384_S384x1152_S16x56x56x1152_3_0_012_1_n_n none x W (ix4 b h w j)
      = ∑ c : Fin 384, x (ix4 b h w c) * W (ix2 c j) := by
  show FloatOps.dotGeneral _ none _ x W (ix4 b h w j) = _
  rw [Ideal.dotGeneral_apply,
    ← Equiv.sum_comp (contrEquiv1 dot_S16x56x56x384_S384x1152_S16x56x56x1152_3_0_012_1_n_n 384 rfl rfl).symm]
  refine Finset.sum_congr rfl fun c _ => ?_
  have c3 := contrEquiv1_symm_val dot_S16x56x56x384_S384x1152_S16x56x56x1152_3_0_012_1_n_n 384 rfl rfl c
  have l3 : dot_S16x56x56x384_S384x1152_S16x56x56x1152_3_0_012_1_n_n.lhsIdx (ix4 b h w j)
      ((contrEquiv1 _ 384 rfl rfl).symm c) = ix4 b h w c := by
    funext ax; apply Fin.ext
    match ax with
    | ⟨0, _⟩ => simp [DotDims.lhsIdx, dot_S16x56x56x384_S384x1152_S16x56x56x1152_3_0_012_1_n_n]; rfl
    | ⟨1, _⟩ => simp [DotDims.lhsIdx, dot_S16x56x56x384_S384x1152_S16x56x56x1152_3_0_012_1_n_n]; rfl
    | ⟨2, _⟩ => simp [DotDims.lhsIdx, dot_S16x56x56x384_S384x1152_S16x56x56x1152_3_0_012_1_n_n]; rfl
    | ⟨3, _⟩ => simp [DotDims.lhsIdx, dot_S16x56x56x384_S384x1152_S16x56x56x1152_3_0_012_1_n_n]; exact c3
  have r3 : dot_S16x56x56x384_S384x1152_S16x56x56x1152_3_0_012_1_n_n.rhsIdx (ix4 b h w j)
      ((contrEquiv1 _ 384 rfl rfl).symm c) = ix2 c j := by
    funext ax; apply Fin.ext
    match ax with
    | ⟨0, _⟩ => simp [DotDims.rhsIdx, dot_S16x56x56x384_S384x1152_S16x56x56x1152_3_0_012_1_n_n]; exact c3
    | ⟨1, _⟩ => simp [DotDims.rhsIdx, dot_S16x56x56x384_S384x1152_S16x56x56x1152_3_0_012_1_n_n]; rfl
  rw [l3, r3]

/-- The second projection read at one pixel and channel. -/
theorem dot2_apply (x : FVec Ideal S16x56x56x384 .f32) (W : FVec Ideal S384x384 .f32)
    (b : Fin 16) (h w : Fin 56) (j : Fin 384) :
    Host.dotGeneral (F := Ideal) dot_S16x56x56x384_S384x384_S16x56x56x384_3_0_012_1_n_n none x W (ix4 b h w j)
      = ∑ c : Fin 384, x (ix4 b h w c) * W (ix2 c j) := by
  show FloatOps.dotGeneral _ none _ x W (ix4 b h w j) = _
  rw [Ideal.dotGeneral_apply,
    ← Equiv.sum_comp (contrEquiv1 dot_S16x56x56x384_S384x384_S16x56x56x384_3_0_012_1_n_n 384 rfl rfl).symm]
  refine Finset.sum_congr rfl fun c _ => ?_
  have c3 := contrEquiv1_symm_val dot_S16x56x56x384_S384x384_S16x56x56x384_3_0_012_1_n_n 384 rfl rfl c
  have l3 : dot_S16x56x56x384_S384x384_S16x56x56x384_3_0_012_1_n_n.lhsIdx (ix4 b h w j)
      ((contrEquiv1 _ 384 rfl rfl).symm c) = ix4 b h w c := by
    funext ax; apply Fin.ext
    match ax with
    | ⟨0, _⟩ => simp [DotDims.lhsIdx, dot_S16x56x56x384_S384x384_S16x56x56x384_3_0_012_1_n_n]; rfl
    | ⟨1, _⟩ => simp [DotDims.lhsIdx, dot_S16x56x56x384_S384x384_S16x56x56x384_3_0_012_1_n_n]; rfl
    | ⟨2, _⟩ => simp [DotDims.lhsIdx, dot_S16x56x56x384_S384x384_S16x56x56x384_3_0_012_1_n_n]; rfl
    | ⟨3, _⟩ => simp [DotDims.lhsIdx, dot_S16x56x56x384_S384x384_S16x56x56x384_3_0_012_1_n_n]; exact c3
  have r3 : dot_S16x56x56x384_S384x384_S16x56x56x384_3_0_012_1_n_n.rhsIdx (ix4 b h w j)
      ((contrEquiv1 _ 384 rfl rfl).symm c) = ix2 c j := by
    funext ax; apply Fin.ext
    match ax with
    | ⟨0, _⟩ => simp [DotDims.rhsIdx, dot_S16x56x56x384_S384x384_S16x56x56x384_3_0_012_1_n_n]; exact c3
    | ⟨1, _⟩ => simp [DotDims.rhsIdx, dot_S16x56x56x384_S384x384_S16x56x56x384_3_0_012_1_n_n]; rfl
  rw [l3, r3]

/-- The first bias, laid along the channel axis and repeated over every pixel, reads its entry. -/
theorem bias1_apply (b1 : FVec Ideal S1152 .f32) (b : Fin 16) (h w : Fin 56) (j : Fin 1152) :
    broadcastInDim S16x56x56x1152 ![0, 1, 2, 3] bcast_S1x1x1x1152_S16x56x56x1152_0_1_2_3
      (broadcastInDim S1x1x1x1152 ![3] bcast_S1152_S1x1x1x1152_3 b1) (ix4 b h w j) = b1 (ix1 j) := by
  refine (broadcastInDim_apply _ _ _ (ix4 b h w j) (ix4 (0 : Fin 1) (0 : Fin 1) (0 : Fin 1) j) fun a => ?_).trans ?_
  · match a with
    | ⟨0, _⟩ => rfl
    | ⟨1, _⟩ => rfl
    | ⟨2, _⟩ => rfl
    | ⟨3, _⟩ => rfl
  · refine broadcastInDim_apply _ _ _ _ (ix1 j) fun a => ?_
    match a with
    | ⟨0, _⟩ => rfl

/-- The second bias likewise. -/
theorem bias2_apply (b2 : FVec Ideal S384 .f32) (b : Fin 16) (h w : Fin 56) (j : Fin 384) :
    broadcastInDim S16x56x56x384 ![0, 1, 2, 3] bcast_S1x1x1x384_S16x56x56x384_0_1_2_3
      (broadcastInDim S1x1x1x384 ![3] bcast_S384_S1x1x1x384_3 b2) (ix4 b h w j) = b2 (ix1 j) := by
  refine (broadcastInDim_apply _ _ _ (ix4 b h w j) (ix4 (0 : Fin 1) (0 : Fin 1) (0 : Fin 1) j) fun a => ?_).trans ?_
  · match a with
    | ⟨0, _⟩ => rfl
    | ⟨1, _⟩ => rfl
    | ⟨2, _⟩ => rfl
    | ⟨3, _⟩ => rfl
  · refine broadcastInDim_apply _ _ _ _ (ix1 j) fun a => ?_
    match a with
    | ⟨0, _⟩ => rfl

/-- The projected activations: the first projection plus its bias is `Mix.pre`. -/
theorem pre_apply (x : FVec Ideal S16x56x56x384 .f32) (W : FVec Ideal S384x1152 .f32) (b1 : FVec Ideal S1152 .f32)
    (b : Fin 16) (h w : Fin 56) (j : Fin 1152) :
    addf (Host.dotGeneral (F := Ideal) dot_S16x56x56x384_S384x1152_S16x56x56x1152_3_0_012_1_n_n none x W)
      (broadcastInDim S16x56x56x1152 ![0, 1, 2, 3] bcast_S1x1x1x1152_S16x56x56x1152_0_1_2_3
        (broadcastInDim S1x1x1x1152 ![3] bcast_S1152_S1x1x1x1152_3 b1)) (ix4 b h w j)
      = Cert.Mix.pre x W b1 b h w j := by
  show Host.dotGeneral (F := Ideal) dot_S16x56x56x384_S384x1152_S16x56x56x1152_3_0_012_1_n_n none x W (ix4 b h w j)
      + broadcastInDim S16x56x56x1152 ![0, 1, 2, 3] bcast_S1x1x1x1152_S16x56x56x1152_0_1_2_3
        (broadcastInDim S1x1x1x1152 ![3] bcast_S1152_S1x1x1x1152_3 b1) (ix4 b h w j) = _
  rw [dot1_apply, bias1_apply]
  rfl

/-! ## Slices, the one-pixel shifts, the quarters and the groups -/

/-- A unit-stride slice of a rank-4 array at an index: the operand at the index moved by the offsets. -/
theorem slice4_apply {n0 n1 n2 n3 m0 m1 m2 m3 : Nat} (o : Fin 4 → Nat)
    (x : (⟨4, ![n0, n1, n2, n3]⟩ : Shape).Idx → EReal)
    (hs : (⟨4, ![n0, n1, n2, n3]⟩ : Shape).Slices o ⟨4, ![m0, m1, m2, m3]⟩)
    (a : Fin m0) (b : Fin m1) (c : Fin m2) (d : Fin m3) (k0 : Fin n0) (k1 : Fin n1) (k2 : Fin n2) (k3 : Fin n3)
    (e0 : k0.val = o 0 + a.val) (e1 : k1.val = o 1 + b.val) (e2 : k2.val = o 2 + c.val) (e3 : k3.val = o 3 + d.val) :
    extractStridedSlice (⟨4, ![m0, m1, m2, m3]⟩ : Shape) o x hs (ix4 a b c d) = x (ix4 k0 k1 k2 k3) := by
  refine extractStridedSlice_apply o x hs (ix4 a b c d) (ix4 k0 k1 k2 k3) fun ax => ?_
  match ax with
  | ⟨0, _⟩ => exact e0
  | ⟨1, _⟩ => exact e1
  | ⟨2, _⟩ => exact e2
  | ⟨3, _⟩ => exact e3

/-- One pixel to the right along the width, the first column repeated. -/
def shR (q : FVec Ideal S16x56x56x96 .f32) : FVec Ideal S16x56x56x96 .f32 :=
  concatenate S16x56x56x96 2 [⟨S16x56x1x96, (extractStridedSlice S16x56x1x96 ![0, 0, 0, 0] q slices_S16x56x56x96_S16x56x1x96_0_0_0_0)⟩, ⟨S16x56x55x96, (extractStridedSlice S16x56x55x96 ![0, 0, 0, 0] q slices_S16x56x56x96_S16x56x55x96_0_0_0_0)⟩] concatenates_S16x56x1x96_S16x56x55x96_S16x56x56x96_d2
/-- One pixel to the left along the width, the last column repeated. -/
def shL (q : FVec Ideal S16x56x56x96 .f32) : FVec Ideal S16x56x56x96 .f32 :=
  concatenate S16x56x56x96 2 [⟨S16x56x55x96, (extractStridedSlice S16x56x55x96 ![0, 0, 1, 0] q slices_S16x56x56x96_S16x56x55x96_0_0_1_0)⟩, ⟨S16x56x1x96, (extractStridedSlice S16x56x1x96 ![0, 0, 55, 0] q slices_S16x56x56x96_S16x56x1x96_0_0_55_0)⟩] concatenates_S16x56x55x96_S16x56x1x96_S16x56x56x96_d2
/-- One pixel down along the height, the first row repeated. -/
def shD (q : FVec Ideal S16x56x56x96 .f32) : FVec Ideal S16x56x56x96 .f32 :=
  concatenate S16x56x56x96 1 [⟨S16x1x56x96, (extractStridedSlice S16x1x56x96 ![0, 0, 0, 0] q slices_S16x56x56x96_S16x1x56x96_0_0_0_0)⟩, ⟨S16x55x56x96, (extractStridedSlice S16x55x56x96 ![0, 0, 0, 0] q slices_S16x56x56x96_S16x55x56x96_0_0_0_0)⟩] concatenates_S16x1x56x96_S16x55x56x96_S16x56x56x96_d1
/-- One pixel up along the height, the last row repeated. -/
def shU (q : FVec Ideal S16x56x56x96 .f32) : FVec Ideal S16x56x56x96 .f32 :=
  concatenate S16x56x56x96 1 [⟨S16x55x56x96, (extractStridedSlice S16x55x56x96 ![0, 1, 0, 0] q slices_S16x56x56x96_S16x55x56x96_0_1_0_0)⟩, ⟨S16x1x56x96, (extractStridedSlice S16x1x56x96 ![0, 55, 0, 0] q slices_S16x56x56x96_S16x1x56x96_0_55_0_0)⟩] concatenates_S16x55x56x96_S16x1x56x96_S16x56x56x96_d1

theorem shR_apply (q : FVec Ideal S16x56x56x96 .f32) (b : Fin 16) (h w : Fin 56) (e : Fin 96) :
    shR q (ix4 b h w e) = q (ix4 b h (dn w) e) := by
  unfold shR
  by_cases hw : w.val = 0
  · refine (concatenate_pair_apply_left (t := S16x56x56x96) (s₁ := S16x56x1x96) (s₂ := S16x56x55x96) 2 _ _ _ (ix4 b h w e) rfl (ix4 b h (0 : Fin 1) e) fun ax => ?_).trans ?_
    · match ax with
      | ⟨0, _⟩ => rfl
      | ⟨1, _⟩ => rfl
      | ⟨2, _⟩ => exact hw.symm
      | ⟨3, _⟩ => rfl
    · exact slice4_apply _ q _ b h (0 : Fin 1) e b h (dn w) e (by simp) (by simp) (by rw [dn_val]; simp; omega) (by simp)
  · have hw1 : w.val - 1 < 55 := by have := w.isLt; omega
    refine (concatenate_pair_apply_right (t := S16x56x56x96) (s₁ := S16x56x1x96) (s₂ := S16x56x55x96) 2 _ _ _ (ix4 b h w e) rfl rfl (ix4 b h (⟨w.val - 1, hw1⟩ : Fin 55) e)
      (fun ax => ?_) ?_).trans ?_
    · match ax with
      | ⟨0, _⟩ => exact fun _ => rfl
      | ⟨1, _⟩ => exact fun _ => rfl
      | ⟨2, _⟩ => exact fun hne => absurd rfl hne
      | ⟨3, _⟩ => exact fun _ => rfl
    · show (w.val - 1) + 1 = w.val
      omega
    · exact slice4_apply _ q _ b h (⟨w.val - 1, hw1⟩ : Fin 55) e b h (dn w) e (by simp) (by simp) (by rw [dn_val]; simp) (by simp)

theorem shL_apply (q : FVec Ideal S16x56x56x96 .f32) (b : Fin 16) (h w : Fin 56) (e : Fin 96) :
    shL q (ix4 b h w e) = q (ix4 b h (up w) e) := by
  unfold shL
  by_cases hw : w.val < 55
  · refine (concatenate_pair_apply_left (t := S16x56x56x96) (s₁ := S16x56x55x96) (s₂ := S16x56x1x96) 2 _ _ _ (ix4 b h w e) rfl (ix4 b h (⟨w.val, hw⟩ : Fin 55) e) fun ax => ?_).trans ?_
    · match ax with
      | ⟨0, _⟩ => rfl
      | ⟨1, _⟩ => rfl
      | ⟨2, _⟩ => rfl
      | ⟨3, _⟩ => rfl
    · exact slice4_apply _ q _ b h (⟨w.val, hw⟩ : Fin 55) e b h (up w) e (by simp) (by simp) (by rw [up_val, if_pos hw]; simp; omega) (by simp)
  · have hw55 : w.val = 55 := by have := w.isLt; omega
    refine (concatenate_pair_apply_right (t := S16x56x56x96) (s₁ := S16x56x55x96) (s₂ := S16x56x1x96) 2 _ _ _ (ix4 b h w e) rfl rfl (ix4 b h (0 : Fin 1) e)
      (fun ax => ?_) ?_).trans ?_
    · match ax with
      | ⟨0, _⟩ => exact fun _ => rfl
      | ⟨1, _⟩ => exact fun _ => rfl
      | ⟨2, _⟩ => exact fun hne => absurd rfl hne
      | ⟨3, _⟩ => exact fun _ => rfl
    · show 0 + 55 = w.val
      omega
    · exact slice4_apply _ q _ b h (0 : Fin 1) e b h (up w) e (by simp) (by simp) (by rw [up_val, if_neg hw]; simp) (by simp)

theorem shD_apply (q : FVec Ideal S16x56x56x96 .f32) (b : Fin 16) (h w : Fin 56) (e : Fin 96) :
    shD q (ix4 b h w e) = q (ix4 b (dn h) w e) := by
  unfold shD
  by_cases hh : h.val = 0
  · refine (concatenate_pair_apply_left (t := S16x56x56x96) (s₁ := S16x1x56x96) (s₂ := S16x55x56x96) 1 _ _ _ (ix4 b h w e) rfl (ix4 b (0 : Fin 1) w e) fun ax => ?_).trans ?_
    · match ax with
      | ⟨0, _⟩ => rfl
      | ⟨1, _⟩ => exact hh.symm
      | ⟨2, _⟩ => rfl
      | ⟨3, _⟩ => rfl
    · exact slice4_apply _ q _ b (0 : Fin 1) w e b (dn h) w e (by simp) (by rw [dn_val]; simp; omega) (by simp) (by simp)
  · have hh1 : h.val - 1 < 55 := by have := h.isLt; omega
    refine (concatenate_pair_apply_right (t := S16x56x56x96) (s₁ := S16x1x56x96) (s₂ := S16x55x56x96) 1 _ _ _ (ix4 b h w e) rfl rfl (ix4 b (⟨h.val - 1, hh1⟩ : Fin 55) w e)
      (fun ax => ?_) ?_).trans ?_
    · match ax with
      | ⟨0, _⟩ => exact fun _ => rfl
      | ⟨1, _⟩ => exact fun hne => absurd rfl hne
      | ⟨2, _⟩ => exact fun _ => rfl
      | ⟨3, _⟩ => exact fun _ => rfl
    · show (h.val - 1) + 1 = h.val
      omega
    · exact slice4_apply _ q _ b (⟨h.val - 1, hh1⟩ : Fin 55) w e b (dn h) w e (by simp) (by rw [dn_val]; simp) (by simp) (by simp)

theorem shU_apply (q : FVec Ideal S16x56x56x96 .f32) (b : Fin 16) (h w : Fin 56) (e : Fin 96) :
    shU q (ix4 b h w e) = q (ix4 b (up h) w e) := by
  unfold shU
  by_cases hh : h.val < 55
  · refine (concatenate_pair_apply_left (t := S16x56x56x96) (s₁ := S16x55x56x96) (s₂ := S16x1x56x96) 1 _ _ _ (ix4 b h w e) rfl (ix4 b (⟨h.val, hh⟩ : Fin 55) w e) fun ax => ?_).trans ?_
    · match ax with
      | ⟨0, _⟩ => rfl
      | ⟨1, _⟩ => rfl
      | ⟨2, _⟩ => rfl
      | ⟨3, _⟩ => rfl
    · exact slice4_apply _ q _ b (⟨h.val, hh⟩ : Fin 55) w e b (up h) w e (by simp) (by rw [up_val, if_pos hh]; simp; omega) (by simp) (by simp)
  · have hh55 : h.val = 55 := by have := h.isLt; omega
    refine (concatenate_pair_apply_right (t := S16x56x56x96) (s₁ := S16x55x56x96) (s₂ := S16x1x56x96) 1 _ _ _ (ix4 b h w e) rfl rfl (ix4 b (0 : Fin 1) w e)
      (fun ax => ?_) ?_).trans ?_
    · match ax with
      | ⟨0, _⟩ => exact fun _ => rfl
      | ⟨1, _⟩ => exact fun hne => absurd rfl hne
      | ⟨2, _⟩ => exact fun _ => rfl
      | ⟨3, _⟩ => exact fun _ => rfl
    · show 0 + 55 = h.val
      omega
    · exact slice4_apply _ q _ b (0 : Fin 1) w e b (up h) w e (by simp) (by rw [up_val, if_neg hh]; simp) (by simp) (by simp)

/-- The four quarters (96 channels each) of a group of 384 channels. -/
def quarter0 (v : FVec Ideal S16x56x56x384 .f32) : FVec Ideal S16x56x56x96 .f32 :=
  extractStridedSlice S16x56x56x96 ![0, 0, 0, 0] v slices_S16x56x56x384_S16x56x56x96_0_0_0_0
def quarter1 (v : FVec Ideal S16x56x56x384 .f32) : FVec Ideal S16x56x56x96 .f32 :=
  extractStridedSlice S16x56x56x96 ![0, 0, 0, 96] v slices_S16x56x56x384_S16x56x56x96_0_0_0_96
def quarter2 (v : FVec Ideal S16x56x56x384 .f32) : FVec Ideal S16x56x56x96 .f32 :=
  extractStridedSlice S16x56x56x96 ![0, 0, 0, 192] v slices_S16x56x56x384_S16x56x56x96_0_0_0_192
def quarter3 (v : FVec Ideal S16x56x56x384 .f32) : FVec Ideal S16x56x56x96 .f32 :=
  extractStridedSlice S16x56x56x96 ![0, 0, 0, 288] v slices_S16x56x56x384_S16x56x56x96_0_0_0_288

theorem quarter0_apply (v : FVec Ideal S16x56x56x384 .f32) (b : Fin 16) (h w : Fin 56) (e : Fin 96) (d : Fin 384)
    (hd : d.val = e.val) : quarter0 v (ix4 b h w e) = v (ix4 b h w d) :=
  slice4_apply _ v _ b h w e b h w d (by simp) (by simp) (by simp) (by simp [hd])
theorem quarter1_apply (v : FVec Ideal S16x56x56x384 .f32) (b : Fin 16) (h w : Fin 56) (e : Fin 96) (d : Fin 384)
    (hd : d.val = 96 + e.val) : quarter1 v (ix4 b h w e) = v (ix4 b h w d) :=
  slice4_apply _ v _ b h w e b h w d (by simp) (by simp) (by simp) (by simp [hd])
theorem quarter2_apply (v : FVec Ideal S16x56x56x384 .f32) (b : Fin 16) (h w : Fin 56) (e : Fin 96) (d : Fin 384)
    (hd : d.val = 192 + e.val) : quarter2 v (ix4 b h w e) = v (ix4 b h w d) :=
  slice4_apply _ v _ b h w e b h w d (by simp) (by simp) (by simp) (by simp [hd])
theorem quarter3_apply (v : FVec Ideal S16x56x56x384 .f32) (b : Fin 16) (h w : Fin 56) (e : Fin 96) (d : Fin 384)
    (hd : d.val = 288 + e.val) : quarter3 v (ix4 b h w e) = v (ix4 b h w d) :=
  slice4_apply _ v _ b h w e b h w d (by simp) (by simp) (by simp) (by simp [hd])

/-- Four blocks of 96 channels laid side by side along the channel axis. -/
def cat4 (p0 p1 p2 p3 : FVec Ideal S16x56x56x96 .f32) : FVec Ideal S16x56x56x384 .f32 :=
  concatenate S16x56x56x384 3 [⟨S16x56x56x96, p0⟩, ⟨S16x56x56x96, p1⟩, ⟨S16x56x56x96, p2⟩, ⟨S16x56x56x96, p3⟩] concatenates_S16x56x56x96_S16x56x56x96_S16x56x56x96_S16x56x56x96_S16x56x56x384_d3

private theorem cat4_hi (b : Fin 16) (h w : Fin 56) (d : Fin 384) (e : Fin 96) :
    ∀ ax : Fin S16x56x56x96.rank, ax.cast (rfl : S16x56x56x96.rank = S16x56x56x384.rank) ≠ 3 →
      ((ix4 b h w e : S16x56x56x96.Idx) ax).val = ((ix4 b h w d : S16x56x56x384.Idx) (ax.cast rfl)).val := fun ax => by
  match ax with
  | ⟨0, _⟩ => exact fun _ => rfl
  | ⟨1, _⟩ => exact fun _ => rfl
  | ⟨2, _⟩ => exact fun _ => rfl
  | ⟨3, _⟩ => exact fun hne => absurd rfl hne

theorem cat4_apply0 (p0 p1 p2 p3 : FVec Ideal S16x56x56x96 .f32) (b : Fin 16) (h w : Fin 56) (d : Fin 384) (e : Fin 96)
    (hd : d.val = e.val) : cat4 p0 p1 p2 p3 (ix4 b h w d) = p0 (ix4 b h w e) := by
  unfold cat4
  refine concatenate_apply_piece (t := S16x56x56x384) 3 _ _ (ix4 b h w d) 0 (by simp) S16x56x56x96 p0 rfl rfl 0 rfl (ix4 b h w e)
    (cat4_hi b h w d e) ?_
  show 0 + e.val = d.val
  omega
theorem cat4_apply1 (p0 p1 p2 p3 : FVec Ideal S16x56x56x96 .f32) (b : Fin 16) (h w : Fin 56) (d : Fin 384) (e : Fin 96)
    (hd : d.val = 96 + e.val) : cat4 p0 p1 p2 p3 (ix4 b h w d) = p1 (ix4 b h w e) := by
  unfold cat4
  refine concatenate_apply_piece (t := S16x56x56x384) 3 _ _ (ix4 b h w d) 1 (by simp) S16x56x56x96 p1 rfl rfl 96 rfl (ix4 b h w e)
    (cat4_hi b h w d e) ?_
  show 96 + e.val = d.val
  omega
theorem cat4_apply2 (p0 p1 p2 p3 : FVec Ideal S16x56x56x96 .f32) (b : Fin 16) (h w : Fin 56) (d : Fin 384) (e : Fin 96)
    (hd : d.val = 192 + e.val) : cat4 p0 p1 p2 p3 (ix4 b h w d) = p2 (ix4 b h w e) := by
  unfold cat4
  refine concatenate_apply_piece (t := S16x56x56x384) 3 _ _ (ix4 b h w d) 2 (by simp) S16x56x56x96 p2 rfl rfl 192 rfl (ix4 b h w e)
    (cat4_hi b h w d e) ?_
  show 192 + e.val = d.val
  omega
theorem cat4_apply3 (p0 p1 p2 p3 : FVec Ideal S16x56x56x96 .f32) (b : Fin 16) (h w : Fin 56) (d : Fin 384) (e : Fin 96)
    (hd : d.val = 288 + e.val) : cat4 p0 p1 p2 p3 (ix4 b h w d) = p3 (ix4 b h w e) := by
  unfold cat4
  refine concatenate_apply_piece (t := S16x56x56x384) 3 _ _ (ix4 b h w d) 3 (by simp) S16x56x56x96 p3 rfl rfl 288 rfl (ix4 b h w e)
    (cat4_hi b h w d e) ?_
  show 288 + e.val = d.val
  omega

/-- The first group's move: its quarters go right, left, down, up. -/
def shift1 (v : FVec Ideal S16x56x56x384 .f32) : FVec Ideal S16x56x56x384 .f32 :=
  cat4 (shR (quarter0 v)) (shL (quarter1 v)) (shD (quarter2 v)) (shU (quarter3 v))
/-- The second group's move: its quarters go down, up, right, left. -/
def shift2 (v : FVec Ideal S16x56x56x384 .f32) : FVec Ideal S16x56x56x384 .f32 :=
  cat4 (shD (quarter0 v)) (shU (quarter1 v)) (shR (quarter2 v)) (shL (quarter3 v))

theorem shift1_apply (v : FVec Ideal S16x56x56x384 .f32) (b : Fin 16) (h w : Fin 56) (d : Fin 384) :
    shift1 v (ix4 b h w d) =
      if d.val < 96 then v (ix4 b h (dn w) d)
      else if d.val < 192 then v (ix4 b h (up w) d)
      else if d.val < 288 then v (ix4 b (dn h) w d)
      else v (ix4 b (up h) w d) := by
  unfold shift1
  have hdlt := d.isLt
  by_cases h0 : d.val < 96
  · rw [if_pos h0, cat4_apply0 _ _ _ _ b h w d ⟨d.val, h0⟩ rfl, shR_apply, quarter0_apply v b h (dn w) ⟨d.val, h0⟩ d rfl]
  · rw [if_neg h0]
    by_cases h1 : d.val < 192
    · have he : d.val - 96 < 96 := by omega
      rw [if_pos h1, cat4_apply1 _ _ _ _ b h w d ⟨d.val - 96, he⟩ (by show d.val = 96 + (d.val - 96); omega), shL_apply,
        quarter1_apply v b h (up w) ⟨d.val - 96, he⟩ d (by show d.val = 96 + (d.val - 96); omega)]
    · rw [if_neg h1]
      by_cases h2 : d.val < 288
      · have he : d.val - 192 < 96 := by omega
        rw [if_pos h2, cat4_apply2 _ _ _ _ b h w d ⟨d.val - 192, he⟩ (by show d.val = 192 + (d.val - 192); omega), shD_apply,
          quarter2_apply v b (dn h) w ⟨d.val - 192, he⟩ d (by show d.val = 192 + (d.val - 192); omega)]
      · have he : d.val - 288 < 96 := by omega
        rw [if_neg h2, cat4_apply3 _ _ _ _ b h w d ⟨d.val - 288, he⟩ (by show d.val = 288 + (d.val - 288); omega), shU_apply,
          quarter3_apply v b (up h) w ⟨d.val - 288, he⟩ d (by show d.val = 288 + (d.val - 288); omega)]

theorem shift2_apply (v : FVec Ideal S16x56x56x384 .f32) (b : Fin 16) (h w : Fin 56) (d : Fin 384) :
    shift2 v (ix4 b h w d) =
      if d.val < 96 then v (ix4 b (dn h) w d)
      else if d.val < 192 then v (ix4 b (up h) w d)
      else if d.val < 288 then v (ix4 b h (dn w) d)
      else v (ix4 b h (up w) d) := by
  unfold shift2
  have hdlt := d.isLt
  by_cases h0 : d.val < 96
  · rw [if_pos h0, cat4_apply0 _ _ _ _ b h w d ⟨d.val, h0⟩ rfl, shD_apply, quarter0_apply v b (dn h) w ⟨d.val, h0⟩ d rfl]
  · rw [if_neg h0]
    by_cases h1 : d.val < 192
    · have he : d.val - 96 < 96 := by omega
      rw [if_pos h1, cat4_apply1 _ _ _ _ b h w d ⟨d.val - 96, he⟩ (by show d.val = 96 + (d.val - 96); omega), shU_apply,
        quarter1_apply v b (up h) w ⟨d.val - 96, he⟩ d (by show d.val = 96 + (d.val - 96); omega)]
    · rw [if_neg h1]
      by_cases h2 : d.val < 288
      · have he : d.val - 192 < 96 := by omega
        rw [if_pos h2, cat4_apply2 _ _ _ _ b h w d ⟨d.val - 192, he⟩ (by show d.val = 192 + (d.val - 192); omega), shR_apply,
          quarter2_apply v b h (dn w) ⟨d.val - 192, he⟩ d (by show d.val = 192 + (d.val - 192); omega)]
      · have he : d.val - 288 < 96 := by omega
        rw [if_neg h2, cat4_apply3 _ _ _ _ b h w d ⟨d.val - 288, he⟩ (by show d.val = 288 + (d.val - 288); omega), shL_apply,
          quarter3_apply v b h (up w) ⟨d.val - 288, he⟩ d (by show d.val = 288 + (d.val - 288); omega)]

/-- The three groups (384 channels each) of the 1152 projected channels. -/
def grp0 (y : FVec Ideal S16x56x56x1152 .f32) : FVec Ideal S16x56x56x384 .f32 :=
  extractStridedSlice S16x56x56x384 ![0, 0, 0, 0] y slices_S16x56x56x1152_S16x56x56x384_0_0_0_0
def grp1 (y : FVec Ideal S16x56x56x1152 .f32) : FVec Ideal S16x56x56x384 .f32 :=
  extractStridedSlice S16x56x56x384 ![0, 0, 0, 384] y slices_S16x56x56x1152_S16x56x56x384_0_0_0_384
def grp2 (y : FVec Ideal S16x56x56x1152 .f32) : FVec Ideal S16x56x56x384 .f32 :=
  extractStridedSlice S16x56x56x384 ![0, 0, 0, 768] y slices_S16x56x56x1152_S16x56x56x384_0_0_0_768

theorem grp0_apply (y : FVec Ideal S16x56x56x1152 .f32) (b : Fin 16) (h w : Fin 56) (d : Fin 384) :
    grp0 y (ix4 b h w d) = y (ix4 b h w (col 0 d)) :=
  slice4_apply _ y _ b h w d b h w (col 0 d) (by simp) (by simp) (by simp) (by simp [col])
theorem grp1_apply (y : FVec Ideal S16x56x56x1152 .f32) (b : Fin 16) (h w : Fin 56) (d : Fin 384) :
    grp1 y (ix4 b h w d) = y (ix4 b h w (col 1 d)) :=
  slice4_apply _ y _ b h w d b h w (col 1 d) (by simp) (by simp) (by simp) (by simp [col])
theorem grp2_apply (y : FVec Ideal S16x56x56x1152 .f32) (b : Fin 16) (h w : Fin 56) (d : Fin 384) :
    grp2 y (ix4 b h w d) = y (ix4 b h w (col 2 d)) :=
  slice4_apply _ y _ b h w d b h w (col 2 d) (by simp) (by simp) (by simp) (by simp [col])

/-- A group given a unit axis after the image axis, to be stacked. -/
def lift5 (g : FVec Ideal S16x56x56x384 .f32) : FVec Ideal S16x1x56x56x384 .f32 :=
  broadcastInDim S16x1x56x56x384 ![0, 2, 3, 4] bcast_S16x56x56x384_S16x1x56x56x384_0_2_3_4 g

theorem lift5_apply (g : FVec Ideal S16x56x56x384 .f32) (b : Fin 16) (h w : Fin 56) (d : Fin 384) :
    lift5 g (ix5 b (0 : Fin 1) h w d) = g (ix4 b h w d) := by
  unfold lift5
  refine broadcastInDim_apply _ _ _ _ (ix4 b h w d) fun a => ?_
  match a with
  | ⟨0, _⟩ => rfl
  | ⟨1, _⟩ => rfl
  | ⟨2, _⟩ => rfl
  | ⟨3, _⟩ => rfl

/-- The three groups stacked along a new axis and the two pixel axes merged into one. -/
def stack3 (g0 g1 g2 : FVec Ideal S16x1x56x56x384 .f32) : FVec Ideal S16x3x3136x384 .f32 :=
  shapeCast _ (concatenate S16x3x56x56x384 1 [⟨S16x1x56x56x384, g0⟩, ⟨S16x1x56x56x384, g1⟩, ⟨S16x1x56x56x384, g2⟩] concatenates_S16x1x56x56x384_S16x1x56x56x384_S16x1x56x56x384_S16x3x56x56x384_d1) shapeCasts_S16x3x56x56x384_S16x3x3136x384

/-- The merged pixel position of row `h`, column `w`. -/
def pix (h w : Fin 56) : Fin 3136 := ⟨56 * h.val + w.val, by have := h.isLt; have := w.isLt; omega⟩
theorem pix_val (h w : Fin 56) : (pix h w).val = 56 * h.val + w.val := rfl

private theorem stack3_hi (b : Fin 16) (k : Fin 3) (h w : Fin 56) (d : Fin 384) :
    ∀ ax : Fin S16x1x56x56x384.rank, ax.cast (rfl : S16x1x56x56x384.rank = S16x3x56x56x384.rank) ≠ 1 →
      ((ix5 b (0 : Fin 1) h w d : S16x1x56x56x384.Idx) ax).val = ((ix5 b k h w d : S16x3x56x56x384.Idx) (ax.cast rfl)).val := fun ax => by
  match ax with
  | ⟨0, _⟩ => exact fun _ => rfl
  | ⟨1, _⟩ => exact fun hne => absurd rfl hne
  | ⟨2, _⟩ => exact fun _ => rfl
  | ⟨3, _⟩ => exact fun _ => rfl
  | ⟨4, _⟩ => exact fun _ => rfl

theorem stack3_apply (g0 g1 g2 : FVec Ideal S16x1x56x56x384 .f32) (b : Fin 16) (k : Fin 3) (h w : Fin 56) (d : Fin 384) :
    stack3 g0 g1 g2 (ix4 b k (pix h w) d) =
      (match k with | 0 => g0 | 1 => g1 | 2 => g2) (ix5 b (0 : Fin 1) h w d) := by
  unfold stack3
  refine (shapeCast_apply _ _ (ix4 b k (pix h w) d) (ix5 b k h w d) ?_).trans ?_
  · rw [Shape.rowMajor_val_five, Shape.rowMajor_val_four]
    show ((((b.val * 3 + k.val) * 56 + h.val) * 56 + w.val) * 384 + d.val) = ((b.val * 3 + k.val) * 3136 + (56 * h.val + w.val)) * 384 + d.val
    omega
  · match k with
    | 0 =>
      refine concatenate_apply_piece (t := S16x3x56x56x384) 1 _ _ (ix5 b 0 h w d) 0 (by simp) S16x1x56x56x384 g0 rfl rfl 0 rfl
        (ix5 b (0 : Fin 1) h w d) (stack3_hi b 0 h w d) ?_
      rfl
    | 1 =>
      refine concatenate_apply_piece (t := S16x3x56x56x384) 1 _ _ (ix5 b 1 h w d) 1 (by simp) S16x1x56x56x384 g1 rfl rfl 1 rfl
        (ix5 b (0 : Fin 1) h w d) (stack3_hi b 1 h w d) ?_
      rfl
    | 2 =>
      refine concatenate_apply_piece (t := S16x3x56x56x384) 1 _ _ (ix5 b 2 h w d) 2 (by simp) S16x1x56x56x384 g2 rfl rfl 2 rfl
        (ix5 b (0 : Fin 1) h w d) (stack3_hi b 2 h w d) ?_
      rfl

/-- The whole rearrangement of the projected activations: the three groups, the first two moved, stacked. -/
def stacked (y : FVec Ideal S16x56x56x1152 .f32) : FVec Ideal S16x3x3136x384 .f32 :=
  stack3 (lift5 (shift1 (grp0 y))) (lift5 (shift2 (grp1 y))) (lift5 (grp2 y))

/-- The stacked array at image `b`, group `k`, pixel (h, w), channel `d` is the mixing specification `Mix.mixed`, when the
    projected activations are `Mix.pre`. -/
theorem stacked_apply (x : Cert.Mix.Act) (W1 : Cert.Mix.Wide) (b1 : Cert.Mix.Bias3) (y : FVec Ideal S16x56x56x1152 .f32)
    (hy : ∀ b h w j, y (ix4 b h w j) = Cert.Mix.pre x W1 b1 b h w j)
    (b : Fin 16) (k : Fin 3) (h w : Fin 56) (d : Fin 384) :
    stacked y (ix4 b k (pix h w) d) = Cert.Mix.mixed x W1 b1 k b h w d := by
  unfold stacked
  rw [stack3_apply]
  match k with
  | 0 =>
    show lift5 (shift1 (grp0 y)) (ix5 b (0 : Fin 1) h w d) = Cert.Mix.mix0 x W1 b1 b h w d
    rw [lift5_apply, shift1_apply]
    unfold Cert.Mix.mix0
    simp only [grp0_apply, hy]
  | 1 =>
    show lift5 (shift2 (grp1 y)) (ix5 b (0 : Fin 1) h w d) = Cert.Mix.mix1 x W1 b1 b h w d
    rw [lift5_apply, shift2_apply]
    unfold Cert.Mix.mix1
    simp only [grp1_apply, hy]
  | 2 =>
    show lift5 (grp2 y) (ix5 b (0 : Fin 1) h w d) = Cert.Mix.mix2 x W1 b1 b h w d
    rw [lift5_apply, grp2_apply, hy]
    rfl

/-! ## The sum over groups and pixels -/

/-- The merged pixel axis summed is the double sum over rows and columns. -/
theorem sum_pix (f : Fin 3136 → EReal) : ∑ p : Fin 3136, f p = ∑ h : Fin 56, ∑ w : Fin 56, f (pix h w) := by
  rw [← Equiv.sum_comp (finProdFinEquiv (m := 56) (n := 56)) f, Fintype.sum_prod_type]
  refine Finset.sum_congr rfl fun h _ => Finset.sum_congr rfl fun w _ => congrArg f (Fin.ext ?_)
  show w.val + 56 * h.val = 56 * h.val + w.val
  omega

/-- Dropping the group and pixel axes of an index keeps its image and channel. -/
theorem drop12_eq (hR : S16x3x3136x384.ReducesTo [1, 2] S16x384) (i : S16x3x3136x384.Idx) :
    hR.drop i = ix2 (i 0) (i 3) := by
  funext a
  match a with
  | ⟨0, _⟩ => rfl
  | ⟨1, _⟩ => rfl

/-- The elements that reduce to image `b`, channel `d`, summed: the double sum over groups and merged pixels. -/
theorem sum_drop12 (f : S16x3x3136x384.Idx → EReal) (hR : S16x3x3136x384.ReducesTo [1, 2] S16x384) (b : Fin 16) (d : Fin 384) :
    ∑ i ∈ Finset.univ.filter (fun i => hR.drop i = ix2 b d), f i = ∑ k : Fin 3, ∑ p : Fin 3136, f (ix4 b k p d) := by
  rw [← Finset.sum_product' Finset.univ Finset.univ fun (k : Fin 3) (p : Fin 3136) => f (ix4 b k p d)]
  refine Finset.sum_bij' (fun i _ => ((i 1 : Fin 3), (i 2 : Fin 3136))) (fun kp _ => ix4 b kp.1 kp.2 d) ?_ ?_ ?_ ?_ ?_
  · intro i _; exact Finset.mem_product.2 ⟨Finset.mem_univ _, Finset.mem_univ _⟩
  · intro kp _
    exact Finset.mem_filter.2 ⟨Finset.mem_univ _, (drop12_eq hR _).trans rfl⟩
  · intro i hi
    have h1 := (Finset.mem_filter.1 hi).2
    rw [drop12_eq] at h1
    have e0 : (i 0 : Fin 16) = b := congrFun h1 0
    have e3 : (i 3 : Fin 384) = d := congrFun h1 1
    funext a
    match a with
    | ⟨0, _⟩ => exact e0.symm
    | ⟨1, _⟩ => rfl
    | ⟨2, _⟩ => rfl
    | ⟨3, _⟩ => exact e3.symm
  · intro kp _; rfl
  · intro i hi
    have h1 := (Finset.mem_filter.1 hi).2
    rw [drop12_eq] at h1
    have e0 : (i 0 : Fin 16) = b := congrFun h1 0
    have e3 : (i 3 : Fin 384) = d := congrFun h1 1
    refine congrArg f ?_
    funext a
    match a with
    | ⟨0, _⟩ => exact e0
    | ⟨1, _⟩ => rfl
    | ⟨2, _⟩ => rfl
    | ⟨3, _⟩ => exact e3

/-- The reference's sum over the group and pixel axes, from zero, read at image `b`, channel `d`. -/
theorem pool_sum (z : FVec Ideal S16x3x3136x384 .f32) (b : Fin 16) (d : Fin 384) :
    Host.reduceAdd (F := Ideal) z (constant (F := Ideal) S_ .f32 0x00000000#32) reducesTo_S16x3x3136x384_S16x384_d1_2 h_S_ (ix2 b d)
      = ∑ k : Fin 3, ∑ h : Fin 56, ∑ w : Fin 56, z (ix4 b k (pix h w) d) := by
  show Ideal.hostReduceAdd reducesTo_S16x3x3136x384_S16x384_d1_2 z (Ideal.ofBits .f32 0x00000000#32) (ix2 b d) = _
  unfold Ideal.hostReduceAdd
  show Ideal.ofBits .f32 0x00000000#32 + ∑ i ∈ Finset.univ.filter (fun i => reducesTo_S16x3x3136x384_S16x384_d1_2.drop i = ix2 b d), z i = _
  rw [Ideal.ofBits_zero_f32, zero_add, sum_drop12]
  exact Finset.sum_congr rfl fun k _ => sum_pix fun p => z (ix4 b k p d)

/-- With the projected activations `Mix.pre`, the reference's pooled sums are `Mix.pool`. -/
theorem pool_eq (x : Cert.Mix.Act) (W1 : Cert.Mix.Wide) (b1 : Cert.Mix.Bias3) (y : FVec Ideal S16x56x56x1152 .f32)
    (hy : ∀ b h w j, y (ix4 b h w j) = Cert.Mix.pre x W1 b1 b h w j) :
    Host.reduceAdd (F := Ideal) (stacked y) (constant (F := Ideal) S_ .f32 0x00000000#32) reducesTo_S16x3x3136x384_S16x384_d1_2 h_S_
      = Cert.Mix.pool x W1 b1 := by
  funext i
  obtain ⟨b, d, rfl⟩ : ∃ (b : Fin 16) (d : Fin 384), i = ix2 b d := ⟨i 0, i 1, eq_ix2 i⟩
  rw [pool_sum]
  show _ = ∑ k : Fin 3, ∑ h : Fin 56, ∑ w : Fin 56, Cert.Mix.mixed x W1 b1 k b h w d
  exact Finset.sum_congr rfl fun k _ => Finset.sum_congr rfl fun h _ => Finset.sum_congr rfl fun w _ =>
    stacked_apply x W1 b1 y hy b k h w d

/-! ## The gated sum and the second projection -/

/-- The gate weights, laid over every pixel, read their entry for the image, group and channel. -/
theorem gatebc_apply (g : FVec Ideal S16x3x384 .f32) (b : Fin 16) (k : Fin 3) (p : Fin 3136) (d : Fin 384) :
    broadcastInDim S16x3x3136x384 ![0, 1, 2, 3] bcast_S16x3x1x384_S16x3x3136x384_0_1_2_3
      (broadcastInDim S16x3x1x384 ![0, 1, 3] bcast_S16x3x384_S16x3x1x384_0_1_3 g) (ix4 b k p d) = g (ix3 b k d) := by
  refine (broadcastInDim_apply _ _ _ (ix4 b k p d) (ix4 b k (0 : Fin 1) d) fun a => ?_).trans ?_
  · match a with
    | ⟨0, _⟩ => rfl
    | ⟨1, _⟩ => rfl
    | ⟨2, _⟩ => rfl
    | ⟨3, _⟩ => rfl
  · refine broadcastInDim_apply _ _ _ _ (ix3 b k d) fun a => ?_
    match a with
    | ⟨0, _⟩ => rfl
    | ⟨1, _⟩ => rfl
    | ⟨2, _⟩ => rfl

/-- The weighted sum over the three groups, from zero, read at image `b`, merged pixel `p`, channel `d`. -/
theorem wsum_apply (g : FVec Ideal S16x3x384 .f32) (z : FVec Ideal S16x3x3136x384 .f32) (b : Fin 16) (p : Fin 3136) (d : Fin 384) :
    Host.reduceAdd (F := Ideal) (mulf (broadcastInDim S16x3x3136x384 ![0, 1, 2, 3] bcast_S16x3x1x384_S16x3x3136x384_0_1_2_3
      (broadcastInDim S16x3x1x384 ![0, 1, 3] bcast_S16x3x384_S16x3x1x384_0_1_3 g)) z)
      (constant (F := Ideal) S_ .f32 0x00000000#32) reducesTo_S16x3x3136x384_S16x3136x384_d1 h_S_ (ix3 b p d)
      = ∑ k : Fin 3, g (ix3 b k d) * z (ix4 b k p d) := by
  have hRed : S16x3x3136x384.Reduces [1] S16x3136x384 := by decide
  show Ideal.hostReduceAdd reducesTo_S16x3x3136x384_S16x3136x384_d1 _ (Ideal.ofBits .f32 0x00000000#32) (ix3 b p d) = _
  refine (Ideal.hostReduceAdd_single reducesTo_S16x3x3136x384_S16x3136x384_d1 hRed _ _ (ix3 b p d)).trans ?_
  rw [Ideal.ofBits_zero_f32, zero_add]
  show ∑ k : Fin 3, _ = _
  refine Finset.sum_congr rfl fun k _ => ?_
  have hl : hRed.lift (ix3 b p d) k = ix4 b k p d := by
    funext a; apply Fin.ext
    match a with
    | ⟨0, _⟩ => rfl
    | ⟨1, _⟩ => rfl
    | ⟨2, _⟩ => rfl
    | ⟨3, _⟩ => rfl
  rw [hl]
  show broadcastInDim S16x3x3136x384 ![0, 1, 2, 3] bcast_S16x3x1x384_S16x3x3136x384_0_1_2_3
      (broadcastInDim S16x3x1x384 ![0, 1, 3] bcast_S16x3x384_S16x3x1x384_0_1_3 g) (ix4 b k p d) * z (ix4 b k p d) = _
  rw [gatebc_apply]

/-- The merged pixel axis split back into rows and columns. -/
theorem merge_apply (u : FVec Ideal S16x3136x384 .f32) (b : Fin 16) (h w : Fin 56) (d : Fin 384) :
    shapeCast S16x56x56x384 u shapeCasts_S16x3136x384_S16x56x56x384 (ix4 b h w d) = u (ix3 b (pix h w) d) := by
  refine shapeCast_apply u _ (ix4 b h w d) (ix3 b (pix h w) d) ?_
  rw [Shape.rowMajor_val_three, Shape.rowMajor_val_four]
  show (b.val * 3136 + (56 * h.val + w.val)) * 384 + d.val = ((b.val * 56 + h.val) * 56 + w.val) * 384 + d.val
  omega

/-- The last stage read at one pixel and output channel. -/
theorem final_apply (g : FVec Ideal S16x3x384 .f32) (z : FVec Ideal S16x3x3136x384 .f32) (W2 : FVec Ideal S384x384 .f32)
    (b2 : FVec Ideal S384 .f32) (b : Fin 16) (h w : Fin 56) (n : Fin 384) :
    addf (Host.dotGeneral (F := Ideal) dot_S16x56x56x384_S384x384_S16x56x56x384_3_0_012_1_n_n none
        (shapeCast S16x56x56x384 (Host.reduceAdd (F := Ideal) (mulf (broadcastInDim S16x3x3136x384 ![0, 1, 2, 3] bcast_S16x3x1x384_S16x3x3136x384_0_1_2_3
          (broadcastInDim S16x3x1x384 ![0, 1, 3] bcast_S16x3x384_S16x3x1x384_0_1_3 g)) z)
          (constant (F := Ideal) S_ .f32 0x00000000#32) reducesTo_S16x3x3136x384_S16x3136x384_d1 h_S_) shapeCasts_S16x3136x384_S16x56x56x384) W2)
      (broadcastInDim S16x56x56x384 ![0, 1, 2, 3] bcast_S1x1x1x384_S16x56x56x384_0_1_2_3
        (broadcastInDim S1x1x1x384 ![3] bcast_S384_S1x1x1x384_3 b2)) (ix4 b h w n)
      = (∑ d : Fin 384, (∑ k : Fin 3, g (ix3 b k d) * z (ix4 b k (pix h w) d)) * W2 (ix2 d n)) + b2 (ix1 n) := by
  refine (addf_apply _ _ (ix4 b h w n)).trans ?_
  rw [dot2_apply, bias2_apply]
  refine congrArg (· + b2 (ix1 n)) (Finset.sum_congr rfl fun d _ => ?_)
  rw [merge_apply, wsum_apply]

/-- `Mix.result` at an index of literal coordinates. -/
theorem result_ix4 (x : Cert.Mix.Act) (W1 : Cert.Mix.Wide) (b1 : Cert.Mix.Bias3) (W2 : Cert.Mix.Sq) (b2 : Cert.Mix.Bias)
    (g : Cert.Mix.Gates) (b : Fin 16) (h w : Fin 56) (n : Fin 384) :
    Cert.Mix.result x W1 b1 W2 b2 g (ix4 b h w n)
      = (∑ d : Fin 384, (∑ k : Fin 3, g (ix3 b k d) * Cert.Mix.mixed x W1 b1 k b h w d) * W2 (ix2 d n)) + b2 (ix1 n) := rfl

/-- With the projected activations `Mix.pre`, the last stage over the stacked groups is `Mix.result`. -/
theorem result_apply (x : Cert.Mix.Act) (W1 : Cert.Mix.Wide) (b1 : Cert.Mix.Bias3) (y : FVec Ideal S16x56x56x1152 .f32)
    (hy : ∀ b h w j, y (ix4 b h w j) = Cert.Mix.pre x W1 b1 b h w j)
    (g : FVec Ideal S16x3x384 .f32) (W2 : FVec Ideal S384x384 .f32) (b2 : FVec Ideal S384 .f32) :
    addf (Host.dotGeneral (F := Ideal) dot_S16x56x56x384_S384x384_S16x56x56x384_3_0_012_1_n_n none
        (shapeCast S16x56x56x384 (Host.reduceAdd (F := Ideal) (mulf (broadcastInDim S16x3x3136x384 ![0, 1, 2, 3] bcast_S16x3x1x384_S16x3x3136x384_0_1_2_3
          (broadcastInDim S16x3x1x384 ![0, 1, 3] bcast_S16x3x384_S16x3x1x384_0_1_3 g)) (stacked y))
          (constant (F := Ideal) S_ .f32 0x00000000#32) reducesTo_S16x3x3136x384_S16x3136x384_d1 h_S_) shapeCasts_S16x3136x384_S16x56x56x384) W2)
      (broadcastInDim S16x56x56x384 ![0, 1, 2, 3] bcast_S1x1x1x384_S16x56x56x384_0_1_2_3
        (broadcastInDim S1x1x1x384 ![3] bcast_S384_S1x1x1x384_3 b2))
      = Cert.Mix.result x W1 b1 W2 b2 g := by
  funext i
  obtain ⟨b, h, w, n, rfl⟩ : ∃ (b : Fin 16) (h w : Fin 56) (n : Fin 384), i = ix4 b h w n := ⟨i 0, i 1, i 2, i 3, eq_ix4 i⟩
  rw [final_apply]
  refine Eq.trans ?_ (result_ix4 x W1 b1 W2 b2 g b h w n).symm
  refine congrArg (· + b2 (ix1 n)) (Finset.sum_congr rfl fun d _ => congrArg (· * W2 (ix2 d n)) (Finset.sum_congr rfl fun k _ => ?_))
  rw [stacked_apply x W1 b1 y hy]

end Cert.ReferenceIdeal.RefLemmas
end
-- ==== Proof.RefValue.lean ====
/-
  The reference program's result, as one term of the arguments, is the mixing specification: `Mix.result` of the inputs,
  the two projections' weights and biases, and the gate `Mix.gate` of the pooled sums `Mix.pool`.  The gating chain is
  the same chain of operations on both sides and is never opened; everything else is read index by index in RefLemmas.
-/
import proofs.«106878_j9723805958798_1_alg».proof.Proof.RefRunP
import proofs.«106878_j9723805958798_1_alg».proof.Proof.Mix
import proofs.«106878_j9723805958798_1_alg».proof.Proof.Gate
import proofs.«106878_j9723805958798_1_alg».proof.Proof.RefLemmas

noncomputable section

open scoped BigOperators

namespace Cert.ReferenceIdeal.RefValue

open Idealize.ShloMosaic Idealize.ShloMosaic.ValueIdx Idealize.SL.Sem Idealize.ShloMosaic.TcCoe
open Cert.ReferenceIdeal Cert.ReferenceIdeal.Gen Cert.ReferenceIdeal.RunP Cert.ReferenceIdeal.RefLemmas

/-- The projected activations of the reference are `Mix.pre` of the inputs. -/
theorem v3_apply (V0 : Valuation τ sig (Elt Ideal)) (b : Fin 16) (h w : Fin 56) (j : Fin 1152) :
    res_main_v3 V0 (ix4 b h w j)
      = Cert.Mix.pre (V0 (Proc.devRef .tc main_arg0)) (V0 (Proc.devRef .tc main_arg1)) (V0 (Proc.devRef .tc main_arg2)) b h w j :=
  pre_apply _ _ _ b h w j

/-- The reference's stacked groups are the rearrangement `stacked` of its projected activations: the same term. -/
theorem v45_eq (V0 : Valuation τ sig (Elt Ideal)) : res_main_v45 V0 = stacked (res_main_v3 V0) := rfl

/-- The reference's stacked groups, read at an index, are `Mix.mixed`. -/
theorem v45_apply (V0 : Valuation τ sig (Elt Ideal)) (b : Fin 16) (k : Fin 3) (h w : Fin 56) (d : Fin 384) :
    res_main_v45 V0 (ix4 b k (pix h w) d)
      = Cert.Mix.mixed (V0 (Proc.devRef .tc main_arg0)) (V0 (Proc.devRef .tc main_arg1)) (V0 (Proc.devRef .tc main_arg2)) k b h w d := by
  rw [v45_eq]
  exact stacked_apply _ _ _ _ (v3_apply V0) b k h w d

/-- The reference's pooled sums are `Mix.pool`. -/
theorem pool_eq' (V0 : Valuation τ sig (Elt Ideal)) :
    Host.reduceAdd (F := Ideal) (res_main_v45 V0) (constant (F := Ideal) S_ .f32 0x00000000#32) reducesTo_S16x3x3136x384_S16x384_d1_2 h_S_
      = Cert.Mix.pool (V0 (Proc.devRef .tc main_arg0)) (V0 (Proc.devRef .tc main_arg1)) (V0 (Proc.devRef .tc main_arg2)) := by
  rw [v45_eq]
  exact pool_eq _ _ _ _ (v3_apply V0)

/-- The reference's gate weights are `Mix.gate` of its pooled sums: the same chain of operations. -/
theorem gate_eq (V0 : Valuation τ sig (Elt Ideal)) :
    Host.divf (F := Ideal) (res_main_v69 V0) (broadcastInDim S16x3x384 ![0, 1, 2] bcast_S16x1x384_S16x3x384_0_1_2 (broadcastInDim S16x1x384 ![0, 2] bcast_S16x384_S16x1x384_0_2 (Host.reduceAdd (F := Ideal) (res_main_v69 V0) (constant (F := Ideal) S_ .f32 0x00000000#32) reducesTo_S16x3x384_S16x384_d1 h_S_)))
      = Cert.Mix.gate (Host.reduceAdd (F := Ideal) (res_main_v45 V0) (constant (F := Ideal) S_ .f32 0x00000000#32) reducesTo_S16x3x3136x384_S16x384_d1_2 h_S_)
          (V0 (Proc.devRef .tc main_arg3)) (V0 (Proc.devRef .tc main_arg4)) := rfl

/-- The reference's result, as the run states it over the launch contents `V0`, is the mixing specification. -/
theorem result_eq (V0 : Valuation τ sig (Elt Ideal)) :
    addf (Host.dotGeneral (F := Ideal) (φ₁ := .f32) (φ₂ := .f32) dot_S16x56x56x384_S384x384_S16x56x56x384_3_0_012_1_n_n none (shapeCast _ (Host.reduceAdd (F := Ideal) (mulf (broadcastInDim S16x3x3136x384 ![0, 1, 2, 3] bcast_S16x3x1x384_S16x3x3136x384_0_1_2_3 (broadcastInDim S16x3x1x384 ![0, 1, 3] bcast_S16x3x384_S16x3x1x384_0_1_3 (Host.divf (F := Ideal) (res_main_v69 V0) (broadcastInDim S16x3x384 ![0, 1, 2] bcast_S16x1x384_S16x3x384_0_1_2 (broadcastInDim S16x1x384 ![0, 2] bcast_S16x384_S16x1x384_0_2 (Host.reduceAdd (F := Ideal) (res_main_v69 V0) (constant (F := Ideal) S_ .f32 0x00000000#32) reducesTo_S16x3x384_S16x384_d1 h_S_)))))) (res_main_v45 V0)) (constant (F := Ideal) S_ .f32 0x00000000#32) reducesTo_S16x3x3136x384_S16x3136x384_d1 h_S_) shapeCasts_S16x3136x384_S16x56x56x384) (V0 (Proc.devRef .tc main_arg5))) (broadcastInDim S16x56x56x384 ![0, 1, 2, 3] bcast_S1x1x1x384_S16x56x56x384_0_1_2_3 (broadcastInDim S1x1x1x384 ![3] bcast_S384_S1x1x1x384_3 (V0 (Proc.devRef .tc main_arg6))))
      = Cert.Mix.result (V0 (Proc.devRef .tc main_arg0)) (V0 (Proc.devRef .tc main_arg1)) (V0 (Proc.devRef .tc main_arg2))
          (V0 (Proc.devRef .tc main_arg5)) (V0 (Proc.devRef .tc main_arg6))
          (Cert.Mix.gate (Cert.Mix.pool (V0 (Proc.devRef .tc main_arg0)) (V0 (Proc.devRef .tc main_arg1)) (V0 (Proc.devRef .tc main_arg2)))
            (V0 (Proc.devRef .tc main_arg3)) (V0 (Proc.devRef .tc main_arg4))) := by
  rw [gate_eq, pool_eq', v45_eq]
  exact result_apply _ _ _ _ (v3_apply V0) _ _ _

end Cert.ReferenceIdeal.RefValue

end
-- ==== Proof.lean ====
/-
  The certificate of the spatial-shift mixing layer: the Pallas program (three projection-and-shift calls, one per group of
  384 channels, a gating computed on the host from the groups' pooled sums, and one combining call) against the plain
  reference, at the ideal instance where floats are extended reals.

  Both programs compute, index by index, `Cert.Mix.result` of the argument arrays: the three groups of the first projection,
  the first two shifted by one pixel with replicated borders (a different direction per quarter of the group), weighted by
  the softmax gate of a GELU of the groups' pooled sums, summed, and projected again. The kernel sums each group over the
  rows inside the columns per image and adds the three groups, where the reference sums over groups and pixels at once;
  the kernel weights the groups one after the other, where the reference sums over the group index; the kernel projects
  each group with its own 384 columns of the weights, where the reference projects once and cuts the groups out. Sums
  of extended reals may be regrouped and reordered, and their product commutes: nothing else is used, so the finiteness
  precondition is not needed for the value claim.

  The three frames: the two kernel programs' frames are generated; the reference's is its run with the result dropped.
  No rewrite was made when the kernel was idealized, so `preserves` is trivial.
-/
import proofs.«106878_j9723805958798_1_alg».proof.Defs
import proofs.«106878_j9723805958798_1_alg».proof.Proof.Gen.Kernel
import proofs.«106878_j9723805958798_1_alg».proof.Proof.Gen.Kernel.Skeleton
import proofs.«106878_j9723805958798_1_alg».proof.Proof.Gen.Kernel.Launch
import proofs.«106878_j9723805958798_1_alg».proof.Proof.Gen.Kernel.Points
import proofs.«106878_j9723805958798_1_alg».proof.Proof.Gen.Kernel.Frame
import proofs.«106878_j9723805958798_1_alg».proof.Proof.Gen.KernelIdeal
import proofs.«106878_j9723805958798_1_alg».proof.Proof.Gen.KernelIdeal.Skeleton
import proofs.«106878_j9723805958798_1_alg».proof.Proof.Gen.KernelIdeal.Launch
import proofs.«106878_j9723805958798_1_alg».proof.Proof.Gen.KernelIdeal.Points
import proofs.«106878_j9723805958798_1_alg».proof.Proof.Gen.KernelIdeal.Frame
import proofs.«106878_j9723805958798_1_alg».proof.Proof.Gen.ReferenceIdeal
import proofs.«106878_j9723805958798_1_alg».proof.Proof.RefRunP
import proofs.«106878_j9723805958798_1_alg».proof.Proof.Gen.Pre_finite_inputs
import proofs.«106878_j9723805958798_1_alg».proof.Proof.KernelRun
import proofs.«106878_j9723805958798_1_alg».proof.Proof.KernelValue
import proofs.«106878_j9723805958798_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the result array at the specification's result of the argument arrays: the kernel's by the fold
    through its regions, the reference's by its run read at an index; the arguments agree. -/
theorem algebraic : Cert.algebraic_KernelIdeal_ReferenceIdeal := by
  intro m ρ m' ρ' _ hagree
  refine ⟨fun c => Cert.Mix.result (Cert.KernelIdeal.KValue.aX m c) (Cert.KernelIdeal.KValue.aW1 m c) (Cert.KernelIdeal.KValue.aB1 m c)
      (Cert.KernelIdeal.KValue.aW2 m c) (Cert.KernelIdeal.KValue.aB2 m c)
      (Cert.Mix.gate (Cert.Mix.pool (Cert.KernelIdeal.KValue.aX m c) (Cert.KernelIdeal.KValue.aW1 m c) (Cert.KernelIdeal.KValue.aB1 m c))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.KValue.value m ρ c), (h c).2⟩)
      (Cert.KernelIdeal.RunV.run (F := Ideal) m ρ)
  · refine (θ_run Cert.ReferenceIdeal.defs _ _).mono (fun r h c => ⟨(h c).1.trans ?_, (h c).2⟩)
      (Cert.ReferenceIdeal.RunP.run (F := Ideal) m' ρ')
    refine (Cert.ReferenceIdeal.RefValue.result_eq (StableHlo.launchContents m' c)).trans ?_
    obtain ⟨a0, a1, a2, a3, a4, a5, a6⟩ := hagree c
    have e0 : StableHlo.launchContents m' c (Proc.devRef .tc Cert.ReferenceIdeal.main_arg0) = Cert.KernelIdeal.KValue.aX m c := a0
    have e1 : StableHlo.launchContents m' c (Proc.devRef .tc Cert.ReferenceIdeal.main_arg1) = Cert.KernelIdeal.KValue.aW1 m c := a1
    have e2 : StableHlo.launchContents m' c (Proc.devRef .tc Cert.ReferenceIdeal.main_arg2) = Cert.KernelIdeal.KValue.aB1 m c := a2
    have e3 : StableHlo.launchContents m' c (Proc.devRef .tc Cert.ReferenceIdeal.main_arg3)
        = m ((c.tc : Thread Cert.KernelIdeal.nD Cert.KernelIdeal.τ).loc Cert.KernelIdeal.main_arg3) := a3
    have e4 : StableHlo.launchContents m' c (Proc.devRef .tc Cert.ReferenceIdeal.main_arg4)
        = m ((c.tc : Thread Cert.KernelIdeal.nD Cert.KernelIdeal.τ).loc Cert.KernelIdeal.main_arg4) := a4
    have e5 : StableHlo.launchContents m' c (Proc.devRef .tc Cert.ReferenceIdeal.main_arg5) = Cert.KernelIdeal.KValue.aW2 m c := a5
    have e6 : StableHlo.launchContents m' c (Proc.devRef .tc Cert.ReferenceIdeal.main_arg6) = Cert.KernelIdeal.KValue.aB2 m c := a6
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
